-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v253) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S3x128 .f32) (main_arg6 : FVec F S128x40 .f32) (main_arg7 : FVec F S40 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S3x128x128 .f32) (main_arg3 : FVec F S3x128 .f32) (main_arg4 : FVec F S3x128 .f32) (main_arg5 : FVec F S3x128 .f32) (main_arg6 : FVec F S128x40 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S5000x1 : Shape := ⟨2, ![5000, 1]⟩
abbrev S800000x128 : Shape := ⟨2, ![800000, 128]⟩
abbrev S5000 : Shape := ⟨1, ![5000]⟩
abbrev S50000x40 : Shape := ⟨2, ![50000, 40]⟩

abbrev nBuf : Space → Nat
  | .hbm => 117
  | .vmem => 60
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S128x40, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S50000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S_, .f32⟩
  | .hbm, ⟨23, _⟩ => ⟨S800000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S1x128x128, .f32⟩
  | .hbm, ⟨31, _⟩ => ⟨S128x128, .f32⟩
  | .hbm, ⟨32, _⟩ => ⟨S1x128, .f32⟩
  | .hbm, ⟨33, _⟩ => ⟨S128, .f32⟩
  | .hbm, ⟨34, _⟩ => ⟨S1x128, .f32⟩
  | .hbm, ⟨35, _⟩ => ⟨S128, .f32⟩
  | .hbm, ⟨36, _⟩ => ⟨S1x128, .f32⟩
  | .hbm, ⟨37, _⟩ => ⟨S128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S50000x128, .f32⟩
  | .hbm, ⟨56, _⟩ => ⟨S1x128x128, .f32⟩
  | .hbm, ⟨57, _⟩ => ⟨S128x128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S128, .f32⟩
  | .hbm, ⟨62, _⟩ => ⟨S1x128, .f32⟩
  | .hbm, ⟨63, _⟩ => ⟨S128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S1x128, .f32⟩
  | .hbm, ⟨79, _⟩ => ⟨S1x128, .f32⟩
  | .hbm, ⟨80, _⟩ => ⟨S1x128, .f32⟩
  | .hbm, ⟨81, _⟩ => ⟨S50000x128, .f32⟩
  | .hbm, ⟨82, _⟩ => ⟨S1x128x128, .f32⟩
  | .hbm, ⟨83, _⟩ => ⟨S128x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S128, .f32⟩
  | .hbm, ⟨88, _⟩ => ⟨S1x128, .f32⟩
  | .hbm, ⟨89, _⟩ => ⟨S128, .f32⟩
  | .hbm, ⟨90, _⟩ => ⟨S50000x128, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x128, .f32⟩
  | .hbm, ⟨100, _⟩ => ⟨S_, .f32⟩
  | .hbm, ⟨101, _⟩ => ⟨S50000x128, .f32⟩
  | .hbm, ⟨102, _⟩ => ⟨S800000x1, .i32⟩
  | .hbm, ⟨103, _⟩ => ⟨S50000x128, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S50000x128, .f32⟩
  | .hbm, ⟨108, _⟩ => ⟨S_, .i32⟩
  | .hbm, ⟨109, _⟩ => ⟨S_, .f32⟩
  | .hbm, ⟨110, _⟩ => ⟨S128x128, .f32⟩
  | .hbm, ⟨111, _⟩ => ⟨S_, .i32⟩
  | .hbm, ⟨112, _⟩ => ⟨S_, .f32⟩
  | .hbm, ⟨113, _⟩ => ⟨S128, .f32⟩
  | .hbm, ⟨114, _⟩ => ⟨S1x128, .f32⟩
  | .hbm, ⟨115, _⟩ => ⟨S50000x128, .f32⟩
  | .hbm, ⟨116, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x1, .f32⟩
  | .local _ .vmem, ⟨22, _⟩ => ⟨S5000x1, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x1, .f32⟩
  | .local _ .vmem, ⟨30, _⟩ => ⟨S5000x1, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S128x128, .f32⟩
  | .local _ .vmem, ⟨39, _⟩ => ⟨S5000x1, .f32⟩
  | .local _ .vmem, ⟨40, _⟩ => ⟨S5000x1, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x1, .f32⟩
  | .local _ .vmem, ⟨48, _⟩ => ⟨S5000x1, .f32⟩
  | .local _ .vmem, ⟨49, _⟩ => ⟨S1x128, .f32⟩
  | .local _ .vmem, ⟨50, _⟩ => ⟨S1x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_6 : Ref sig .tc := ⟨.hbm, 65, rfl⟩
abbrev main_v49 : Ref sig .tc := ⟨.hbm, 66, rfl⟩
abbrev main_v50 : Ref sig .tc := ⟨.hbm, 67, rfl⟩
abbrev main_c_7 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_c_9 : Ref sig .tc := ⟨.hbm, 91, rfl⟩
abbrev main_v72 : Ref sig .tc := ⟨.hbm, 92, rfl⟩
abbrev main_v73 : Ref sig .tc := ⟨.hbm, 93, rfl⟩
abbrev main_c_10 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_cst_11 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_c_12 : Ref sig .tc := ⟨.hbm, 108, rfl⟩
abbrev main_call0_v0 : Ref sig .tc := ⟨.hbm, 109, rfl⟩
abbrev main_v86 : Ref sig .tc := ⟨.hbm, 110, rfl⟩
abbrev main_c_13 : Ref sig .tc := ⟨.hbm, 111, rfl⟩
abbrev main_call1_v0 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg2_1 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg6_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg6_0 : Ref sig .tc := ⟨.vmem, 52, rfl⟩
abbrev cc5_stg6_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem6_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem2_1 : DmaSem sig := 40
abbrev cc4_sem3_0 : DmaSem sig := 41
abbrev cc4_sem3_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem2_1 : DmaSem sig := 48
abbrev cc5_sem3_0 : DmaSem sig := 49
abbrev cc5_sem4_0 : DmaSem sig := 50
abbrev cc5_sem5_0 : DmaSem sig := 51
abbrev cc5_sem6_0 : DmaSem sig := 52
abbrev cc5_sem6_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  pads_S128x40_S128x128_000_0880 : S128x40.Pads (![0, 0] : Fin 2 → Nat) ![0, 88] ![0, 0] S128x128
  h_S_ : 0 < S_.numel
  pads_S40_S128_0880 : S40.Pads (![0] : Fin 1 → Nat) ![88] ![0] S128
  slices_S50000x128_S50000x40_0_0 : S50000x128.Slices ![0, 0] S50000x40
  scatter_S50000_S800000x1_S800000_n_0_0_1_wf : ScatterDims.WF S50000 S800000x1 S800000 [] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S50000x128.size a
  hwx4_3 : ∀ i : grid4.Coords, EltTy.bits .f32 = 32 ∨ (Rect.block (s := S50000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v25) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v36) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v39) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v48) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v62) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v64) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v16) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v71) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v81) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v71) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v16) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v82) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v83) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v84) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v85) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v85) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v86) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v88) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v89) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S50000x40 : Shape := ⟨2, ![50000, 40]⟩
abbrev S1x40 : Shape := ⟨2, ![1, 40]⟩

abbrev nBuf : Space → Nat
  | .hbm => 319
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128, .f32⟩
  | 5 => ⟨S3x128, .f32⟩
  | 6 => ⟨S128x40, .f32⟩
  | 7 => ⟨S40, .f32⟩
  | 8 => ⟨S1x800000, .i32⟩
  | 9 => ⟨S800000, .i32⟩
  | 10 => ⟨S1x800000, .i32⟩
  | 11 => ⟨S800000, .i32⟩
  | 12 => ⟨S1x128x128, .f32⟩
  | 13 => ⟨S128x128, .f32⟩
  | 14 => ⟨S1x128, .f32⟩
  | 15 => ⟨S128, .f32⟩
  | 16 => ⟨S50000x128, .f32⟩
  | 17 => ⟨S_, .f32⟩
  | 18 => ⟨S50000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S_, .f32⟩
  | 28 => ⟨S800000, .f32⟩
  | 29 => ⟨S50000, .f32⟩
  | 30 => ⟨S_, .f32⟩
  | 31 => ⟨S50000, .f32⟩
  | 32 => ⟨S50000, .f32⟩
  | 33 => ⟨S50000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S800000x1, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x128, .f32⟩
  | 63 => ⟨S800000x128, .f32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000, .f32⟩
  | 70 => ⟨S50000x1, .f32⟩
  | 71 => ⟨S50000x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S1x128, .f32⟩
  | 78 => ⟨S128, .f32⟩
  | 79 => ⟨S1x128, .f32⟩
  | 80 => ⟨S128, .f32⟩
  | 81 => ⟨S_, .f32⟩
  | 82 => ⟨S50000, .f32⟩
  | 83 => ⟨S50000x1, .f32⟩
  | 84 => ⟨S_, .f32⟩
  | 85 => ⟨S50000x1, .f32⟩
  | 86 => ⟨S50000x1, .f32⟩
  | 87 => ⟨S50000x128, .f32⟩
  | 88 => ⟨S50000x128, .f32⟩
  | 89 => ⟨S50000x128, .f32⟩
  | 90 => ⟨S_, .f32⟩
  | 91 => ⟨S50000, .f32⟩
  | 92 => ⟨S50000x1, .f32⟩
  | 93 => ⟨S_, .f32⟩
  | 94 => ⟨S50000x1, .f32⟩
  | 95 => ⟨S50000x1, .f32⟩
  | 96 => ⟨S50000x128, .f32⟩
  | 97 => ⟨S50000x128, .f32⟩
  | 98 => ⟨S_, .f32⟩
  | 99 => ⟨S50000x1, .f32⟩
  | 100 => ⟨S50000x1, .f32⟩
  | 101 => ⟨S50000x1, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S_, .f32⟩
  | 111 => ⟨S50000x128, .f32⟩
  | 112 => ⟨S50000x128, .f32⟩
  | 113 => ⟨S1x128x128, .f32⟩
  | 114 => ⟨S128x128, .f32⟩
  | 115 => ⟨S1x128, .f32⟩
  | 116 => ⟨S128, .f32⟩
  | 117 => ⟨S50000x128, .f32⟩
  | 118 => ⟨S_, .f32⟩
  | 119 => ⟨S50000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_1 (i : Nat) : BufTy := match i % 128 with
  | 0 => ⟨S_, .f32⟩
  | 1 => ⟨S800000, .f32⟩
  | 2 => ⟨S50000, .f32⟩
  | 3 => ⟨S_, .f32⟩
  | 4 => ⟨S50000, .f32⟩
  | 5 => ⟨S50000, .f32⟩
  | 6 => ⟨S50000, .f32⟩
  | 7 => ⟨S_, .i32⟩
  | 8 => ⟨S800000, .i32⟩
  | 9 => ⟨S800000, .i1⟩
  | 10 => ⟨S_, .i32⟩
  | 11 => ⟨S800000, .i32⟩
  | 12 => ⟨S800000, .i32⟩
  | 13 => ⟨S800000, .i32⟩
  | 14 => ⟨S800000x1, .i32⟩
  | 15 => ⟨S800000, .f32⟩
  | 16 => ⟨S_, .i32⟩
  | 17 => ⟨S800000, .i32⟩
  | 18 => ⟨S800000, .i1⟩
  | 19 => ⟨S_, .i32⟩
  | 20 => ⟨S800000, .i32⟩
  | 21 => ⟨S800000, .i32⟩
  | 22 => ⟨S800000, .i32⟩
  | 23 => ⟨S800000x1, .i32⟩
  | 24 => ⟨S800000, .f32⟩
  | 25 => ⟨S800000, .f32⟩
  | 26 => ⟨S800000x1, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S800000x128, .f32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000, .f32⟩
  | 43 => ⟨S50000x1, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S1x128, .f32⟩
  | 51 => ⟨S128, .f32⟩
  | 52 => ⟨S1x128, .f32⟩
  | 53 => ⟨S128, .f32⟩
  | 54 => ⟨S_, .f32⟩
  | 55 => ⟨S50000, .f32⟩
  | 56 => ⟨S50000x1, .f32⟩
  | 57 => ⟨S_, .f32⟩
  | 58 => ⟨S50000x1, .f32⟩
  | 59 => ⟨S50000x1, .f32⟩
  | 60 => ⟨S50000x128, .f32⟩
  | 61 => ⟨S50000x128, .f32⟩
  | 62 => ⟨S50000x128, .f32⟩
  | 63 => ⟨S_, .f32⟩
  | 64 => ⟨S50000, .f32⟩
  | 65 => ⟨S50000x1, .f32⟩
  | 66 => ⟨S_, .f32⟩
  | 67 => ⟨S50000x1, .f32⟩
  | 68 => ⟨S50000x1, .f32⟩
  | 69 => ⟨S50000x128, .f32⟩
  | 70 => ⟨S50000x128, .f32⟩
  | 71 => ⟨S_, .f32⟩
  | 72 => ⟨S50000x1, .f32⟩
  | 73 => ⟨S50000x1, .f32⟩
  | 74 => ⟨S50000x1, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S1x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S1x128x128, .f32⟩
  | 87 => ⟨S128x128, .f32⟩
  | 88 => ⟨S1x128, .f32⟩
  | 89 => ⟨S128, .f32⟩
  | 90 => ⟨S50000x128, .f32⟩
  | 91 => ⟨S_, .f32⟩
  | 92 => ⟨S50000, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S_, .f32⟩
  | 102 => ⟨S800000, .f32⟩
  | 103 => ⟨S50000, .f32⟩
  | 104 => ⟨S_, .f32⟩
  | 105 => ⟨S50000, .f32⟩
  | 106 => ⟨S50000, .f32⟩
  | 107 => ⟨S50000, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000, .f32⟩
  | 126 => ⟨S800000, .f32⟩
  | 127 => ⟨S800000x1, .f32⟩
  | _ => ⟨S50000x128, .f32⟩

abbrev hbmTy0_2 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x128, .f32⟩
  | 9 => ⟨S800000x128, .f32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S50000, .f32⟩
  | 16 => ⟨S50000x1, .f32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S1x128, .f32⟩
  | 24 => ⟨S128, .f32⟩
  | 25 => ⟨S1x128, .f32⟩
  | 26 => ⟨S128, .f32⟩
  | 27 => ⟨S_, .f32⟩
  | 28 => ⟨S50000, .f32⟩
  | 29 => ⟨S50000x1, .f32⟩
  | 30 => ⟨S_, .f32⟩
  | 31 => ⟨S50000x1, .f32⟩
  | 32 => ⟨S50000x1, .f32⟩
  | 33 => ⟨S50000x128, .f32⟩
  | 34 => ⟨S50000x128, .f32⟩
  | 35 => ⟨S50000x128, .f32⟩
  | 36 => ⟨S_, .f32⟩
  | 37 => ⟨S50000, .f32⟩
  | 38 => ⟨S50000x1, .f32⟩
  | 39 => ⟨S_, .f32⟩
  | 40 => ⟨S50000x1, .f32⟩
  | 41 => ⟨S50000x1, .f32⟩
  | 42 => ⟨S50000x128, .f32⟩
  | 43 => ⟨S50000x128, .f32⟩
  | 44 => ⟨S_, .f32⟩
  | 45 => ⟨S50000x1, .f32⟩
  | 46 => ⟨S50000x1, .f32⟩
  | 47 => ⟨S50000x1, .f32⟩
  | 48 => ⟨S50000x128, .f32⟩
  | 49 => ⟨S50000x128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S50000x40, .f32⟩
  | 60 => ⟨S1x40, .f32⟩
  | 61 => ⟨S50000x40, .f32⟩
  | 62 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_call0_cst : Ref sig .tc := ⟨.hbm, 110, rfl⟩
abbrev main_call0_v0 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_cst_15 : Ref sig .tc := ⟨.hbm, 118, rfl⟩
abbrev main_v91 : Ref sig .tc := ⟨.hbm, 119, rfl⟩
abbrev main_c_16 : Ref sig .tc := ⟨.hbm, 120, rfl⟩
abbrev main_v92 : Ref sig .tc := ⟨.hbm, 121, rfl⟩
abbrev main_v93 : Ref sig .tc := ⟨.hbm, 122, rfl⟩
abbrev main_c_17 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_cst_18 : Ref sig .tc := ⟨.hbm, 128, rfl⟩
abbrev main_v98 : Ref sig .tc := ⟨.hbm, 129, rfl⟩
abbrev main_v99 : Ref sig .tc := ⟨.hbm, 130, rfl⟩
abbrev main_cst_19 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_c_20 : Ref sig .tc := ⟨.hbm, 135, rfl⟩
abbrev main_v103 : Ref sig .tc := ⟨.hbm, 136, rfl⟩
abbrev main_v104 : Ref sig .tc := ⟨.hbm, 137, rfl⟩
abbrev main_c_21 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_c_22 : Ref sig .tc := ⟨.hbm, 144, rfl⟩
abbrev main_v110 : Ref sig .tc := ⟨.hbm, 145, rfl⟩
abbrev main_v111 : Ref sig .tc := ⟨.hbm, 146, rfl⟩
abbrev main_c_23 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_c_24 : Ref sig .tc := ⟨.hbm, 155, rfl⟩
abbrev main_v119 : Ref sig .tc := ⟨.hbm, 156, rfl⟩
abbrev main_v120 : Ref sig .tc := ⟨.hbm, 157, rfl⟩
abbrev main_c_25 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_cst_26 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_cst_27 : Ref sig .tc := ⟨.hbm, 182, rfl⟩
abbrev main_v143 : Ref sig .tc := ⟨.hbm, 183, rfl⟩
abbrev main_v144 : Ref sig .tc := ⟨.hbm, 184, rfl⟩
abbrev main_cst_28 : Ref sig .tc := ⟨.hbm, 185, rfl⟩
abbrev main_v145 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_cst_29 : Ref sig .tc := ⟨.hbm, 191, rfl⟩
abbrev main_v150 : Ref sig .tc := ⟨.hbm, 192, rfl⟩
abbrev main_v151 : Ref sig .tc := ⟨.hbm, 193, rfl⟩
abbrev main_cst_30 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_cst_31 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_call1_cst : Ref sig .tc := ⟨.hbm, 211, rfl⟩
abbrev main_call1_v0 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_cst_32 : Ref sig .tc := ⟨.hbm, 219, rfl⟩
abbrev main_v173 : Ref sig .tc := ⟨.hbm, 220, rfl⟩
abbrev main_c_33 : Ref sig .tc := ⟨.hbm, 221, rfl⟩
abbrev main_v174 : Ref sig .tc := ⟨.hbm, 222, rfl⟩
abbrev main_v175 : Ref sig .tc := ⟨.hbm, 223, rfl⟩
abbrev main_c_34 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_cst_35 : Ref sig .tc := ⟨.hbm, 229, rfl⟩
abbrev main_v180 : Ref sig .tc := ⟨.hbm, 230, rfl⟩
abbrev main_v181 : Ref sig .tc := ⟨.hbm, 231, rfl⟩
abbrev main_cst_36 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_c_37 : Ref sig .tc := ⟨.hbm, 236, rfl⟩
abbrev main_v185 : Ref sig .tc := ⟨.hbm, 237, rfl⟩
abbrev main_v186 : Ref sig .tc := ⟨.hbm, 238, rfl⟩
abbrev main_c_38 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_c_39 : Ref sig .tc := ⟨.hbm, 245, rfl⟩
abbrev main_v192 : Ref sig .tc := ⟨.hbm, 246, rfl⟩
abbrev main_v193 : Ref sig .tc := ⟨.hbm, 247, rfl⟩
abbrev main_c_40 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_c_41 : Ref sig .tc := ⟨.hbm, 256, rfl⟩
abbrev main_v201 : Ref sig .tc := ⟨.hbm, 257, rfl⟩
abbrev main_v202 : Ref sig .tc := ⟨.hbm, 258, rfl⟩
abbrev main_c_42 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_cst_43 : Ref sig .tc := ⟨.hbm, 267, rfl⟩
abbrev main_v210 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_cst_44 : Ref sig .tc := ⟨.hbm, 283, rfl⟩
abbrev main_v225 : Ref sig .tc := ⟨.hbm, 284, rfl⟩
abbrev main_v226 : Ref sig .tc := ⟨.hbm, 285, rfl⟩
abbrev main_cst_45 : Ref sig .tc := ⟨.hbm, 286, rfl⟩
abbrev main_v227 : Ref sig .tc := ⟨.hbm, 287, rfl⟩
abbrev main_v228 : Ref sig .tc := ⟨.hbm, 288, rfl⟩
abbrev main_v229 : Ref sig .tc := ⟨.hbm, 289, rfl⟩
abbrev main_v230 : Ref sig .tc := ⟨.hbm, 290, rfl⟩
abbrev main_v231 : Ref sig .tc := ⟨.hbm, 291, rfl⟩
abbrev main_cst_46 : Ref sig .tc := ⟨.hbm, 292, rfl⟩
abbrev main_v232 : Ref sig .tc := ⟨.hbm, 293, rfl⟩
abbrev main_v233 : Ref sig .tc := ⟨.hbm, 294, rfl⟩
abbrev main_cst_47 : Ref sig .tc := ⟨.hbm, 295, rfl⟩
abbrev main_v234 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_cst_48 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_call2_cst : Ref sig .tc := ⟨.hbm, 312, rfl⟩
abbrev main_call2_v0 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x40_S50000x40_1_0_0_1_n_n_wf : DotDims.WF S50000x128 S128x40 S50000x40 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf

class Facts : Prop extends Facts₀ where

variable [Facts]
-- ==== Proof.KernelRun.lean ====
/-
  The idealized kernel program's run, with its result named: every weakly fair execution terminates without a fault,
  the result array ends at the contents the last boundary of the program's segments gives it (the fold of the host
  operations and of the seven tiled regions' write-backs from the launch memory), and the argument arrays end as
  launched.
-/
import proofs.«157623_j84000970375232_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the program's nineteen segments; the final state is read at every unscoped buffer, the result's among
    them. -/
theorem run_result : θ_run defs (onTc (τ := τ) (main (F := F))) ⟨m, fun _ => 0, ρ⟩ (fun r => ∀ c : Dev nD,
      r.2.mem ((c.tc : Thread nD τ).loc main_v90) = W19 m ρ c (Proc.devRef .tc main_v90)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v90 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c)⟩)

end Cert.KernelIdeal.Run

end
-- ==== Proof.Spec.lean ====
/-
  The mathematics of one graph-convolution layer with layer normalisation, stated index by index over the extended
  reals, in the two arrangements that are to be compared.

  Nodes are rows r < 50000, features are columns q < 128, edges are e < 800000. An edge carries a source row and a
  destination row; `deg r` is one plus the number of edges whose destination is r, and `dinv r = deg r ^ (-1/2)`.

  * The "pre-scaled" arrangement first forms h' = dinv ⊙ (x·w) (each row of the product scaled by that row's dinv),
    sums h'[src e] over the edges e landing on row r, adds h' r itself, and scales the row by dinv r once more.
  * The "per-edge" arrangement forms h = x·w, weights each edge's h[src e] by dinv[src e]·dinv[dst e], sums over the
    edges landing on r, and adds dinv r² · h r.
  They agree because dinv r is a non-negative real number, which may be moved across a finite sum of extended reals.

  Both arrangements then add a bias, normalise each row to mean zero and variance one (with a small constant added to
  the variance), scale and shift by per-column vectors, and clamp at zero from below.
-/
import Idealize.ShloMosaic.PureOps.Ideal
import Idealize.ShloMosaic.PureOps.Ideal.Laws
import Idealize.ShloMosaic.PureOps.Dims
import Idealize.ShloMosaic.PureOps.ShapeOps
import Idealize.ShloMosaic.Lib.ValueIdx

noncomputable section

namespace Cert.Gcn

open Idealize.ShloMosaic Idealize.ShloMosaic.ValueIdx

/-- nodes × features -/
abbrev NF : Shape := ⟨2, ![50000, 128]⟩
/-- a column over the nodes -/
abbrev N1 : Shape := ⟨2, ![50000, 1]⟩
/-- a vector over the nodes -/
abbrev Nv : Shape := ⟨1, ![50000]⟩
/-- features × features -/
abbrev FF : Shape := ⟨2, ![128, 128]⟩
/-- one row of features -/
abbrev R1 : Shape := ⟨2, ![1, 128]⟩
/-- edges × features -/
abbrev EF : Shape := ⟨2, ![800000, 128]⟩
/-- a column over the edges -/
abbrev E1 : Shape := ⟨2, ![800000, 1]⟩
/-- a vector over the edges -/
abbrev Ev : Shape := ⟨1, ![800000]⟩

/-- The number 128 (the row length), the small constant added to a variance, and zero, as the 32-bit patterns denote them. -/
def c128 : EReal := Ideal.ofBits .f32 0x43000000#32
def ceps : EReal := Ideal.ofBits .f32 0x3727C5AC#32
def czero : EReal := Ideal.ofBits .f32 0x00000000#32

/-- The row a signed 32-bit index selects when a row is fetched: the index read as a signed integer and clamped into
    [0, 49999]. -/
def rowOf (b : BitVec 32) : Fin 50000 := ⟨min b.toInt.toNat 49999, by omega⟩

/-- Entry (r, q) of the matrix product x·w. -/
def mm (x : NF.Idx → EReal) (w : FF.Idx → EReal) (i : NF.Idx) : EReal :=
  ∑ k : Fin 128, x (ix2 (i 0) k) * w (ix2 k (i 1))

/-- The mean of a row of 128 entries. -/
def rowMean (row : Fin 128 → EReal) : EReal := Ideal.div (∑ k : Fin 128, row k) c128

/-- The (biased) variance of a row of 128 entries. -/
def rowVar (row : Fin 128 → EReal) : EReal :=
  Ideal.div (∑ k : Fin 128, (row k - rowMean row) * (row k - rowMean row)) c128

/-- Entry q of a row after normalisation, scaling by `gq`, shifting by `beq`, and clamping at zero from below. -/
def lnrow (row : Fin 128 → EReal) (gq beq : EReal) (q : Fin 128) : EReal :=
  max (((row q - rowMean row) * Ideal.rsqrt (rowVar row + ceps)) * gq + beq) czero

/-- The same over a whole nodes × features array `pre`, with per-column scale and shift. -/
def lnrelu (pre : NF.Idx → EReal) (g be : Fin 128 → EReal) (i : NF.Idx) : EReal :=
  lnrow (fun k => pre (ix2 (i 0) k)) (g (i 1)) (be (i 1)) (i 1)

/-! ## What each tiled computation leaves in its whole output array -/

/-- The projection scaled row by row: (x·w)(r, q) · d(r). -/
def regMD (x : NF.Idx → EReal) (w : FF.Idx → EReal) (d2 : N1.Idx → EReal) (i : NF.Idx) : EReal :=
  mm x w i * d2 (ix2 (i 0) 0)

/-- The pre-activation of the pre-scaled arrangement: d(r) · (agg(r, q) + h'(r, q)) + b(q). -/
def preLN (agg hp : NF.Idx → EReal) (d2 : N1.Idx → EReal) (b2 : R1.Idx → EReal) (i : NF.Idx) : EReal :=
  d2 (ix2 (i 0) 0) * (agg i + hp i) + b2 (ix2 0 (i 1))

/-- … normalised, scaled, shifted and clamped. -/
def regLN (agg hp : NF.Idx → EReal) (d2 : N1.Idx → EReal) (b2 g2 be2 : R1.Idx → EReal) : NF.Idx → EReal :=
  lnrelu (preLN agg hp d2 b2) (fun q => g2 (ix2 0 q)) (fun q => be2 (ix2 0 q))

/-- The last projection with its bias: (x·w)(r, q) + b(q). -/
def regMB (x : NF.Idx → EReal) (w : FF.Idx → EReal) (b2 : R1.Idx → EReal) (i : NF.Idx) : EReal :=
  mm x w i + b2 (ix2 0 (i 1))

end Cert.Gcn

end
-- ==== Proof.KDefs.lean ====
/-
  The idealized kernel program's host-side terms, named: the edge indices, deg^(-1/2), the sum over the edges, one
  layer, the padded head. (The tiled regions enter through the whole-array functions of the specification.)
-/
import proofs.«157623_j84000970375232_2_alg».proof.Proof.Gen.KernelIdeal
import proofs.«157623_j84000970375232_2_alg».proof.Proof.Spec

noncomputable section

namespace Cert.KernelIdeal.KV

open Cert.KernelIdeal Cert.KernelIdeal.Gen Cert.Gcn
open Idealize.ShloMosaic

/-! ## The host stretches' terms, named -/

/-- The edges' sources and destinations: rows 0 and 1 of the edge array. -/
def srcK (a1 : IVec S2x800000 32) : IVec S800000 32 :=
  shapeCast S800000 (extractStridedSlice S1x800000 ![0, 0] a1 slices_S2x800000_S1x800000_0_0) shapeCasts_S1x800000_S800000
def dstK (a1 : IVec S2x800000 32) : IVec S800000 32 :=
  shapeCast S800000 (extractStridedSlice S1x800000 ![1, 0] a1 slices_S2x800000_S1x800000_1_0) shapeCasts_S1x800000_S800000

/-- A negative index counts from the end: 50000 is added to it. -/
def wrapK (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- An index vector as a column. -/
def colK (v : IVec S800000 32) : IVec S800000x1 32 := broadcastInDim S800000x1 ![0] bcast_S800000_S800000x1_0 v

/-- deg^(-1/2): one plus the number of edges landing on each node, to the power -1/2, as a vector and as a column. -/
def dinvK (a1 : IVec S2x800000 32) : FVec Ideal S50000 .f32 :=
  Host.rsqrt (addf (Host.scatterAdd scatter_S50000_S800000x1_S800000_n_0_0_1
      (broadcastInDim S50000 ![] bcast_S_S50000 (constant S_ .f32 0x00000000#32))
      (colK (wrapK (dstK a1)))
      (broadcastInDim S800000 ![] bcast_S_S800000 (constant S_ .f32 0x3F800000#32)))
    (broadcastInDim S50000 ![] bcast_S_S50000 (constant S_ .f32 0x3F800000#32)))
def d2K (a1 : IVec S2x800000 32) : FVec Ideal S50000x1 .f32 := shapeCast S50000x1 (dinvK a1) shapeCasts_S50000_S50000x1

/-- The rows of h' at the edges' sources, summed onto the edges' destinations. -/
def aggK (hp : FVec Ideal S50000x128 .f32) (a1 : IVec S2x800000 32) : FVec Ideal S50000x128 .f32 :=
  Host.scatterAdd scatter_S50000x128_S800000x1_S800000x128_1_0_0_1
    (broadcastInDim S50000x128 ![] bcast_S_S50000x128 (constant S_ .f32 0x00000000#32))
    (colK (dstK a1))
    (Host.gather gather_S50000x128_S800000x1_S800000x128_1_0_n_n_0_1_1128 hp (colK (wrapK (srcK a1))))

/-- One layer: the scaled product, the sum over the edges, the normalisation. -/
def layerK (x : FVec Ideal S50000x128 .f32) (a1 : IVec S2x800000 32) (w : FVec Ideal S128x128 .f32)
    (b g be : FVec Ideal S1x128 .f32) : FVec Ideal S50000x128 .f32 :=
  regLN (aggK (regMD x w (d2K a1)) a1) (regMD x w (d2K a1)) (d2K a1) b g be

/-- Layer l's weight matrix, and a row l of a parameter array as a 1 × 128 array. -/
def w0K (a2 : FVec Ideal S3x128x128 .f32) : FVec Ideal S128x128 .f32 :=
  shapeCast S128x128 (extractStridedSlice S1x128x128 ![0, 0, 0] a2 slices_S3x128x128_S1x128x128_0_0_0) shapeCasts_S1x128x128_S128x128
def w1K (a2 : FVec Ideal S3x128x128 .f32) : FVec Ideal S128x128 .f32 :=
  shapeCast S128x128 (extractStridedSlice S1x128x128 ![1, 0, 0] a2 slices_S3x128x128_S1x128x128_1_0_0) shapeCasts_S1x128x128_S128x128
def w2K (a2 : FVec Ideal S3x128x128 .f32) : FVec Ideal S128x128 .f32 :=
  shapeCast S128x128 (extractStridedSlice S1x128x128 ![2, 0, 0] a2 slices_S3x128x128_S1x128x128_2_0_0) shapeCasts_S1x128x128_S128x128
def row0K (a : FVec Ideal S3x128 .f32) : FVec Ideal S1x128 .f32 :=
  shapeCast S1x128 (shapeCast S128 (extractStridedSlice S1x128 ![0, 0] a slices_S3x128_S1x128_0_0) shapeCasts_S1x128_S128) shapeCasts_S128_S1x128
def row1K (a : FVec Ideal S3x128 .f32) : FVec Ideal S1x128 .f32 :=
  shapeCast S1x128 (shapeCast S128 (extractStridedSlice S1x128 ![1, 0] a slices_S3x128_S1x128_1_0) shapeCasts_S1x128_S128) shapeCasts_S128_S1x128
def row2K (a : FVec Ideal S3x128 .f32) : FVec Ideal S1x128 .f32 :=
  shapeCast S1x128 (shapeCast S128 (extractStridedSlice S1x128 ![2, 0] a slices_S3x128_S1x128_2_0) shapeCasts_S1x128_S128) shapeCasts_S128_S1x128

/-- The last weight matrix padded with zero columns to 128, the last bias padded with zeros to 128 as a row. -/
def wpadK (a6 : FVec Ideal S128x40 .f32) : FVec Ideal S128x128 .f32 :=
  pad S128x128 ![0, 0] ![0, 88] ![0, 0] a6 (sitofp .f32 (constantI S_ 32 0#32)) pads_S128x40_S128x128_000_0880 h_S_
def bpadK (a7 : FVec Ideal S40 .f32) : FVec Ideal S1x128 .f32 :=
  shapeCast S1x128 (pad S128 ![0] ![88] ![0] a7 (sitofp .f32 (constantI S_ 32 0#32)) pads_S40_S128_0880 h_S_) shapeCasts_S128_S1x128

/-- The head: the product with the padded weight plus the padded bias, its first 40 columns. -/
def headK (x : FVec Ideal S50000x128 .f32) (a6 : FVec Ideal S128x40 .f32) (a7 : FVec Ideal S40 .f32) : FVec Ideal S50000x40 .f32 :=
  extractStridedSlice S50000x40 ![0, 0] (regMB x (wpadK a6) (bpadK a7)) slices_S50000x128_S50000x40_0_0

end Cert.KernelIdeal.KV

end
-- ==== Proof.KHost0.lean ====
/-
  The idealized kernel program's first host stretch, read: from the launch memory it leaves the edges' sources and
  destinations, the deg^(-1/2) column, the first layer's weight matrix and its three parameter rows. Also the tactic
  for "a host stretch that does not write a buffer leaves it as it was".
-/
import proofs.«157623_j84000970375232_2_alg».proof.Proof.Gen.KernelIdeal.Frame
import proofs.«157623_j84000970375232_2_alg».proof.Proof.KDefs
import Idealize.ShloMosaic.Lib.StableHlo.Run

set_option maxRecDepth 16384

noncomputable section

namespace Cert.KernelIdeal.KV

open Cert.KernelIdeal Cert.KernelIdeal.Gen Cert.Gcn
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

/-- A buffer no operation of a host stretch writes holds after the stretch what it held before. -/
macro "host_keep" : tactic => `(tactic| (
  refine StableHlo.after_of_forall_not_mem _ _ (List.forall_iff_forall_mem.mp ?_)
  simp only [hostOps0, hostOps1, hostOps2, hostOps3, hostOps4, hostOps5, hostOps6, hostOps6_1, hostOps6_2, hostOps6_3,
    hostOps6_4, hostOps7, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- Reading one buffer after a host stretch: each operation's result at its own buffer, every other buffer as before. -/
macro "host_read" : tactic => `(tactic| (after_results_simp; rfl))

set_option maxHeartbeats 4000000 in
theorem W1_v1 : W1 m ρ c (Proc.devRef .tc main_v1) = srcK (m ((c : Thread nD τ).loc main_arg1)) := by
  show StableHlo.after hostOps0 (W0 m ρ c) (Proc.devRef .tc main_v1) = _
  host_read
set_option maxHeartbeats 4000000 in
theorem W1_v3 : W1 m ρ c (Proc.devRef .tc main_v3) = dstK (m ((c : Thread nD τ).loc main_arg1)) := by
  show StableHlo.after hostOps0 (W0 m ρ c) (Proc.devRef .tc main_v3) = _
  host_read
set_option maxHeartbeats 4000000 in
theorem W1_v16 : W1 m ρ c (Proc.devRef .tc main_v16) = d2K (m ((c : Thread nD τ).loc main_arg1)) := by
  show StableHlo.after hostOps0 (W0 m ρ c) (Proc.devRef .tc main_v16) = _
  host_read
set_option maxHeartbeats 4000000 in
theorem W1_v18 : W1 m ρ c (Proc.devRef .tc main_v18) = w0K (m ((c : Thread nD τ).loc main_arg2)) := by
  show StableHlo.after hostOps0 (W0 m ρ c) (Proc.devRef .tc main_v18) = _
  host_read
theorem W1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  host_keep

end Cert.KernelIdeal.KV

end
-- ==== Proof.KCarry.lean ====
/- Which buffers keep their contents through which segment boundaries of the idealized kernel program: the edges' sources
   and destinations and the deg^(-1/2) column, prepared once by the first host stretch, and the parameter arrays, are
   written by no later host operation and are at most an INPUT of a tiled region, so each boundary's contents at
   such a buffer are the previous boundary's. One lemma per (buffer, boundary); the three forms are: a host stretch that
   does not write the buffer; a region none of whose arrays is the buffer; a region that reads the buffer through an
   input window (an input array ends as it was entered). -/
import proofs.«157623_j84000970375232_2_alg».proof.Proof.KHost0

set_option maxRecDepth 16384

noncomputable section

namespace Cert.KernelIdeal.KV

open Cert.KernelIdeal Cert.KernelIdeal.Gen Cert.Gcn
open Idealize.ShloMosaic Idealize.ShloMosaic.TcCoe Idealize.ShloMosaic.StableHlo
open Idealize.SL.Sem

variable (m : (ℓ : Loc nD τ sig) → Buf (Elt Ideal) ℓ) (ρ : Dev nD → PrngReg) (c : Dev nD)

theorem W2_v1 : W2 m ρ c (Proc.devRef .tc main_v1) = srcK (m ((c : Thread nD τ).loc main_arg1)) :=
  (W2_of_ne m ρ c main_v1 (by decide)).trans (W1_v1 m ρ c)
theorem W2_v3 : W2 m ρ c (Proc.devRef .tc main_v3) = dstK (m ((c : Thread nD τ).loc main_arg1)) :=
  (W2_of_ne m ρ c main_v3 (by decide)).trans (W1_v3 m ρ c)
theorem W3_v1 : W3 m ρ c (Proc.devRef .tc main_v1) = srcK (m ((c : Thread nD τ).loc main_arg1)) :=
  (show StableHlo.after hostOps1 (W2 m ρ c) (Proc.devRef .tc main_v1) = W2 m ρ c (Proc.devRef .tc main_v1) by host_keep).trans (W2_v1 m ρ c)
theorem W3_v3 : W3 m ρ c (Proc.devRef .tc main_v3) = dstK (m ((c : Thread nD τ).loc main_arg1)) :=
  (show StableHlo.after hostOps1 (W2 m ρ c) (Proc.devRef .tc main_v3) = W2 m ρ c (Proc.devRef .tc main_v3) by host_keep).trans (W2_v3 m ρ c)
theorem W4_v1 : W4 m ρ c (Proc.devRef .tc main_v1) = srcK (m ((c : Thread nD τ).loc main_arg1)) :=
  (W4_of_ne m ρ c main_v1 (by decide)).trans (W3_v1 m ρ c)
theorem W4_v3 : W4 m ρ c (Proc.devRef .tc main_v3) = dstK (m ((c : Thread nD τ).loc main_arg1)) :=
  (W4_of_ne m ρ c main_v3 (by decide)).trans (W3_v3 m ρ c)
theorem W5_v1 : W5 m ρ c (Proc.devRef .tc main_v1) = srcK (m ((c : Thread nD τ).loc main_arg1)) :=
  (show StableHlo.after hostOps2 (W4 m ρ c) (Proc.devRef .tc main_v1) = W4 m ρ c (Proc.devRef .tc main_v1) by host_keep).trans (W4_v1 m ρ c)
theorem W5_v3 : W5 m ρ c (Proc.devRef .tc main_v3) = dstK (m ((c : Thread nD τ).loc main_arg1)) :=
  (show StableHlo.after hostOps2 (W4 m ρ c) (Proc.devRef .tc main_v3) = W4 m ρ c (Proc.devRef .tc main_v3) by host_keep).trans (W4_v3 m ρ c)
theorem W6_v1 : W6 m ρ c (Proc.devRef .tc main_v1) = srcK (m ((c : Thread nD τ).loc main_arg1)) :=
  (W6_of_ne m ρ c main_v1 (by decide)).trans (W5_v1 m ρ c)
theorem W6_v3 : W6 m ρ c (Proc.devRef .tc main_v3) = dstK (m ((c : Thread nD τ).loc main_arg1)) :=
  (W6_of_ne m ρ c main_v3 (by decide)).trans (W5_v3 m ρ c)
theorem W7_v1 : W7 m ρ c (Proc.devRef .tc main_v1) = srcK (m ((c : Thread nD τ).loc main_arg1)) :=
  (show StableHlo.after hostOps3 (W6 m ρ c) (Proc.devRef .tc main_v1) = W6 m ρ c (Proc.devRef .tc main_v1) by host_keep).trans (W6_v1 m ρ c)
theorem W7_v3 : W7 m ρ c (Proc.devRef .tc main_v3) = dstK (m ((c : Thread nD τ).loc main_arg1)) :=
  (show StableHlo.after hostOps3 (W6 m ρ c) (Proc.devRef .tc main_v3) = W6 m ρ c (Proc.devRef .tc main_v3) by host_keep).trans (W6_v3 m ρ c)
theorem W8_v1 : W8 m ρ c (Proc.devRef .tc main_v1) = srcK (m ((c : Thread nD τ).loc main_arg1)) :=
  (W8_of_ne m ρ c main_v1 (by decide)).trans (W7_v1 m ρ c)
theorem W8_v3 : W8 m ρ c (Proc.devRef .tc main_v3) = dstK (m ((c : Thread nD τ).loc main_arg1)) :=
  (W8_of_ne m ρ c main_v3 (by decide)).trans (W7_v3 m ρ c)
theorem W9_v1 : W9 m ρ c (Proc.devRef .tc main_v1) = srcK (m ((c : Thread nD τ).loc main_arg1)) :=
  (show StableHlo.after hostOps4 (W8 m ρ c) (Proc.devRef .tc main_v1) = W8 m ρ c (Proc.devRef .tc main_v1) by host_keep).trans (W8_v1 m ρ c)
theorem W9_v3 : W9 m ρ c (Proc.devRef .tc main_v3) = dstK (m ((c : Thread nD τ).loc main_arg1)) :=
  (show StableHlo.after hostOps4 (W8 m ρ c) (Proc.devRef .tc main_v3) = W8 m ρ c (Proc.devRef .tc main_v3) by host_keep).trans (W8_v3 m ρ c)
theorem W10_v1 : W10 m ρ c (Proc.devRef .tc main_v1) = srcK (m ((c : Thread nD τ).loc main_arg1)) :=
  (W10_of_ne m ρ c main_v1 (by decide)).trans (W9_v1 m ρ c)
theorem W10_v3 : W10 m ρ c (Proc.devRef .tc main_v3) = dstK (m ((c : Thread nD τ).loc main_arg1)) :=
  (W10_of_ne m ρ c main_v3 (by decide)).trans (W9_v3 m ρ c)
theorem W2_v16 : W2 m ρ c (Proc.devRef .tc main_v16) = d2K (m ((c : Thread nD τ).loc main_arg1)) :=
  ((W2_arr m ρ c 2).trans (((dat0 (V1 m ρ) c).arrAt_in 2 rfl _).trans (A_eq0 (V1 m ρ) c 2))).trans (W1_v16 m ρ c)
theorem W3_v16 : W3 m ρ c (Proc.devRef .tc main_v16) = d2K (m ((c : Thread nD τ).loc main_arg1)) :=
  (show StableHlo.after hostOps1 (W2 m ρ c) (Proc.devRef .tc main_v16) = W2 m ρ c (Proc.devRef .tc main_v16) by host_keep).trans (W2_v16 m ρ c)
theorem W4_v16 : W4 m ρ c (Proc.devRef .tc main_v16) = d2K (m ((c : Thread nD τ).loc main_arg1)) :=
  ((W4_arr m ρ c 2).trans (((dat1 (V3 m ρ) c).arrAt_in 2 rfl _).trans (A_eq1 (V3 m ρ) c 2))).trans (W3_v16 m ρ c)
theorem W5_v16 : W5 m ρ c (Proc.devRef .tc main_v16) = d2K (m ((c : Thread nD τ).loc main_arg1)) :=
  (show StableHlo.after hostOps2 (W4 m ρ c) (Proc.devRef .tc main_v16) = W4 m ρ c (Proc.devRef .tc main_v16) by host_keep).trans (W4_v16 m ρ c)
theorem W6_v16 : W6 m ρ c (Proc.devRef .tc main_v16) = d2K (m ((c : Thread nD τ).loc main_arg1)) :=
  ((W6_arr m ρ c 2).trans (((dat2 (V5 m ρ) c).arrAt_in 2 rfl _).trans (A_eq2 (V5 m ρ) c 2))).trans (W5_v16 m ρ c)
theorem W7_v16 : W7 m ρ c (Proc.devRef .tc main_v16) = d2K (m ((c : Thread nD τ).loc main_arg1)) :=
  (show StableHlo.after hostOps3 (W6 m ρ c) (Proc.devRef .tc main_v16) = W6 m ρ c (Proc.devRef .tc main_v16) by host_keep).trans (W6_v16 m ρ c)
theorem W8_v16 : W8 m ρ c (Proc.devRef .tc main_v16) = d2K (m ((c : Thread nD τ).loc main_arg1)) :=
  ((W8_arr m ρ c 2).trans (((dat3 (V7 m ρ) c).arrAt_in 2 rfl _).trans (A_eq3 (V7 m ρ) c 2))).trans (W7_v16 m ρ c)
theorem W9_v16 : W9 m ρ c (Proc.devRef .tc main_v16) = d2K (m ((c : Thread nD τ).loc main_arg1)) :=
  (show StableHlo.after hostOps4 (W8 m ρ c) (Proc.devRef .tc main_v16) = W8 m ρ c (Proc.devRef .tc main_v16) by host_keep).trans (W8_v16 m ρ c)
theorem W10_v16 : W10 m ρ c (Proc.devRef .tc main_v16) = d2K (m ((c : Thread nD τ).loc main_arg1)) :=
  ((W10_arr m ρ c 2).trans (((dat4 (V9 m ρ) c).arrAt_in 2 rfl _).trans (A_eq4 (V9 m ρ) c 2))).trans (W9_v16 m ρ c)
theorem W11_v16 : W11 m ρ c (Proc.devRef .tc main_v16) = d2K (m ((c : Thread nD τ).loc main_arg1)) :=
  (show StableHlo.after hostOps5 (W10 m ρ c) (Proc.devRef .tc main_v16) = W10 m ρ c (Proc.devRef .tc main_v16) by host_keep).trans (W10_v16 m ρ c)
theorem W0_arg2 : W0 m ρ c (Proc.devRef .tc main_arg2) = (m ((c : Thread nD τ).loc main_arg2)) := rfl
theorem W1_arg2 : W1 m ρ c (Proc.devRef .tc main_arg2) = (m ((c : Thread nD τ).loc main_arg2)) :=
  (show StableHlo.after hostOps0 (W0 m ρ c) (Proc.devRef .tc main_arg2) = W0 m ρ c (Proc.devRef .tc main_arg2) by host_keep).trans (W0_arg2 m ρ c)
theorem W2_arg2 : W2 m ρ c (Proc.devRef .tc main_arg2) = (m ((c : Thread nD τ).loc main_arg2)) :=
  (W2_of_ne m ρ c main_arg2 (by decide)).trans (W1_arg2 m ρ c)
theorem W3_arg2 : W3 m ρ c (Proc.devRef .tc main_arg2) = (m ((c : Thread nD τ).loc main_arg2)) :=
  (show StableHlo.after hostOps1 (W2 m ρ c) (Proc.devRef .tc main_arg2) = W2 m ρ c (Proc.devRef .tc main_arg2) by host_keep).trans (W2_arg2 m ρ c)
theorem W4_arg2 : W4 m ρ c (Proc.devRef .tc main_arg2) = (m ((c : Thread nD τ).loc main_arg2)) :=
  (W4_of_ne m ρ c main_arg2 (by decide)).trans (W3_arg2 m ρ c)
theorem W5_arg2 : W5 m ρ c (Proc.devRef .tc main_arg2) = (m ((c : Thread nD τ).loc main_arg2)) :=
  (show StableHlo.after hostOps2 (W4 m ρ c) (Proc.devRef .tc main_arg2) = W4 m ρ c (Proc.devRef .tc main_arg2) by host_keep).trans (W4_arg2 m ρ c)
theorem W6_arg2 : W6 m ρ c (Proc.devRef .tc main_arg2) = (m ((c : Thread nD τ).loc main_arg2)) :=
  (W6_of_ne m ρ c main_arg2 (by decide)).trans (W5_arg2 m ρ c)
theorem W7_arg2 : W7 m ρ c (Proc.devRef .tc main_arg2) = (m ((c : Thread nD τ).loc main_arg2)) :=
  (show StableHlo.after hostOps3 (W6 m ρ c) (Proc.devRef .tc main_arg2) = W6 m ρ c (Proc.devRef .tc main_arg2) by host_keep).trans (W6_arg2 m ρ c)
theorem W8_arg2 : W8 m ρ c (Proc.devRef .tc main_arg2) = (m ((c : Thread nD τ).loc main_arg2)) :=
  (W8_of_ne m ρ c main_arg2 (by decide)).trans (W7_arg2 m ρ c)
theorem W0_arg3 : W0 m ρ c (Proc.devRef .tc main_arg3) = (m ((c : Thread nD τ).loc main_arg3)) := rfl
theorem W1_arg3 : W1 m ρ c (Proc.devRef .tc main_arg3) = (m ((c : Thread nD τ).loc main_arg3)) :=
  (show StableHlo.after hostOps0 (W0 m ρ c) (Proc.devRef .tc main_arg3) = W0 m ρ c (Proc.devRef .tc main_arg3) by host_keep).trans (W0_arg3 m ρ c)
theorem W2_arg3 : W2 m ρ c (Proc.devRef .tc main_arg3) = (m ((c : Thread nD τ).loc main_arg3)) :=
  (W2_of_ne m ρ c main_arg3 (by decide)).trans (W1_arg3 m ρ c)
theorem W3_arg3 : W3 m ρ c (Proc.devRef .tc main_arg3) = (m ((c : Thread nD τ).loc main_arg3)) :=
  (show StableHlo.after hostOps1 (W2 m ρ c) (Proc.devRef .tc main_arg3) = W2 m ρ c (Proc.devRef .tc main_arg3) by host_keep).trans (W2_arg3 m ρ c)
theorem W4_arg3 : W4 m ρ c (Proc.devRef .tc main_arg3) = (m ((c : Thread nD τ).loc main_arg3)) :=
  (W4_of_ne m ρ c main_arg3 (by decide)).trans (W3_arg3 m ρ c)
theorem W5_arg3 : W5 m ρ c (Proc.devRef .tc main_arg3) = (m ((c : Thread nD τ).loc main_arg3)) :=
  (show StableHlo.after hostOps2 (W4 m ρ c) (Proc.devRef .tc main_arg3) = W4 m ρ c (Proc.devRef .tc main_arg3) by host_keep).trans (W4_arg3 m ρ c)
theorem W6_arg3 : W6 m ρ c (Proc.devRef .tc main_arg3) = (m ((c : Thread nD τ).loc main_arg3)) :=
  (W6_of_ne m ρ c main_arg3 (by decide)).trans (W5_arg3 m ρ c)
theorem W7_arg3 : W7 m ρ c (Proc.devRef .tc main_arg3) = (m ((c : Thread nD τ).loc main_arg3)) :=
  (show StableHlo.after hostOps3 (W6 m ρ c) (Proc.devRef .tc main_arg3) = W6 m ρ c (Proc.devRef .tc main_arg3) by host_keep).trans (W6_arg3 m ρ c)
theorem W8_arg3 : W8 m ρ c (Proc.devRef .tc main_arg3) = (m ((c : Thread nD τ).loc main_arg3)) :=
  (W8_of_ne m ρ c main_arg3 (by decide)).trans (W7_arg3 m ρ c)
theorem W0_arg4 : W0 m ρ c (Proc.devRef .tc main_arg4) = (m ((c : Thread nD τ).loc main_arg4)) := rfl
theorem W1_arg4 : W1 m ρ c (Proc.devRef .tc main_arg4) = (m ((c : Thread nD τ).loc main_arg4)) :=
  (show StableHlo.after hostOps0 (W0 m ρ c) (Proc.devRef .tc main_arg4) = W0 m ρ c (Proc.devRef .tc main_arg4) by host_keep).trans (W0_arg4 m ρ c)
theorem W2_arg4 : W2 m ρ c (Proc.devRef .tc main_arg4) = (m ((c : Thread nD τ).loc main_arg4)) :=
  (W2_of_ne m ρ c main_arg4 (by decide)).trans (W1_arg4 m ρ c)
theorem W3_arg4 : W3 m ρ c (Proc.devRef .tc main_arg4) = (m ((c : Thread nD τ).loc main_arg4)) :=
  (show StableHlo.after hostOps1 (W2 m ρ c) (Proc.devRef .tc main_arg4) = W2 m ρ c (Proc.devRef .tc main_arg4) by host_keep).trans (W2_arg4 m ρ c)
theorem W4_arg4 : W4 m ρ c (Proc.devRef .tc main_arg4) = (m ((c : Thread nD τ).loc main_arg4)) :=
  (W4_of_ne m ρ c main_arg4 (by decide)).trans (W3_arg4 m ρ c)
theorem W5_arg4 : W5 m ρ c (Proc.devRef .tc main_arg4) = (m ((c : Thread nD τ).loc main_arg4)) :=
  (show StableHlo.after hostOps2 (W4 m ρ c) (Proc.devRef .tc main_arg4) = W4 m ρ c (Proc.devRef .tc main_arg4) by host_keep).trans (W4_arg4 m ρ c)
theorem W6_arg4 : W6 m ρ c (Proc.devRef .tc main_arg4) = (m ((c : Thread nD τ).loc main_arg4)) :=
  (W6_of_ne m ρ c main_arg4 (by decide)).trans (W5_arg4 m ρ c)
theorem W7_arg4 : W7 m ρ c (Proc.devRef .tc main_arg4) = (m ((c : Thread nD τ).loc main_arg4)) :=
  (show StableHlo.after hostOps3 (W6 m ρ c) (Proc.devRef .tc main_arg4) = W6 m ρ c (Proc.devRef .tc main_arg4) by host_keep).trans (W6_arg4 m ρ c)
theorem W8_arg4 : W8 m ρ c (Proc.devRef .tc main_arg4) = (m ((c : Thread nD τ).loc main_arg4)) :=
  (W8_of_ne m ρ c main_arg4 (by decide)).trans (W7_arg4 m ρ c)
theorem W0_arg5 : W0 m ρ c (Proc.devRef .tc main_arg5) = (m ((c : Thread nD τ).loc main_arg5)) := rfl
theorem W1_arg5 : W1 m ρ c (Proc.devRef .tc main_arg5) = (m ((c : Thread nD τ).loc main_arg5)) :=
  (show StableHlo.after hostOps0 (W0 m ρ c) (Proc.devRef .tc main_arg5) = W0 m ρ c (Proc.devRef .tc main_arg5) by host_keep).trans (W0_arg5 m ρ c)
theorem W2_arg5 : W2 m ρ c (Proc.devRef .tc main_arg5) = (m ((c : Thread nD τ).loc main_arg5)) :=
  (W2_of_ne m ρ c main_arg5 (by decide)).trans (W1_arg5 m ρ c)
theorem W3_arg5 : W3 m ρ c (Proc.devRef .tc main_arg5) = (m ((c : Thread nD τ).loc main_arg5)) :=
  (show StableHlo.after hostOps1 (W2 m ρ c) (Proc.devRef .tc main_arg5) = W2 m ρ c (Proc.devRef .tc main_arg5) by host_keep).trans (W2_arg5 m ρ c)
theorem W4_arg5 : W4 m ρ c (Proc.devRef .tc main_arg5) = (m ((c : Thread nD τ).loc main_arg5)) :=
  (W4_of_ne m ρ c main_arg5 (by decide)).trans (W3_arg5 m ρ c)
theorem W5_arg5 : W5 m ρ c (Proc.devRef .tc main_arg5) = (m ((c : Thread nD τ).loc main_arg5)) :=
  (show StableHlo.after hostOps2 (W4 m ρ c) (Proc.devRef .tc main_arg5) = W4 m ρ c (Proc.devRef .tc main_arg5) by host_keep).trans (W4_arg5 m ρ c)
theorem W6_arg5 : W6 m ρ c (Proc.devRef .tc main_arg5) = (m ((c : Thread nD τ).loc main_arg5)) :=
  (W6_of_ne m ρ c main_arg5 (by decide)).trans (W5_arg5 m ρ c)
theorem W7_arg5 : W7 m ρ c (Proc.devRef .tc main_arg5) = (m ((c : Thread nD τ).loc main_arg5)) :=
  (show StableHlo.after hostOps3 (W6 m ρ c) (Proc.devRef .tc main_arg5) = W6 m ρ c (Proc.devRef .tc main_arg5) by host_keep).trans (W6_arg5 m ρ c)
theorem W8_arg5 : W8 m ρ c (Proc.devRef .tc main_arg5) = (m ((c : Thread nD τ).loc main_arg5)) :=
  (W8_of_ne m ρ c main_arg5 (by decide)).trans (W7_arg5 m ρ c)
theorem W0_arg6 : W0 m ρ c (Proc.devRef .tc main_arg6) = (m ((c : Thread nD τ).loc main_arg6)) := rfl
theorem W1_arg6 : W1 m ρ c (Proc.devRef .tc main_arg6) = (m ((c : Thread nD τ).loc main_arg6)) :=
  (show StableHlo.after hostOps0 (W0 m ρ c) (Proc.devRef .tc main_arg6) = W0 m ρ c (Proc.devRef .tc main_arg6) by host_keep).trans (W0_arg6 m ρ c)
theorem W2_arg6 : W2 m ρ c (Proc.devRef .tc main_arg6) = (m ((c : Thread nD τ).loc main_arg6)) :=
  (W2_of_ne m ρ c main_arg6 (by decide)).trans (W1_arg6 m ρ c)
theorem W3_arg6 : W3 m ρ c (Proc.devRef .tc main_arg6) = (m ((c : Thread nD τ).loc main_arg6)) :=
  (show StableHlo.after hostOps1 (W2 m ρ c) (Proc.devRef .tc main_arg6) = W2 m ρ c (Proc.devRef .tc main_arg6) by host_keep).trans (W2_arg6 m ρ c)
theorem W4_arg6 : W4 m ρ c (Proc.devRef .tc main_arg6) = (m ((c : Thread nD τ).loc main_arg6)) :=
  (W4_of_ne m ρ c main_arg6 (by decide)).trans (W3_arg6 m ρ c)
theorem W5_arg6 : W5 m ρ c (Proc.devRef .tc main_arg6) = (m ((c : Thread nD τ).loc main_arg6)) :=
  (show StableHlo.after hostOps2 (W4 m ρ c) (Proc.devRef .tc main_arg6) = W4 m ρ c (Proc.devRef .tc main_arg6) by host_keep).trans (W4_arg6 m ρ c)
theorem W6_arg6 : W6 m ρ c (Proc.devRef .tc main_arg6) = (m ((c : Thread nD τ).loc main_arg6)) :=
  (W6_of_ne m ρ c main_arg6 (by decide)).trans (W5_arg6 m ρ c)
theorem W7_arg6 : W7 m ρ c (Proc.devRef .tc main_arg6) = (m ((c : Thread nD τ).loc main_arg6)) :=
  (show StableHlo.after hostOps3 (W6 m ρ c) (Proc.devRef .tc main_arg6) = W6 m ρ c (Proc.devRef .tc main_arg6) by host_keep).trans (W6_arg6 m ρ c)
theorem W8_arg6 : W8 m ρ c (Proc.devRef .tc main_arg6) = (m ((c : Thread nD τ).loc main_arg6)) :=
  (W8_of_ne m ρ c main_arg6 (by decide)).trans (W7_arg6 m ρ c)
theorem W9_arg6 : W9 m ρ c (Proc.devRef .tc main_arg6) = (m ((c : Thread nD τ).loc main_arg6)) :=
  (show StableHlo.after hostOps4 (W8 m ρ c) (Proc.devRef .tc main_arg6) = W8 m ρ c (Proc.devRef .tc main_arg6) by host_keep).trans (W8_arg6 m ρ c)
theorem W10_arg6 : W10 m ρ c (Proc.devRef .tc main_arg6) = (m ((c : Thread nD τ).loc main_arg6)) :=
  (W10_of_ne m ρ c main_arg6 (by decide)).trans (W9_arg6 m ρ c)
theorem W11_arg6 : W11 m ρ c (Proc.devRef .tc main_arg6) = (m ((c : Thread nD τ).loc main_arg6)) :=
  (show StableHlo.after hostOps5 (W10 m ρ c) (Proc.devRef .tc main_arg6) = W10 m ρ c (Proc.devRef .tc main_arg6) by host_keep).trans (W10_arg6 m ρ c)
theorem W12_arg6 : W12 m ρ c (Proc.devRef .tc main_arg6) = (m ((c : Thread nD τ).loc main_arg6)) :=
  (W12_of_ne m ρ c main_arg6 (by decide)).trans (W11_arg6 m ρ c)
theorem W0_arg7 : W0 m ρ c (Proc.devRef .tc main_arg7) = (m ((c : Thread nD τ).loc main_arg7)) := rfl
theorem W1_arg7 : W1 m ρ c (Proc.devRef .tc main_arg7) = (m ((c : Thread nD τ).loc main_arg7)) :=
  (show StableHlo.after hostOps0 (W0 m ρ c) (Proc.devRef .tc main_arg7) = W0 m ρ c (Proc.devRef .tc main_arg7) by host_keep).trans (W0_arg7 m ρ c)
theorem W2_arg7 : W2 m ρ c (Proc.devRef .tc main_arg7) = (m ((c : Thread nD τ).loc main_arg7)) :=
  (W2_of_ne m ρ c main_arg7 (by decide)).trans (W1_arg7 m ρ c)
theorem W3_arg7 : W3 m ρ c (Proc.devRef .tc main_arg7) = (m ((c : Thread nD τ).loc main_arg7)) :=
  (show StableHlo.after hostOps1 (W2 m ρ c) (Proc.devRef .tc main_arg7) = W2 m ρ c (Proc.devRef .tc main_arg7) by host_keep).trans (W2_arg7 m ρ c)
theorem W4_arg7 : W4 m ρ c (Proc.devRef .tc main_arg7) = (m ((c : Thread nD τ).loc main_arg7)) :=
  (W4_of_ne m ρ c main_arg7 (by decide)).trans (W3_arg7 m ρ c)
theorem W5_arg7 : W5 m ρ c (Proc.devRef .tc main_arg7) = (m ((c : Thread nD τ).loc main_arg7)) :=
  (show StableHlo.after hostOps2 (W4 m ρ c) (Proc.devRef .tc main_arg7) = W4 m ρ c (Proc.devRef .tc main_arg7) by host_keep).trans (W4_arg7 m ρ c)
theorem W6_arg7 : W6 m ρ c (Proc.devRef .tc main_arg7) = (m ((c : Thread nD τ).loc main_arg7)) :=
  (W6_of_ne m ρ c main_arg7 (by decide)).trans (W5_arg7 m ρ c)
theorem W7_arg7 : W7 m ρ c (Proc.devRef .tc main_arg7) = (m ((c : Thread nD τ).loc main_arg7)) :=
  (show StableHlo.after hostOps3 (W6 m ρ c) (Proc.devRef .tc main_arg7) = W6 m ρ c (Proc.devRef .tc main_arg7) by host_keep).trans (W6_arg7 m ρ c)
theorem W8_arg7 : W8 m ρ c (Proc.devRef .tc main_arg7) = (m ((c : Thread nD τ).loc main_arg7)) :=
  (W8_of_ne m ρ c main_arg7 (by decide)).trans (W7_arg7 m ρ c)
theorem W9_arg7 : W9 m ρ c (Proc.devRef .tc main_arg7) = (m ((c : Thread nD τ).loc main_arg7)) :=
  (show StableHlo.after hostOps4 (W8 m ρ c) (Proc.devRef .tc main_arg7) = W8 m ρ c (Proc.devRef .tc main_arg7) by host_keep).trans (W8_arg7 m ρ c)
theorem W10_arg7 : W10 m ρ c (Proc.devRef .tc main_arg7) = (m ((c : Thread nD τ).loc main_arg7)) :=
  (W10_of_ne m ρ c main_arg7 (by decide)).trans (W9_arg7 m ρ c)
theorem W11_arg7 : W11 m ρ c (Proc.devRef .tc main_arg7) = (m ((c : Thread nD τ).loc main_arg7)) :=
  (show StableHlo.after hostOps5 (W10 m ρ c) (Proc.devRef .tc main_arg7) = W10 m ρ c (Proc.devRef .tc main_arg7) by host_keep).trans (W10_arg7 m ρ c)
theorem W12_arg7 : W12 m ρ c (Proc.devRef .tc main_arg7) = (m ((c : Thread nD τ).loc main_arg7)) :=
  (W12_of_ne m ρ c main_arg7 (by decide)).trans (W11_arg7 m ρ c)

end Cert.KernelIdeal.KV

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.PayMD.lean ====
/-
  The projection scaled row by row, read entry by entry at the ideal values.

  The body multiplies a 5000 × 128 block x by a 128 × 128 matrix w, accumulating into zero, and multiplies row p of the
  product by the entry (p, 0) of a 5000 × 1 column d broadcast along the row. At the ideal values the narrowing of the
  operands to sixteen bits is the identity and a cast to the same shape changes nothing, so entry (p, q) of the result is
  (∑ k, x(p, k) · w(k, q)) · d(p, 0). The three bodies of this kind differ only in a cast of x to its own shape.
-/
import proofs.«157623_j84000970375232_2_alg».proof.Proof.Gen.KernelIdeal.Skeleton
import proofs.«157623_j84000970375232_2_alg».proof.Proof.LibMatmulAt
import Idealize.ShloMosaic.PureOps.Ideal.Laws
import Idealize.ShloMosaic.Lib.Pipeline.Value
import Idealize.ShloMosaic.Lib.ValueLayout
import Idealize.ShloMosaic.Lib.ValueIdx

noncomputable section

namespace Cert.KernelIdeal.Pay

open Idealize.ShloMosaic Idealize.ShloMosaic.ValueIdx Cert.KernelIdeal Cert.KernelIdeal.Gen

/-- A 5000 × 1 column broadcast along the rows reads, at (p, q), the column's entry (p, 0). -/
private theorem broadcastTo_col_apply {α : Type} (v : (⟨2, ![5000, 1]⟩ : Shape).Idx → α)
    (h : (⟨2, ![5000, 1]⟩ : Shape).Broadcasts ⟨2, ![5000, 128]⟩) (p : Fin 5000) (q : Fin 128) :
    broadcastTo ⟨2, ![5000, 128]⟩ v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- Entry (p, q) of the scaled projection of the first body: (∑ k, x(p, k) · w(k, q)) · d(p, 0). -/
theorem k0_pay1_apply (x : Vec Ideal S5000x128 .f32) (w : Vec Ideal S128x128 .f32) (d : Vec Ideal S5000x1 .f32)
    (p : Fin 5000) (q : Fin 128) :
    Gen.k0_pay1 (F := Ideal) x w d (ix2 p q) = (∑ k : Fin 128, x (ix2 p k) * w (ix2 k q)) * d (ix2 p 0) := by
  unfold Gen.k0_pay1
  simp only [shapeCast_self]
  refine congrArg₂ (· * ·) ?_ (broadcastTo_col_apply d _ p q)
  exact Hand.matmul_zero_plain_apply _ rfl none _ _ (ix2 p q)

/-- Entry (p, q) of the scaled projection of the second body: (∑ k, x(p, k) · w(k, q)) · d(p, 0). -/
theorem k2_pay1_apply (x : Vec Ideal S5000x128 .f32) (w : Vec Ideal S128x128 .f32) (d : Vec Ideal S5000x1 .f32)
    (p : Fin 5000) (q : Fin 128) :
    Gen.k2_pay1 (F := Ideal) x w d (ix2 p q) = (∑ k : Fin 128, x (ix2 p k) * w (ix2 k q)) * d (ix2 p 0) := by
  unfold Gen.k2_pay1
  simp only [shapeCast_self]
  refine congrArg₂ (· * ·) ?_ (broadcastTo_col_apply d _ p q)
  exact Hand.matmul_zero_plain_apply _ rfl none _ _ (ix2 p q)

/-- Entry (p, q) of the scaled projection of the third body: (∑ k, x(p, k) · w(k, q)) · d(p, 0). -/
theorem k4_pay1_apply (x : Vec Ideal S5000x128 .f32) (w : Vec Ideal S128x128 .f32) (d : Vec Ideal S5000x1 .f32)
    (p : Fin 5000) (q : Fin 128) :
    Gen.k4_pay1 (F := Ideal) x w d (ix2 p q) = (∑ k : Fin 128, x (ix2 p k) * w (ix2 k q)) * d (ix2 p 0) := by
  unfold Gen.k4_pay1
  simp only [shapeCast_self]
  refine congrArg₂ (· * ·) ?_ (broadcastTo_col_apply d _ p q)
  exact Hand.matmul_zero_plain_apply _ rfl none _ _ (ix2 p q)

end Cert.KernelIdeal.Pay

end
-- ==== Proof.RegMD0.lean ====
/-
  Region 0: a row-blocked matrix product scaled row by row. Ten grid points; point t reads rows 5000 t … 5000 t + 4999
  of the left operand and of the scaling column, the whole square right operand, and writes the same rows of the
  output. Each written block is the restriction of one whole-array function, (x·w)(r, q) · d(r), and the ten blocks
  cover the output array, so the array ends holding that function.
-/
import proofs.«157623_j84000970375232_2_alg».proof.Proof.Gen.KernelIdeal.Frame
import proofs.«157623_j84000970375232_2_alg».proof.Proof.Spec
import proofs.«157623_j84000970375232_2_alg».proof.Proof.PayMD
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_off0 : (![0, 0] : Fin 2 → Nat) = fun _ => 0 := funext fun a => by fin_cases a <;> rfl

/-- The index maps over the ten grid points: the row-blocked windows (0, 2, 3) sit at block row t, column block 0;
    the square operand (window 1) is whole at every point. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 10 :=
  (by decide +kernel : ∀ t : Fin grid0.N, _)

/-- One element of a block of the scaled product: when row p of the block x is row (i 0) of X, column q of the
    square operand w is column (i 1) of W, and entry p of the column block d is entry (i 0) of D, the payload at
    (p, q) is (X·W)(i) · D(i 0). -/
theorem scaledProduct0_at (x : Vec Ideal S5000x128 .f32) (w : Vec Ideal S128x128 .f32) (d : Vec Ideal S5000x1 .f32)
    (X : Cert.Gcn.NF.Idx → EReal) (W : Cert.Gcn.FF.Idx → EReal) (D : Cert.Gcn.N1.Idx → EReal)
    (p : Fin 5000) (q : Fin 128) (i : Cert.Gcn.NF.Idx)
    (hx : ∀ k : Fin 128, x (ix2 p k) = X (ix2 (i 0) k))
    (hw : ∀ k : Fin 128, w (ix2 k q) = W (ix2 k (i 1)))
    (hd : d (ix2 p 0) = D (ix2 (i 0) 0)) :
    Gen.k0_pay1 (F := Ideal) x w d (ix2 p q) = Cert.Gcn.regMD X W D i := by
  rw [Pay.k0_pay1_apply]
  unfold Cert.Gcn.regMD Cert.Gcn.mm
  rw [hd]
  exact congrArg (· * D (ix2 (i 0) 0)) (Finset.sum_congr rfl fun k _ => by rw [hx k, hw k])

/-- Block t of window 0 (the left operand) is rows 5000 t … 5000 t + 4999 of its array. -/
theorem iblk0_0_at (c : Dev nD) (t : Fin cfg0.N) (y : S5000x128.Idx) (i : S50000x128.Idx)
    (h0 : (i 0).val = 5000 * t.val + (y 0).val) (h1 : (i 1).val = (y 1).val) :
    (Gen.iblk0 V c 0 t : Vec Ideal S5000x128 .f32) y = (V c (Pipeline.arrRef spec0 0) : S50000x128.Idx → EReal) i := by
  obtain ⟨e0, e1, -⟩ := blockIdx0 t
  unfold Gen.iblk0
  rw [View.read_apply]
  refine congrArg (V c (Pipeline.arrRef spec0 0) : S50000x128.Idx → EReal) ?_
  funext a
  apply Fin.ext
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- Window 1's block (the square operand) is its whole array at every point. -/
theorem iblk0_1_at (c : Dev nD) (t : Fin cfg0.N) (y : S128x128.Idx) :
    (Gen.iblk0 V c 1 t : Vec Ideal S128x128 .f32) y = (V c (Pipeline.arrRef spec0 1) : S128x128.Idx → EReal) y := by
  obtain ⟨-, -, e0, e1, -⟩ := blockIdx0 t
  unfold Gen.iblk0
  rw [View.read_apply]
  refine congrArg (V c (Pipeline.arrRef spec0 1) : S128x128.Idx → EReal) ?_
  funext a
  apply Fin.ext
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- Block t of window 2 (the scaling column) is entries 5000 t … 5000 t + 4999 of its column. -/
theorem iblk0_2_at (c : Dev nD) (t : Fin cfg0.N) (y : S5000x1.Idx) (i : S50000x1.Idx)
    (h0 : (i 0).val = 5000 * t.val + (y 0).val) :
    (Gen.iblk0 V c 2 t : Vec Ideal S5000x1 .f32) y = (V c (Pipeline.arrRef spec0 2) : S50000x1.Idx → EReal) i := by
  obtain ⟨-, -, -, -, e0, e1, -⟩ := blockIdx0 t
  unfold Gen.iblk0
  rw [View.read_apply]
  refine congrArg (V c (Pipeline.arrRef spec0 2) : S50000x1.Idx → EReal) ?_
  funext a
  apply Fin.ext
  have hy1 : (y 1).val < 1 := (y 1).isLt
  have hi1 : (i 1).val < 1 := (i 1).isLt
  match a with
  | ⟨0, _⟩ => show win0_2.index t (0 : Fin 2) * 5000 + 1 * (y 0).val = (i 0).val; omega
  | ⟨1, _⟩ => show win0_2.index t (1 : Fin 2) * 1 + 1 * (y 1).val = (i 1).val; omega

/-- Where entry (p, q) of the output's block t lands in the array: row 5000 t + p, column q. -/
theorem emb0_3_row (t : Fin cfg0.N) (p : Fin 5000) (q : Fin 128) :
    ((((cfg0.win 3).blk t).view.emb (ix2 p q) : S50000x128.Idx) 0).val = 5000 * t.val + p.val := by
  obtain ⟨-, -, -, -, -, -, e0, e1, -⟩ := blockIdx0 t
  show win0_3.index t (0 : Fin 2) * 5000 + 1 * p.val = _
  omega
theorem emb0_3_col (t : Fin cfg0.N) (p : Fin 5000) (q : Fin 128) :
    ((((cfg0.win 3).blk t).view.emb (ix2 p q) : S50000x128.Idx) 1).val = q.val := by
  obtain ⟨-, -, -, -, -, -, e0, e1, -⟩ := blockIdx0 t
  show win0_3.index t (1 : Fin 2) * 128 + 1 * q.val = _
  omega

/-- What point t writes back is block t of the scaled product of the arrays as the region finds them. -/
theorem flushed0_eq (c : Dev nD) (t : Fin cfg0.N) :
    (Gen.dat0 (F := Ideal) V c).flushed 3 t = ((cfg0.win 3).blk t).view.read (Elt Ideal)
      (Cert.Gcn.regMD (V c (Pipeline.arrRef spec0 0)) (V c (Pipeline.arrRef spec0 1)) (V c (Pipeline.arrRef spec0 2))) := by
  show (cfg0.win 3).cut (grid0.coords t) ((Gen.dat0 V c).after 3 t) = _
  rw [Gen.after0_3]
  unfold Gen.out0_3
  rw [View.canon_unit_zero zero_off0]
  simp only [View.ld_unit_zero (S := S5000x128) zero_off0, View.ld_unit_zero (S := S128x128) zero_off0, View.ld_unit_zero (S := S5000x1) zero_off0]
  funext j
  obtain ⟨p, q, rfl⟩ : ∃ (p : Fin 5000) (q : Fin 128), j = ix2 p q := ⟨j 0, j 1, eq_ix2 j⟩
  have hr := emb0_3_row t p q
  have hc := emb0_3_col t p q
  refine scaledProduct0_at _ _ _ _ _ _ p q (((cfg0.win 3).blk t).view.emb (ix2 p q)) (fun k => ?_) (fun k => ?_) ?_
  · exact iblk0_0_at V c t _ _ hr rfl
  · rw [iblk0_1_at V c t]
    refine congrArg (V c (Pipeline.arrRef spec0 1) : S128x128.Idx → EReal) ?_
    funext a
    apply Fin.ext
    match a with
    | ⟨0, _⟩ => rfl
    | ⟨1, _⟩ => exact hc.symm
  · exact iblk0_2_at V c t _ _ hr

/-- An index of the array is in point t's block iff each coordinate is in the block's range on its axis. -/
theorem mem_blk0 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v25).slice (win0_3.rect t)).set ↔ _
  rw [View.set_slice_whole, Rect.mem_set_unit]
  exact Iff.rfl

/-- Every row lies in the block of the point row / 5000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e0, e1, -⟩ := blockIdx0 t
  have ht : t.val = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The whole output array of region 0: the product scaled row by row. -/
theorem region0_value (c : Dev nD) :
    (Gen.dat0 (F := Ideal) V c).arrAt 3 cfg0.N = Cert.Gcn.regMD (V c (Pipeline.arrRef spec0 0)) (V c (Pipeline.arrRef spec0 1)) (V c (Pipeline.arrRef spec0 2)) :=
  (Gen.dat0 (F := Ideal) V c).arrAt_eq_of_cover 3 _ (fun t _ => flushed0_eq V c t) cover0

end Cert.KernelIdeal.Reg

end
-- ==== Proof.RegMD2.lean ====
/-
  Region 2: a row-blocked matrix product scaled row by row. Ten grid points; point t reads rows 5000 t … 5000 t + 4999
  of the left operand and of the scaling column, the whole square right operand, and writes the same rows of the
  output. Each written block is the restriction of one whole-array function, (x·w)(r, q) · d(r), and the ten blocks
  cover the output array, so the array ends holding that function.
-/
import proofs.«157623_j84000970375232_2_alg».proof.Proof.Gen.KernelIdeal.Frame
import proofs.«157623_j84000970375232_2_alg».proof.Proof.Spec
import proofs.«157623_j84000970375232_2_alg».proof.Proof.PayMD
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_off2 : (![0, 0] : Fin 2 → Nat) = fun _ => 0 := funext fun a => by fin_cases a <;> rfl

/-- The index maps over the ten grid points: the row-blocked windows (0, 2, 3) sit at block row t, column block 0;
    the square operand (window 1) is whole at every point. -/
theorem blockIdx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 ∧ t.val < 10 :=
  (by decide +kernel : ∀ t : Fin grid2.N, _)

/-- One element of a block of the scaled product: when row p of the block x is row (i 0) of X, column q of the
    square operand w is column (i 1) of W, and entry p of the column block d is entry (i 0) of D, the payload at
    (p, q) is (X·W)(i) · D(i 0). -/
theorem scaledProduct2_at (x : Vec Ideal S5000x128 .f32) (w : Vec Ideal S128x128 .f32) (d : Vec Ideal S5000x1 .f32)
    (X : Cert.Gcn.NF.Idx → EReal) (W : Cert.Gcn.FF.Idx → EReal) (D : Cert.Gcn.N1.Idx → EReal)
    (p : Fin 5000) (q : Fin 128) (i : Cert.Gcn.NF.Idx)
    (hx : ∀ k : Fin 128, x (ix2 p k) = X (ix2 (i 0) k))
    (hw : ∀ k : Fin 128, w (ix2 k q) = W (ix2 k (i 1)))
    (hd : d (ix2 p 0) = D (ix2 (i 0) 0)) :
    Gen.k2_pay1 (F := Ideal) x w d (ix2 p q) = Cert.Gcn.regMD X W D i := by
  rw [Pay.k2_pay1_apply]
  unfold Cert.Gcn.regMD Cert.Gcn.mm
  rw [hd]
  exact congrArg (· * D (ix2 (i 0) 0)) (Finset.sum_congr rfl fun k _ => by rw [hx k, hw k])

/-- Block t of window 0 (the left operand) is rows 5000 t … 5000 t + 4999 of its array. -/
theorem iblk2_0_at (c : Dev nD) (t : Fin cfg2.N) (y : S5000x128.Idx) (i : S50000x128.Idx)
    (h0 : (i 0).val = 5000 * t.val + (y 0).val) (h1 : (i 1).val = (y 1).val) :
    (Gen.iblk2 V c 0 t : Vec Ideal S5000x128 .f32) y = (V c (Pipeline.arrRef spec2 0) : S50000x128.Idx → EReal) i := by
  obtain ⟨e0, e1, -⟩ := blockIdx2 t
  unfold Gen.iblk2
  rw [View.read_apply]
  refine congrArg (V c (Pipeline.arrRef spec2 0) : S50000x128.Idx → EReal) ?_
  funext a
  apply Fin.ext
  match a with
  | ⟨0, _⟩ => show win2_0.index t (0 : Fin 2) * 5000 + 1 * (y 0).val = (i 0).val; omega
  | ⟨1, _⟩ => show win2_0.index t (1 : Fin 2) * 128 + 1 * (y 1).val = (i 1).val; omega

/-- Window 1's block (the square operand) is its whole array at every point. -/
theorem iblk2_1_at (c : Dev nD) (t : Fin cfg2.N) (y : S128x128.Idx) :
    (Gen.iblk2 V c 1 t : Vec Ideal S128x128 .f32) y = (V c (Pipeline.arrRef spec2 1) : S128x128.Idx → EReal) y := by
  obtain ⟨-, -, e0, e1, -⟩ := blockIdx2 t
  unfold Gen.iblk2
  rw [View.read_apply]
  refine congrArg (V c (Pipeline.arrRef spec2 1) : S128x128.Idx → EReal) ?_
  funext a
  apply Fin.ext
  match a with
  | ⟨0, _⟩ => show win2_1.index t (0 : Fin 2) * 128 + 1 * (y 0).val = (y 0).val; omega
  | ⟨1, _⟩ => show win2_1.index t (1 : Fin 2) * 128 + 1 * (y 1).val = (y 1).val; omega

/-- Block t of window 2 (the scaling column) is entries 5000 t … 5000 t + 4999 of its column. -/
theorem iblk2_2_at (c : Dev nD) (t : Fin cfg2.N) (y : S5000x1.Idx) (i : S50000x1.Idx)
    (h0 : (i 0).val = 5000 * t.val + (y 0).val) :
    (Gen.iblk2 V c 2 t : Vec Ideal S5000x1 .f32) y = (V c (Pipeline.arrRef spec2 2) : S50000x1.Idx → EReal) i := by
  obtain ⟨-, -, -, -, e0, e1, -⟩ := blockIdx2 t
  unfold Gen.iblk2
  rw [View.read_apply]
  refine congrArg (V c (Pipeline.arrRef spec2 2) : S50000x1.Idx → EReal) ?_
  funext a
  apply Fin.ext
  have hy1 : (y 1).val < 1 := (y 1).isLt
  have hi1 : (i 1).val < 1 := (i 1).isLt
  match a with
  | ⟨0, _⟩ => show win2_2.index t (0 : Fin 2) * 5000 + 1 * (y 0).val = (i 0).val; omega
  | ⟨1, _⟩ => show win2_2.index t (1 : Fin 2) * 1 + 1 * (y 1).val = (i 1).val; omega

/-- Where entry (p, q) of the output's block t lands in the array: row 5000 t + p, column q. -/
theorem emb2_3_row (t : Fin cfg2.N) (p : Fin 5000) (q : Fin 128) :
    ((((cfg2.win 3).blk t).view.emb (ix2 p q) : S50000x128.Idx) 0).val = 5000 * t.val + p.val := by
  obtain ⟨-, -, -, -, -, -, e0, e1, -⟩ := blockIdx2 t
  show win2_3.index t (0 : Fin 2) * 5000 + 1 * p.val = _
  omega
theorem emb2_3_col (t : Fin cfg2.N) (p : Fin 5000) (q : Fin 128) :
    ((((cfg2.win 3).blk t).view.emb (ix2 p q) : S50000x128.Idx) 1).val = q.val := by
  obtain ⟨-, -, -, -, -, -, e0, e1, -⟩ := blockIdx2 t
  show win2_3.index t (1 : Fin 2) * 128 + 1 * q.val = _
  omega

/-- What point t writes back is block t of the scaled product of the arrays as the region finds them. -/
theorem flushed2_eq (c : Dev nD) (t : Fin cfg2.N) :
    (Gen.dat2 (F := Ideal) V c).flushed 3 t = ((cfg2.win 3).blk t).view.read (Elt Ideal)
      (Cert.Gcn.regMD (V c (Pipeline.arrRef spec2 0)) (V c (Pipeline.arrRef spec2 1)) (V c (Pipeline.arrRef spec2 2))) := by
  show (cfg2.win 3).cut (grid2.coords t) ((Gen.dat2 V c).after 3 t) = _
  rw [Gen.after2_3]
  unfold Gen.out2_3
  rw [View.canon_unit_zero zero_off2]
  simp only [View.ld_unit_zero (S := S5000x128) zero_off2, View.ld_unit_zero (S := S128x128) zero_off2, View.ld_unit_zero (S := S5000x1) zero_off2]
  funext j
  obtain ⟨p, q, rfl⟩ : ∃ (p : Fin 5000) (q : Fin 128), j = ix2 p q := ⟨j 0, j 1, eq_ix2 j⟩
  have hr := emb2_3_row t p q
  have hc := emb2_3_col t p q
  refine scaledProduct2_at _ _ _ _ _ _ p q (((cfg2.win 3).blk t).view.emb (ix2 p q)) (fun k => ?_) (fun k => ?_) ?_
  · exact iblk2_0_at V c t _ _ hr rfl
  · rw [iblk2_1_at V c t]
    refine congrArg (V c (Pipeline.arrRef spec2 1) : S128x128.Idx → EReal) ?_
    funext a
    apply Fin.ext
    match a with
    | ⟨0, _⟩ => rfl
    | ⟨1, _⟩ => exact hc.symm
  · exact iblk2_2_at V c t _ _ hr

/-- An index of the array is in point t's block iff each coordinate is in the block's range on its axis. -/
theorem mem_blk2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v48).slice (win2_3.rect t)).set ↔ _
  rw [View.set_slice_whole, Rect.mem_set_unit]
  exact Iff.rfl

/-- Every row lies in the block of the point row / 5000. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨-, -, -, -, -, -, e0, e1, -⟩ := blockIdx2 t
  have ht : t.val = (i 0).val / 5000 := rfl
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The whole output array of region 2: the product scaled row by row. -/
theorem region2_value (c : Dev nD) :
    (Gen.dat2 (F := Ideal) V c).arrAt 3 cfg2.N = Cert.Gcn.regMD (V c (Pipeline.arrRef spec2 0)) (V c (Pipeline.arrRef spec2 1)) (V c (Pipeline.arrRef spec2 2)) :=
  (Gen.dat2 (F := Ideal) V c).arrAt_eq_of_cover 3 _ (fun t _ => flushed2_eq V c t) cover2

end Cert.KernelIdeal.Reg

end
-- ==== Proof.RegMD4.lean ====
/-
  Region 4: a row-blocked matrix product scaled row by row. Ten grid points; point t reads rows 5000 t … 5000 t + 4999
  of the left operand and of the scaling column, the whole square right operand, and writes the same rows of the
  output. Each written block is the restriction of one whole-array function, (x·w)(r, q) · d(r), and the ten blocks
  cover the output array, so the array ends holding that function.
-/
import proofs.«157623_j84000970375232_2_alg».proof.Proof.Gen.KernelIdeal.Frame
import proofs.«157623_j84000970375232_2_alg».proof.Proof.Spec
import proofs.«157623_j84000970375232_2_alg».proof.Proof.PayMD
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_off4 : (![0, 0] : Fin 2 → Nat) = fun _ => 0 := funext fun a => by fin_cases a <;> rfl

/-- The index maps over the ten grid points: the row-blocked windows (0, 2, 3) sit at block row t, column block 0;
    the square operand (window 1) is whole at every point. -/
theorem blockIdx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 ∧ t.val < 10 :=
  (by decide +kernel : ∀ t : Fin grid4.N, _)

/-- One element of a block of the scaled product: when row p of the block x is row (i 0) of X, column q of the
    square operand w is column (i 1) of W, and entry p of the column block d is entry (i 0) of D, the payload at
    (p, q) is (X·W)(i) · D(i 0). -/
theorem scaledProduct4_at (x : Vec Ideal S5000x128 .f32) (w : Vec Ideal S128x128 .f32) (d : Vec Ideal S5000x1 .f32)
    (X : Cert.Gcn.NF.Idx → EReal) (W : Cert.Gcn.FF.Idx → EReal) (D : Cert.Gcn.N1.Idx → EReal)
    (p : Fin 5000) (q : Fin 128) (i : Cert.Gcn.NF.Idx)
    (hx : ∀ k : Fin 128, x (ix2 p k) = X (ix2 (i 0) k))
    (hw : ∀ k : Fin 128, w (ix2 k q) = W (ix2 k (i 1)))
    (hd : d (ix2 p 0) = D (ix2 (i 0) 0)) :
    Gen.k4_pay1 (F := Ideal) x w d (ix2 p q) = Cert.Gcn.regMD X W D i := by
  rw [Pay.k4_pay1_apply]
  unfold Cert.Gcn.regMD Cert.Gcn.mm
  rw [hd]
  exact congrArg (· * D (ix2 (i 0) 0)) (Finset.sum_congr rfl fun k _ => by rw [hx k, hw k])

/-- Block t of window 0 (the left operand) is rows 5000 t … 5000 t + 4999 of its array. -/
theorem iblk4_0_at (c : Dev nD) (t : Fin cfg4.N) (y : S5000x128.Idx) (i : S50000x128.Idx)
    (h0 : (i 0).val = 5000 * t.val + (y 0).val) (h1 : (i 1).val = (y 1).val) :
    (Gen.iblk4 V c 0 t : Vec Ideal S5000x128 .f32) y = (V c (Pipeline.arrRef spec4 0) : S50000x128.Idx → EReal) i := by
  obtain ⟨e0, e1, -⟩ := blockIdx4 t
  unfold Gen.iblk4
  rw [View.read_apply]
  refine congrArg (V c (Pipeline.arrRef spec4 0) : S50000x128.Idx → EReal) ?_
  funext a
  apply Fin.ext
  match a with
  | ⟨0, _⟩ => show win4_0.index t (0 : Fin 2) * 5000 + 1 * (y 0).val = (i 0).val; omega
  | ⟨1, _⟩ => show win4_0.index t (1 : Fin 2) * 128 + 1 * (y 1).val = (i 1).val; omega

/-- Window 1's block (the square operand) is its whole array at every point. -/
theorem iblk4_1_at (c : Dev nD) (t : Fin cfg4.N) (y : S128x128.Idx) :
    (Gen.iblk4 V c 1 t : Vec Ideal S128x128 .f32) y = (V c (Pipeline.arrRef spec4 1) : S128x128.Idx → EReal) y := by
  obtain ⟨-, -, e0, e1, -⟩ := blockIdx4 t
  unfold Gen.iblk4
  rw [View.read_apply]
  refine congrArg (V c (Pipeline.arrRef spec4 1) : S128x128.Idx → EReal) ?_
  funext a
  apply Fin.ext
  match a with
  | ⟨0, _⟩ => show win4_1.index t (0 : Fin 2) * 128 + 1 * (y 0).val = (y 0).val; omega
  | ⟨1, _⟩ => show win4_1.index t (1 : Fin 2) * 128 + 1 * (y 1).val = (y 1).val; omega

/-- Block t of window 2 (the scaling column) is entries 5000 t … 5000 t + 4999 of its column. -/
theorem iblk4_2_at (c : Dev nD) (t : Fin cfg4.N) (y : S5000x1.Idx) (i : S50000x1.Idx)
    (h0 : (i 0).val = 5000 * t.val + (y 0).val) :
    (Gen.iblk4 V c 2 t : Vec Ideal S5000x1 .f32) y = (V c (Pipeline.arrRef spec4 2) : S50000x1.Idx → EReal) i := by
  obtain ⟨-, -, -, -, e0, e1, -⟩ := blockIdx4 t
  unfold Gen.iblk4
  rw [View.read_apply]
  refine congrArg (V c (Pipeline.arrRef spec4 2) : S50000x1.Idx → EReal) ?_
  funext a
  apply Fin.ext
  have hy1 : (y 1).val < 1 := (y 1).isLt
  have hi1 : (i 1).val < 1 := (i 1).isLt
  match a with
  | ⟨0, _⟩ => show win4_2.index t (0 : Fin 2) * 5000 + 1 * (y 0).val = (i 0).val; omega
  | ⟨1, _⟩ => show win4_2.index t (1 : Fin 2) * 1 + 1 * (y 1).val = (i 1).val; omega

/-- Where entry (p, q) of the output's block t lands in the array: row 5000 t + p, column q. -/
theorem emb4_3_row (t : Fin cfg4.N) (p : Fin 5000) (q : Fin 128) :
    ((((cfg4.win 3).blk t).view.emb (ix2 p q) : S50000x128.Idx) 0).val = 5000 * t.val + p.val := by
  obtain ⟨-, -, -, -, -, -, e0, e1, -⟩ := blockIdx4 t
  show win4_3.index t (0 : Fin 2) * 5000 + 1 * p.val = _
  omega
theorem emb4_3_col (t : Fin cfg4.N) (p : Fin 5000) (q : Fin 128) :
    ((((cfg4.win 3).blk t).view.emb (ix2 p q) : S50000x128.Idx) 1).val = q.val := by
  obtain ⟨-, -, -, -, -, -, e0, e1, -⟩ := blockIdx4 t
  show win4_3.index t (1 : Fin 2) * 128 + 1 * q.val = _
  omega

/-- What point t writes back is block t of the scaled product of the arrays as the region finds them. -/
theorem flushed4_eq (c : Dev nD) (t : Fin cfg4.N) :
    (Gen.dat4 (F := Ideal) V c).flushed 3 t = ((cfg4.win 3).blk t).view.read (Elt Ideal)
      (Cert.Gcn.regMD (V c (Pipeline.arrRef spec4 0)) (V c (Pipeline.arrRef spec4 1)) (V c (Pipeline.arrRef spec4 2))) := by
  show (cfg4.win 3).cut (grid4.coords t) ((Gen.dat4 V c).after 3 t) = _
  rw [Gen.after4_3]
  unfold Gen.out4_3
  rw [View.canon_unit_zero zero_off4]
  simp only [View.ld_unit_zero (S := S5000x128) zero_off4, View.ld_unit_zero (S := S128x128) zero_off4, View.ld_unit_zero (S := S5000x1) zero_off4]
  funext j
  obtain ⟨p, q, rfl⟩ : ∃ (p : Fin 5000) (q : Fin 128), j = ix2 p q := ⟨j 0, j 1, eq_ix2 j⟩
  have hr := emb4_3_row t p q
  have hc := emb4_3_col t p q
  refine scaledProduct4_at _ _ _ _ _ _ p q (((cfg4.win 3).blk t).view.emb (ix2 p q)) (fun k => ?_) (fun k => ?_) ?_
  · exact iblk4_0_at V c t _ _ hr rfl
  · rw [iblk4_1_at V c t]
    refine congrArg (V c (Pipeline.arrRef spec4 1) : S128x128.Idx → EReal) ?_
    funext a
    apply Fin.ext
    match a with
    | ⟨0, _⟩ => rfl
    | ⟨1, _⟩ => exact hc.symm
  · exact iblk4_2_at V c t _ _ hr

/-- An index of the array is in point t's block iff each coordinate is in the block's range on its axis. -/
theorem mem_blk4 (t : Fin cfg4.N) (i : S50000x128.Idx) :
    i ∈ ((cfg4.win 3).blk t).view.set ↔ ∀ a : Fin 2, win4_3.index t a * S5000x128.size a ≤ (i a).val ∧ (i a).val < win4_3.index t a * S5000x128.size a + S5000x128.size a := by
  show i ∈ ((View.whole main_v71).slice (win4_3.rect t)).set ↔ _
  rw [View.set_slice_whole, Rect.mem_set_unit]
  exact Iff.rfl

/-- Every row lies in the block of the point row / 5000. -/
theorem cover4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨-, -, -, -, -, -, e0, e1, -⟩ := blockIdx4 t
  have ht : t.val = (i 0).val / 5000 := rfl
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- The whole output array of region 4: the product scaled row by row. -/
theorem region4_value (c : Dev nD) :
    (Gen.dat4 (F := Ideal) V c).arrAt 3 cfg4.N = Cert.Gcn.regMD (V c (Pipeline.arrRef spec4 0)) (V c (Pipeline.arrRef spec4 1)) (V c (Pipeline.arrRef spec4 2)) :=
  (Gen.dat4 (F := Ideal) V c).arrAt_eq_of_cover 3 _ (fun t _ => flushed4_eq V c t) cover4

end Cert.KernelIdeal.Reg

end
-- ==== Proof.PayLN.lean ====
/-
  The normalising bodies, read entry by entry at the ideal values.

  The body forms the pre-activation v(p, k) = d(p, 0) · (agg(p, k) + h'(p, k)) + b(0, k) of a 5000 × 128 block, where the
  5000 × 1 column d is broadcast along the rows and the 1 × 128 row b down the columns. It then sums each row, divides by
  128 to get the row's mean, subtracts the mean from the row, sums the squares of the centred row and divides by 128 to
  get the row's variance, multiplies the centred row by the reciprocal square root of the variance plus a small constant,
  scales by the row g, shifts by the row be, and takes the maximum with zero. Each row sum is a sum over the 128 column
  coordinates; each column of per-row numbers is read at (p, 0); so entry (p, q) of the result is the normalised,
  scaled, shifted and clamped entry q of row p of v. The three bodies of this kind are the same text.
-/
import proofs.«157623_j84000970375232_2_alg».proof.Proof.Gen.KernelIdeal.Skeleton
import proofs.«157623_j84000970375232_2_alg».proof.Proof.Spec
import Idealize.ShloMosaic.PureOps.Ideal.Laws
import Idealize.ShloMosaic.Lib.Pipeline.Value
import Idealize.ShloMosaic.Lib.ValueLayout
import Idealize.ShloMosaic.Lib.ValueIdx

noncomputable section

namespace Cert.KernelIdeal.Pay

open Idealize.ShloMosaic Idealize.ShloMosaic.ValueIdx Cert.KernelIdeal Cert.KernelIdeal.Gen

/-- A 5000 × 1 column broadcast along the rows reads, at (p, q), the column's entry (p, 0). -/
private theorem broadcastTo_col_apply {α : Type} (v : (⟨2, ![5000, 1]⟩ : Shape).Idx → α)
    (h : (⟨2, ![5000, 1]⟩ : Shape).Broadcasts ⟨2, ![5000, 128]⟩) (p : Fin 5000) (q : Fin 128) :
    broadcastTo ⟨2, ![5000, 128]⟩ v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A vector of 5000 entries viewed as a 5000 × 1 column reads, at (p, 0), the vector's entry p. -/
theorem shapeCast_vec_col_apply {α : Type} (v : (⟨1, ![5000]⟩ : Shape).Idx → α)
    (h : (⟨1, ![5000]⟩ : Shape).ShapeCasts ⟨2, ![5000, 1]⟩) (p : Fin 5000) (u : Fin 1) :
    shapeCast ⟨2, ![5000, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- The sum of a 5000 × 128 array along its rows, kept as a 5000 × 1 column, reads at (p, 0) the sum of row p. -/
theorem rowSum_apply (src : FVec Ideal S5000x128 .f32) (h : S5000x128.Reduces [1] S5000) (hφ : FKind.Formats FTy.f32)
    (hacc : (0x00000000#32 : BitVec 32) = FKind.add.neutral .f32 hφ) (hc : S5000.ShapeCasts S5000x1) (p : Fin 5000) (u : Fin 1) :
    shapeCast S5000x1 (multiReduction .add [1] S5000 src 0x00000000#32 h hφ hacc) hc (ix2 p u)
      = ∑ k : Fin 128, src (ix2 p k) := by
  refine (shapeCast_vec_col_apply _ hc p u).trans ?_
  refine (Ideal.multiReduction_add_single src 0x00000000#32 h hφ hacc (ix1 p)).trans ?_
  refine Finset.sum_congr rfl fun k _ => congrArg src ?_
  funext a
  match a with
  | ⟨0, _⟩ => rfl
  | ⟨1, _⟩ => rfl

section RowNorm
variable (v : FVec Ideal S5000x128 .f32) (hφ : FKind.Formats FTy.f32)
  (hacc : (0x00000000#32 : BitVec 32) = FKind.add.neutral .f32 hφ)

/-- The column of the rows' means, as the body forms it: the row sums divided by the splat of 128. -/
abbrev meanCol : FVec Ideal S5000x1 .f32 :=
  divf (shapeCast S5000x1 (multiReduction .add [1] S5000 v 0x00000000#32 reduces_S5000x128_S5000 hφ hacc) shapeCasts_S5000_S5000x1)
    (broadcast S5000x1 (FloatOps.ofBits .f32 0x43000000#32))

/-- The array with each row's mean subtracted from the row. -/
abbrev centred : FVec Ideal S5000x128 .f32 :=
  subf v (broadcastTo S5000x128 (meanCol v hφ hacc) broadcasts_S5000x1_S5000x128)

/-- The column of the rows' variances: the row sums of the squared centred entries divided by the splat of 128. -/
abbrev varCol : FVec Ideal S5000x1 .f32 :=
  divf (shapeCast S5000x1 (multiReduction .add [1] S5000 (mulf (centred v hφ hacc) (centred v hφ hacc)) 0x00000000#32
      reduces_S5000x128_S5000 hφ hacc) shapeCasts_S5000_S5000x1)
    (broadcast S5000x1 (FloatOps.ofBits .f32 0x43000000#32))

theorem meanCol_apply (p : Fin 5000) (u : Fin 1) :
    meanCol v hφ hacc (ix2 p u) = Cert.Gcn.rowMean (fun k => v (ix2 p k)) :=
  congrArg (fun s => Ideal.div s Cert.Gcn.c128) (rowSum_apply v _ hφ hacc _ p u)

theorem centred_apply (p : Fin 5000) (k : Fin 128) :
    centred v hφ hacc (ix2 p k) = v (ix2 p k) - Cert.Gcn.rowMean (fun k => v (ix2 p k)) :=
  congrArg (fun m => v (ix2 p k) - m) ((broadcastTo_col_apply _ _ p k).trans (meanCol_apply v hφ hacc p 0))

theorem varCol_apply (p : Fin 5000) (u : Fin 1) :
    varCol v hφ hacc (ix2 p u) = Cert.Gcn.rowVar (fun k => v (ix2 p k)) :=
  congrArg (fun s => Ideal.div s Cert.Gcn.c128)
    ((rowSum_apply _ _ hφ hacc _ p u).trans
      (Finset.sum_congr rfl fun k _ => congrArg₂ (· * ·) (centred_apply v hφ hacc p k) (centred_apply v hφ hacc p k)))

/-- A row normalised, scaled, shifted and clamped, read at (p, q). -/
theorem lnrelu_apply (g be : FVec Ideal S1x128 .f32) (p : Fin 5000) (q : Fin 128) :
    maximumf
      (addf
        (mulf
          (mulf (centred v hφ hacc)
            (broadcastTo S5000x128
              (rsqrt (addf (varCol v hφ hacc) (broadcast S5000x1 (FloatOps.ofBits .f32 0x3727C5AC#32))))
              broadcasts_S5000x1_S5000x128))
          (broadcastTo S5000x128 g broadcasts_S1x128_S5000x128))
        (broadcastTo S5000x128 be broadcasts_S1x128_S5000x128))
      (broadcast S5000x128 (FloatOps.ofBits .f32 0x00000000#32)) (ix2 p q)
      = Cert.Gcn.lnrow (fun k => v (ix2 p k)) (g (ix2 0 q)) (be (ix2 0 q)) q := by
  unfold Cert.Gcn.lnrow
  refine congrArg₂ max ?_ rfl
  refine congrArg₂ (· + ·) ?_ (broadcastTo_1b_ab_apply be _ p q)
  refine congrArg₂ (· * ·) ?_ (broadcastTo_1b_ab_apply g _ p q)
  refine congrArg₂ (· * ·) (centred_apply v hφ hacc p q) ?_
  refine (broadcastTo_col_apply _ _ p q).trans ?_
  exact congrArg (fun s => Ideal.rsqrt (s + Cert.Gcn.ceps)) (varCol_apply v hφ hacc p 0)

end RowNorm

/-- The pre-activation d(p) · (agg(p, k) + h'(p, k)) + b(k), read at (p, k). -/
theorem pre_apply (d : FVec Ideal S5000x1 .f32) (agg hp : FVec Ideal S5000x128 .f32) (b : FVec Ideal S1x128 .f32)
    (p : Fin 5000) (k : Fin 128) :
    addf (mulf (broadcastTo S5000x128 d broadcasts_S5000x1_S5000x128) (addf agg hp))
        (broadcastTo S5000x128 b broadcasts_S1x128_S5000x128) (ix2 p k)
      = d (ix2 p 0) * (agg (ix2 p k) + hp (ix2 p k)) + b (ix2 0 k) :=
  congrArg₂ (· + ·) (congrArg (· * (agg (ix2 p k) + hp (ix2 p k))) (broadcastTo_col_apply d _ p k))
    (broadcastTo_1b_ab_apply b _ p k)

/-- Entry (p, q) of the first normalising body: row p of d(p, 0) · (agg + h') + b, normalised, scaled by g(0, q), shifted by
    be(0, q) and clamped at zero from below. -/
theorem k1_pay1_apply (d : Vec Ideal S5000x1 .f32) (agg hp : Vec Ideal S5000x128 .f32) (b g be : Vec Ideal S1x128 .f32)
    (p : Fin 5000) (q : Fin 128) :
    Gen.k1_pay1 (F := Ideal) d agg hp b g be (ix2 p q)
      = Cert.Gcn.lnrow (fun k => d (ix2 p 0) * (agg (ix2 p k) + hp (ix2 p k)) + b (ix2 0 k)) (g (ix2 0 q)) (be (ix2 0 q)) q := by
  unfold Gen.k1_pay1
  simp only [shapeCast_self]
  refine (lnrelu_apply _ _ _ g be p q).trans ?_
  exact congrArg (fun r => Cert.Gcn.lnrow r (g (ix2 0 q)) (be (ix2 0 q)) q) (funext fun k => pre_apply d agg hp b p k)

/-- Entry (p, q) of the second normalising body: row p of d(p, 0) · (agg + h') + b, normalised, scaled by g(0, q), shifted by
    be(0, q) and clamped at zero from below. -/
theorem k3_pay1_apply (d : Vec Ideal S5000x1 .f32) (agg hp : Vec Ideal S5000x128 .f32) (b g be : Vec Ideal S1x128 .f32)
    (p : Fin 5000) (q : Fin 128) :
    Gen.k3_pay1 (F := Ideal) d agg hp b g be (ix2 p q)
      = Cert.Gcn.lnrow (fun k => d (ix2 p 0) * (agg (ix2 p k) + hp (ix2 p k)) + b (ix2 0 k)) (g (ix2 0 q)) (be (ix2 0 q)) q := by
  unfold Gen.k3_pay1
  simp only [shapeCast_self]
  refine (lnrelu_apply _ _ _ g be p q).trans ?_
  exact congrArg (fun r => Cert.Gcn.lnrow r (g (ix2 0 q)) (be (ix2 0 q)) q) (funext fun k => pre_apply d agg hp b p k)

/-- Entry (p, q) of the third normalising body: row p of d(p, 0) · (agg + h') + b, normalised, scaled by g(0, q), shifted by
    be(0, q) and clamped at zero from below. -/
theorem k5_pay1_apply (d : Vec Ideal S5000x1 .f32) (agg hp : Vec Ideal S5000x128 .f32) (b g be : Vec Ideal S1x128 .f32)
    (p : Fin 5000) (q : Fin 128) :
    Gen.k5_pay1 (F := Ideal) d agg hp b g be (ix2 p q)
      = Cert.Gcn.lnrow (fun k => d (ix2 p 0) * (agg (ix2 p k) + hp (ix2 p k)) + b (ix2 0 k)) (g (ix2 0 q)) (be (ix2 0 q)) q := by
  unfold Gen.k5_pay1
  simp only [shapeCast_self]
  refine (lnrelu_apply _ _ _ g be p q).trans ?_
  exact congrArg (fun r => Cert.Gcn.lnrow r (g (ix2 0 q)) (be (ix2 0 q)) q) (funext fun k => pre_apply d agg hp b p k)

end Cert.KernelIdeal.Pay

end
-- ==== Proof.RegLN1.lean ====
/-
  Region 1: the row-blocked normalising step. Ten grid points; point t reads rows 5000 t … 5000 t + 4999 of the
  aggregate, of the projection and of the scaling column, the three whole parameter rows (bias, scale, shift), and
  writes the same rows of the output. An output entry depends only on its own row of the inputs, so each written block
  is the restriction of one whole-array function — row r of d(r) · (agg + h') + b, normalised, scaled, shifted and
  clamped at zero — and the ten blocks cover the output array, so the array ends holding that function.
-/
import proofs.«157623_j84000970375232_2_alg».proof.Proof.Gen.KernelIdeal.Frame
import proofs.«157623_j84000970375232_2_alg».proof.Proof.Spec
import proofs.«157623_j84000970375232_2_alg».proof.Proof.PayLN
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_off1 : (![0, 0] : Fin 2 → Nat) = fun _ => 0 := funext fun a => by fin_cases a <;> rfl

/-- The index maps over the ten grid points: the row-blocked windows (0, 1, 2, 6) sit at block row t, column block 0;
    the three parameter rows (windows 3, 4, 5) are whole at every point. -/
theorem blockIdx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 ∧ t.val < 10 :=
  (by decide +kernel : ∀ t : Fin grid1.N, _)

/-- One element of a block of the normalised array: when row p of the blocks agg, hp is row (i 0) of AGG, HP, entry p
    of the column block d is entry (i 0) of D, the bias row b is B, and entry q of the rows g, be is entry (i 1) of
    G, BE — with q the column (i 1) — the payload at (p, q) is the normalised row (i 0) at column (i 1). -/
theorem normalised1_at (d : Vec Ideal S5000x1 .f32) (agg hp : Vec Ideal S5000x128 .f32) (b g be : Vec Ideal S1x128 .f32)
    (AGG HP : Cert.Gcn.NF.Idx → EReal) (D : Cert.Gcn.N1.Idx → EReal) (B G BE : Cert.Gcn.R1.Idx → EReal)
    (p : Fin 5000) (q : Fin 128) (i : Cert.Gcn.NF.Idx)
    (hq : i 1 = q)
    (hagg : ∀ k : Fin 128, agg (ix2 p k) = AGG (ix2 (i 0) k))
    (hhp : ∀ k : Fin 128, hp (ix2 p k) = HP (ix2 (i 0) k))
    (hd : d (ix2 p 0) = D (ix2 (i 0) 0))
    (hb : ∀ k : Fin 128, b (ix2 0 k) = B (ix2 0 k))
    (hg : g (ix2 0 q) = G (ix2 0 (i 1)))
    (hbe : be (ix2 0 q) = BE (ix2 0 (i 1))) :
    Gen.k1_pay1 (F := Ideal) d agg hp b g be (ix2 p q) = Cert.Gcn.regLN AGG HP D B G BE i := by
  have hrow : (fun k : Fin 128 => d (ix2 p 0) * (agg (ix2 p k) + hp (ix2 p k)) + b (ix2 0 k))
      = fun k : Fin 128 => Cert.Gcn.preLN AGG HP D B (ix2 (i 0) k) := by
    funext k
    rw [hagg k, hhp k, hb k, hd]
    rfl
  rw [Pay.k1_pay1_apply, hg, hbe, hrow, ← hq]
  rfl

/-- Block t of window 0 (the aggregate) is rows 5000 t … 5000 t + 4999 of its array. -/
theorem iblk1_0_at (c : Dev nD) (t : Fin cfg1.N) (y : S5000x128.Idx) (i : S50000x128.Idx)
    (h0 : (i 0).val = 5000 * t.val + (y 0).val) (h1 : (i 1).val = (y 1).val) :
    (Gen.iblk1 V c 0 t : Vec Ideal S5000x128 .f32) y = (V c (Pipeline.arrRef spec1 0) : S50000x128.Idx → EReal) i := by
  obtain ⟨e0, e1, -⟩ := blockIdx1 t
  unfold Gen.iblk1
  rw [View.read_apply]
  refine congrArg (V c (Pipeline.arrRef spec1 0) : S50000x128.Idx → EReal) ?_
  funext a
  apply Fin.ext
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- Block t of window 1 (the projection) is rows 5000 t … 5000 t + 4999 of its array. -/
theorem iblk1_1_at (c : Dev nD) (t : Fin cfg1.N) (y : S5000x128.Idx) (i : S50000x128.Idx)
    (h0 : (i 0).val = 5000 * t.val + (y 0).val) (h1 : (i 1).val = (y 1).val) :
    (Gen.iblk1 V c 1 t : Vec Ideal S5000x128 .f32) y = (V c (Pipeline.arrRef spec1 1) : S50000x128.Idx → EReal) i := by
  obtain ⟨-, -, e0, e1, -⟩ := blockIdx1 t
  unfold Gen.iblk1
  rw [View.read_apply]
  refine congrArg (V c (Pipeline.arrRef spec1 1) : S50000x128.Idx → EReal) ?_
  funext a
  apply Fin.ext
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- Block t of window 2 (the scaling column) is entries 5000 t … 5000 t + 4999 of its column. -/
theorem iblk1_2_at (c : Dev nD) (t : Fin cfg1.N) (y : S5000x1.Idx) (i : S50000x1.Idx)
    (h0 : (i 0).val = 5000 * t.val + (y 0).val) :
    (Gen.iblk1 V c 2 t : Vec Ideal S5000x1 .f32) y = (V c (Pipeline.arrRef spec1 2) : S50000x1.Idx → EReal) i := by
  obtain ⟨-, -, -, -, e0, e1, -⟩ := blockIdx1 t
  unfold Gen.iblk1
  rw [View.read_apply]
  refine congrArg (V c (Pipeline.arrRef spec1 2) : S50000x1.Idx → EReal) ?_
  funext a
  apply Fin.ext
  have hy1 : (y 1).val < 1 := (y 1).isLt
  have hi1 : (i 1).val < 1 := (i 1).isLt
  match a with
  | ⟨0, _⟩ => show win1_2.index t (0 : Fin 2) * 5000 + 1 * (y 0).val = (i 0).val; omega
  | ⟨1, _⟩ => show win1_2.index t (1 : Fin 2) * 1 + 1 * (y 1).val = (i 1).val; omega

/-- Window 3's block (the bias row) is its whole array at every point. -/
theorem iblk1_3_at (c : Dev nD) (t : Fin cfg1.N) (y : S1x128.Idx) :
    (Gen.iblk1 V c 3 t : Vec Ideal S1x128 .f32) y = (V c (Pipeline.arrRef spec1 3) : S1x128.Idx → EReal) y := by
  obtain ⟨-, -, -, -, -, -, e0, e1, -⟩ := blockIdx1 t
  unfold Gen.iblk1
  rw [View.read_apply]
  refine congrArg (V c (Pipeline.arrRef spec1 3) : S1x128.Idx → EReal) ?_
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- Window 4's block (the scale row) is its whole array at every point. -/
theorem iblk1_4_at (c : Dev nD) (t : Fin cfg1.N) (y : S1x128.Idx) :
    (Gen.iblk1 V c 4 t : Vec Ideal S1x128 .f32) y = (V c (Pipeline.arrRef spec1 4) : S1x128.Idx → EReal) y := by
  obtain ⟨-, -, -, -, -, -, -, -, e0, e1, -⟩ := blockIdx1 t
  unfold Gen.iblk1
  rw [View.read_apply]
  refine congrArg (V c (Pipeline.arrRef spec1 4) : S1x128.Idx → EReal) ?_
  funext a
  apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Window 5's block (the shift row) is its whole array at every point. -/
theorem iblk1_5_at (c : Dev nD) (t : Fin cfg1.N) (y : S1x128.Idx) :
    (Gen.iblk1 V c 5 t : Vec Ideal S1x128 .f32) y = (V c (Pipeline.arrRef spec1 5) : S1x128.Idx → EReal) y := by
  obtain ⟨-, -, -, -, -, -, -, -, -, -, e0, e1, -⟩ := blockIdx1 t
  unfold Gen.iblk1
  rw [View.read_apply]
  refine congrArg (V c (Pipeline.arrRef spec1 5) : S1x128.Idx → EReal) ?_
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Where entry (p, q) of the output's block t lands in the array: row 5000 t + p, column q. -/
theorem emb1_6_row (t : Fin cfg1.N) (p : Fin 5000) (q : Fin 128) :
    ((((cfg1.win 6).blk t).view.emb (ix2 p q) : S50000x128.Idx) 0).val = 5000 * t.val + p.val := by
  obtain ⟨-, -, -, -, -, -, -, -, -, -, -, -, e0, e1, -⟩ := blockIdx1 t
  show win1_6.index t (0 : Fin 2) * 5000 + 1 * p.val = _
  omega
theorem emb1_6_col (t : Fin cfg1.N) (p : Fin 5000) (q : Fin 128) :
    ((((cfg1.win 6).blk t).view.emb (ix2 p q) : S50000x128.Idx) 1).val = q.val := by
  obtain ⟨-, -, -, -, -, -, -, -, -, -, -, -, e0, e1, -⟩ := blockIdx1 t
  show win1_6.index t (1 : Fin 2) * 128 + 1 * q.val = _
  omega

/-- Row p of window 0's block t is the array's row under entry (p, q) of the output's block t. -/
theorem iblk1_0_at_out (c : Dev nD) (t : Fin cfg1.N) (p : Fin 5000) (q k : Fin 128) :
    (Gen.iblk1 V c 0 t : Vec Ideal S5000x128 .f32) (ix2 p k)
      = (V c (Pipeline.arrRef spec1 0) : S50000x128.Idx → EReal) (ix2 ((((cfg1.win 6).blk t).view.emb (ix2 p q) : S50000x128.Idx) 0) k) :=
  iblk1_0_at V c t _ _ (emb1_6_row t p q) rfl

/-- Row p of window 1's block t is the array's row under entry (p, q) of the output's block t. -/
theorem iblk1_1_at_out (c : Dev nD) (t : Fin cfg1.N) (p : Fin 5000) (q k : Fin 128) :
    (Gen.iblk1 V c 1 t : Vec Ideal S5000x128 .f32) (ix2 p k)
      = (V c (Pipeline.arrRef spec1 1) : S50000x128.Idx → EReal) (ix2 ((((cfg1.win 6).blk t).view.emb (ix2 p q) : S50000x128.Idx) 0) k) :=
  iblk1_1_at V c t _ _ (emb1_6_row t p q) rfl

/-- Entry p of window 2's block t is the column's entry under entry (p, q) of the output's block t. -/
theorem iblk1_2_at_out (c : Dev nD) (t : Fin cfg1.N) (p : Fin 5000) (q : Fin 128) :
    (Gen.iblk1 V c 2 t : Vec Ideal S5000x1 .f32) (ix2 p 0)
      = (V c (Pipeline.arrRef spec1 2) : S50000x1.Idx → EReal) (ix2 ((((cfg1.win 6).blk t).view.emb (ix2 p q) : S50000x128.Idx) 0) 0) :=
  iblk1_2_at V c t _ _ (emb1_6_row t p q)

/-- Entry q of window 4's row is the row's entry under entry (p, q) of the output's block t. -/
theorem iblk1_4_at_out (c : Dev nD) (t : Fin cfg1.N) (p : Fin 5000) (q : Fin 128) :
    (Gen.iblk1 V c 4 t : Vec Ideal S1x128 .f32) (ix2 0 q)
      = (V c (Pipeline.arrRef spec1 4) : S1x128.Idx → EReal) (ix2 0 ((((cfg1.win 6).blk t).view.emb (ix2 p q) : S50000x128.Idx) 1)) := by
  rw [iblk1_4_at V c t]
  refine congrArg (V c (Pipeline.arrRef spec1 4) : S1x128.Idx → EReal) ?_
  funext a
  apply Fin.ext
  match a with
  | ⟨0, _⟩ => rfl
  | ⟨1, _⟩ => exact (emb1_6_col t p q).symm

/-- Entry q of window 5's row is the row's entry under entry (p, q) of the output's block t. -/
theorem iblk1_5_at_out (c : Dev nD) (t : Fin cfg1.N) (p : Fin 5000) (q : Fin 128) :
    (Gen.iblk1 V c 5 t : Vec Ideal S1x128 .f32) (ix2 0 q)
      = (V c (Pipeline.arrRef spec1 5) : S1x128.Idx → EReal) (ix2 0 ((((cfg1.win 6).blk t).view.emb (ix2 p q) : S50000x128.Idx) 1)) := by
  rw [iblk1_5_at V c t]
  refine congrArg (V c (Pipeline.arrRef spec1 5) : S1x128.Idx → EReal) ?_
  funext a
  apply Fin.ext
  match a with
  | ⟨0, _⟩ => rfl
  | ⟨1, _⟩ => exact (emb1_6_col t p q).symm

/-- What point t writes back is block t of the normalised array of the arrays as the region finds them. -/
theorem flushed1_eq (c : Dev nD) (t : Fin cfg1.N) :
    (Gen.dat1 (F := Ideal) V c).flushed 6 t = ((cfg1.win 6).blk t).view.read (Elt Ideal)
      (Cert.Gcn.regLN (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((Gen.dat1 V c).after 6 t) = _
  rw [Gen.after1_6]
  unfold Gen.out1_6
  rw [View.canon_unit_zero zero_off1]
  simp only [View.ld_unit_zero (S := S5000x128) zero_off1, View.ld_unit_zero (S := S5000x1) zero_off1, View.ld_unit_zero (S := S1x128) zero_off1]
  funext j
  obtain ⟨p, q, rfl⟩ : ∃ (p : Fin 5000) (q : Fin 128), j = ix2 p q := ⟨j 0, j 1, eq_ix2 j⟩
  exact normalised1_at _ _ _ _ _ _ _ _ _ _ _ _ p q (((cfg1.win 6).blk t).view.emb (ix2 p q)) (Fin.ext (emb1_6_col t p q))
    (fun k => iblk1_0_at_out V c t p q k) (fun k => iblk1_1_at_out V c t p q k) (iblk1_2_at_out V c t p q)
    (fun k => iblk1_3_at V c t _) (iblk1_4_at_out V c t p q) (iblk1_5_at_out V c t p q)

/-- An index of the array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v39).slice (win1_6.rect t)).set ↔ _
  rw [View.set_slice_whole, Rect.mem_set_unit]
  exact Iff.rfl

/-- Every row lies in the block of the point row / 5000. -/
theorem cover1 (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, -, -, -, -, -, -, e0, e1, -⟩ := blockIdx1 t
  have ht : t.val = (i 0).val / 5000 := rfl
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- The whole output array of region 1: the pre-activation normalised row by row, scaled, shifted and clamped. -/
theorem region1_value (c : Dev nD) :
    (Gen.dat1 (F := Ideal) V c).arrAt 6 cfg1.N = Cert.Gcn.regLN (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (Gen.dat1 (F := Ideal) V c).arrAt_eq_of_cover 6 _ (fun t _ => flushed1_eq V c t) cover1

end Cert.KernelIdeal.Reg

end
-- ==== Proof.RegLN3.lean ====
/-
  Region 3: the row-blocked normalising step. Ten grid points; point t reads rows 5000 t … 5000 t + 4999 of the
  aggregate, of the projection and of the scaling column, the three whole parameter rows (bias, scale, shift), and
  writes the same rows of the output. An output entry depends only on its own row of the inputs, so each written block
  is the restriction of one whole-array function — row r of d(r) · (agg + h') + b, normalised, scaled, shifted and
  clamped at zero — and the ten blocks cover the output array, so the array ends holding that function.
-/
import proofs.«157623_j84000970375232_2_alg».proof.Proof.Gen.KernelIdeal.Frame
import proofs.«157623_j84000970375232_2_alg».proof.Proof.Spec
import proofs.«157623_j84000970375232_2_alg».proof.Proof.PayLN
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_off3 : (![0, 0] : Fin 2 → Nat) = fun _ => 0 := funext fun a => by fin_cases a <;> rfl

/-- The index maps over the ten grid points: the row-blocked windows (0, 1, 2, 6) sit at block row t, column block 0;
    the three parameter rows (windows 3, 4, 5) are whole at every point. -/
theorem blockIdx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 ∧ t.val < 10 :=
  (by decide +kernel : ∀ t : Fin grid3.N, _)

/-- One element of a block of the normalised array: when row p of the blocks agg, hp is row (i 0) of AGG, HP, entry p
    of the column block d is entry (i 0) of D, the bias row b is B, and entry q of the rows g, be is entry (i 1) of
    G, BE — with q the column (i 1) — the payload at (p, q) is the normalised row (i 0) at column (i 1). -/
theorem normalised3_at (d : Vec Ideal S5000x1 .f32) (agg hp : Vec Ideal S5000x128 .f32) (b g be : Vec Ideal S1x128 .f32)
    (AGG HP : Cert.Gcn.NF.Idx → EReal) (D : Cert.Gcn.N1.Idx → EReal) (B G BE : Cert.Gcn.R1.Idx → EReal)
    (p : Fin 5000) (q : Fin 128) (i : Cert.Gcn.NF.Idx)
    (hq : i 1 = q)
    (hagg : ∀ k : Fin 128, agg (ix2 p k) = AGG (ix2 (i 0) k))
    (hhp : ∀ k : Fin 128, hp (ix2 p k) = HP (ix2 (i 0) k))
    (hd : d (ix2 p 0) = D (ix2 (i 0) 0))
    (hb : ∀ k : Fin 128, b (ix2 0 k) = B (ix2 0 k))
    (hg : g (ix2 0 q) = G (ix2 0 (i 1)))
    (hbe : be (ix2 0 q) = BE (ix2 0 (i 1))) :
    Gen.k3_pay1 (F := Ideal) d agg hp b g be (ix2 p q) = Cert.Gcn.regLN AGG HP D B G BE i := by
  have hrow : (fun k : Fin 128 => d (ix2 p 0) * (agg (ix2 p k) + hp (ix2 p k)) + b (ix2 0 k))
      = fun k : Fin 128 => Cert.Gcn.preLN AGG HP D B (ix2 (i 0) k) := by
    funext k
    rw [hagg k, hhp k, hb k, hd]
    rfl
  rw [Pay.k3_pay1_apply, hg, hbe, hrow, ← hq]
  rfl

/-- Block t of window 0 (the aggregate) is rows 5000 t … 5000 t + 4999 of its array. -/
theorem iblk3_0_at (c : Dev nD) (t : Fin cfg3.N) (y : S5000x128.Idx) (i : S50000x128.Idx)
    (h0 : (i 0).val = 5000 * t.val + (y 0).val) (h1 : (i 1).val = (y 1).val) :
    (Gen.iblk3 V c 0 t : Vec Ideal S5000x128 .f32) y = (V c (Pipeline.arrRef spec3 0) : S50000x128.Idx → EReal) i := by
  obtain ⟨e0, e1, -⟩ := blockIdx3 t
  unfold Gen.iblk3
  rw [View.read_apply]
  refine congrArg (V c (Pipeline.arrRef spec3 0) : S50000x128.Idx → EReal) ?_
  funext a
  apply Fin.ext
  match a with
  | ⟨0, _⟩ => show win3_0.index t (0 : Fin 2) * 5000 + 1 * (y 0).val = (i 0).val; omega
  | ⟨1, _⟩ => show win3_0.index t (1 : Fin 2) * 128 + 1 * (y 1).val = (i 1).val; omega

/-- Block t of window 1 (the projection) is rows 5000 t … 5000 t + 4999 of its array. -/
theorem iblk3_1_at (c : Dev nD) (t : Fin cfg3.N) (y : S5000x128.Idx) (i : S50000x128.Idx)
    (h0 : (i 0).val = 5000 * t.val + (y 0).val) (h1 : (i 1).val = (y 1).val) :
    (Gen.iblk3 V c 1 t : Vec Ideal S5000x128 .f32) y = (V c (Pipeline.arrRef spec3 1) : S50000x128.Idx → EReal) i := by
  obtain ⟨-, -, e0, e1, -⟩ := blockIdx3 t
  unfold Gen.iblk3
  rw [View.read_apply]
  refine congrArg (V c (Pipeline.arrRef spec3 1) : S50000x128.Idx → EReal) ?_
  funext a
  apply Fin.ext
  match a with
  | ⟨0, _⟩ => show win3_1.index t (0 : Fin 2) * 5000 + 1 * (y 0).val = (i 0).val; omega
  | ⟨1, _⟩ => show win3_1.index t (1 : Fin 2) * 128 + 1 * (y 1).val = (i 1).val; omega

/-- Block t of window 2 (the scaling column) is entries 5000 t … 5000 t + 4999 of its column. -/
theorem iblk3_2_at (c : Dev nD) (t : Fin cfg3.N) (y : S5000x1.Idx) (i : S50000x1.Idx)
    (h0 : (i 0).val = 5000 * t.val + (y 0).val) :
    (Gen.iblk3 V c 2 t : Vec Ideal S5000x1 .f32) y = (V c (Pipeline.arrRef spec3 2) : S50000x1.Idx → EReal) i := by
  obtain ⟨-, -, -, -, e0, e1, -⟩ := blockIdx3 t
  unfold Gen.iblk3
  rw [View.read_apply]
  refine congrArg (V c (Pipeline.arrRef spec3 2) : S50000x1.Idx → EReal) ?_
  funext a
  apply Fin.ext
  have hy1 : (y 1).val < 1 := (y 1).isLt
  have hi1 : (i 1).val < 1 := (i 1).isLt
  match a with
  | ⟨0, _⟩ => show win3_2.index t (0 : Fin 2) * 5000 + 1 * (y 0).val = (i 0).val; omega
  | ⟨1, _⟩ => show win3_2.index t (1 : Fin 2) * 1 + 1 * (y 1).val = (i 1).val; omega

/-- Window 3's block (the bias row) is its whole array at every point. -/
theorem iblk3_3_at (c : Dev nD) (t : Fin cfg3.N) (y : S1x128.Idx) :
    (Gen.iblk3 V c 3 t : Vec Ideal S1x128 .f32) y = (V c (Pipeline.arrRef spec3 3) : S1x128.Idx → EReal) y := by
  obtain ⟨-, -, -, -, -, -, e0, e1, -⟩ := blockIdx3 t
  unfold Gen.iblk3
  rw [View.read_apply]
  refine congrArg (V c (Pipeline.arrRef spec3 3) : S1x128.Idx → EReal) ?_
  funext a
  apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4's block (the scale row) is its whole array at every point. -/
theorem iblk3_4_at (c : Dev nD) (t : Fin cfg3.N) (y : S1x128.Idx) :
    (Gen.iblk3 V c 4 t : Vec Ideal S1x128 .f32) y = (V c (Pipeline.arrRef spec3 4) : S1x128.Idx → EReal) y := by
  obtain ⟨-, -, -, -, -, -, -, -, e0, e1, -⟩ := blockIdx3 t
  unfold Gen.iblk3
  rw [View.read_apply]
  refine congrArg (V c (Pipeline.arrRef spec3 4) : S1x128.Idx → EReal) ?_
  funext a
  apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Window 5's block (the shift row) is its whole array at every point. -/
theorem iblk3_5_at (c : Dev nD) (t : Fin cfg3.N) (y : S1x128.Idx) :
    (Gen.iblk3 V c 5 t : Vec Ideal S1x128 .f32) y = (V c (Pipeline.arrRef spec3 5) : S1x128.Idx → EReal) y := by
  obtain ⟨-, -, -, -, -, -, -, -, -, -, e0, e1, -⟩ := blockIdx3 t
  unfold Gen.iblk3
  rw [View.read_apply]
  refine congrArg (V c (Pipeline.arrRef spec3 5) : S1x128.Idx → EReal) ?_
  funext a
  apply Fin.ext
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- Where entry (p, q) of the output's block t lands in the array: row 5000 t + p, column q. -/
theorem emb3_6_row (t : Fin cfg3.N) (p : Fin 5000) (q : Fin 128) :
    ((((cfg3.win 6).blk t).view.emb (ix2 p q) : S50000x128.Idx) 0).val = 5000 * t.val + p.val := by
  obtain ⟨-, -, -, -, -, -, -, -, -, -, -, -, e0, e1, -⟩ := blockIdx3 t
  show win3_6.index t (0 : Fin 2) * 5000 + 1 * p.val = _
  omega
theorem emb3_6_col (t : Fin cfg3.N) (p : Fin 5000) (q : Fin 128) :
    ((((cfg3.win 6).blk t).view.emb (ix2 p q) : S50000x128.Idx) 1).val = q.val := by
  obtain ⟨-, -, -, -, -, -, -, -, -, -, -, -, e0, e1, -⟩ := blockIdx3 t
  show win3_6.index t (1 : Fin 2) * 128 + 1 * q.val = _
  omega

/-- Row p of window 0's block t is the array's row under entry (p, q) of the output's block t. -/
theorem iblk3_0_at_out (c : Dev nD) (t : Fin cfg3.N) (p : Fin 5000) (q k : Fin 128) :
    (Gen.iblk3 V c 0 t : Vec Ideal S5000x128 .f32) (ix2 p k)
      = (V c (Pipeline.arrRef spec3 0) : S50000x128.Idx → EReal) (ix2 ((((cfg3.win 6).blk t).view.emb (ix2 p q) : S50000x128.Idx) 0) k) :=
  iblk3_0_at V c t _ _ (emb3_6_row t p q) rfl

/-- Row p of window 1's block t is the array's row under entry (p, q) of the output's block t. -/
theorem iblk3_1_at_out (c : Dev nD) (t : Fin cfg3.N) (p : Fin 5000) (q k : Fin 128) :
    (Gen.iblk3 V c 1 t : Vec Ideal S5000x128 .f32) (ix2 p k)
      = (V c (Pipeline.arrRef spec3 1) : S50000x128.Idx → EReal) (ix2 ((((cfg3.win 6).blk t).view.emb (ix2 p q) : S50000x128.Idx) 0) k) :=
  iblk3_1_at V c t _ _ (emb3_6_row t p q) rfl

/-- Entry p of window 2's block t is the column's entry under entry (p, q) of the output's block t. -/
theorem iblk3_2_at_out (c : Dev nD) (t : Fin cfg3.N) (p : Fin 5000) (q : Fin 128) :
    (Gen.iblk3 V c 2 t : Vec Ideal S5000x1 .f32) (ix2 p 0)
      = (V c (Pipeline.arrRef spec3 2) : S50000x1.Idx → EReal) (ix2 ((((cfg3.win 6).blk t).view.emb (ix2 p q) : S50000x128.Idx) 0) 0) :=
  iblk3_2_at V c t _ _ (emb3_6_row t p q)

/-- Entry q of window 4's row is the row's entry under entry (p, q) of the output's block t. -/
theorem iblk3_4_at_out (c : Dev nD) (t : Fin cfg3.N) (p : Fin 5000) (q : Fin 128) :
    (Gen.iblk3 V c 4 t : Vec Ideal S1x128 .f32) (ix2 0 q)
      = (V c (Pipeline.arrRef spec3 4) : S1x128.Idx → EReal) (ix2 0 ((((cfg3.win 6).blk t).view.emb (ix2 p q) : S50000x128.Idx) 1)) := by
  rw [iblk3_4_at V c t]
  refine congrArg (V c (Pipeline.arrRef spec3 4) : S1x128.Idx → EReal) ?_
  funext a
  apply Fin.ext
  match a with
  | ⟨0, _⟩ => rfl
  | ⟨1, _⟩ => exact (emb3_6_col t p q).symm

/-- Entry q of window 5's row is the row's entry under entry (p, q) of the output's block t. -/
theorem iblk3_5_at_out (c : Dev nD) (t : Fin cfg3.N) (p : Fin 5000) (q : Fin 128) :
    (Gen.iblk3 V c 5 t : Vec Ideal S1x128 .f32) (ix2 0 q)
      = (V c (Pipeline.arrRef spec3 5) : S1x128.Idx → EReal) (ix2 0 ((((cfg3.win 6).blk t).view.emb (ix2 p q) : S50000x128.Idx) 1)) := by
  rw [iblk3_5_at V c t]
  refine congrArg (V c (Pipeline.arrRef spec3 5) : S1x128.Idx → EReal) ?_
  funext a
  apply Fin.ext
  match a with
  | ⟨0, _⟩ => rfl
  | ⟨1, _⟩ => exact (emb3_6_col t p q).symm

/-- What point t writes back is block t of the normalised array of the arrays as the region finds them. -/
theorem flushed3_eq (c : Dev nD) (t : Fin cfg3.N) :
    (Gen.dat3 (F := Ideal) V c).flushed 6 t = ((cfg3.win 6).blk t).view.read (Elt Ideal)
      (Cert.Gcn.regLN (V c (Pipeline.arrRef spec3 0)) (V c (Pipeline.arrRef spec3 1)) (V c (Pipeline.arrRef spec3 2)) (V c (Pipeline.arrRef spec3 3)) (V c (Pipeline.arrRef spec3 4)) (V c (Pipeline.arrRef spec3 5))) := by
  show (cfg3.win 6).cut (grid3.coords t) ((Gen.dat3 V c).after 6 t) = _
  rw [Gen.after3_6]
  unfold Gen.out3_6
  rw [View.canon_unit_zero zero_off3]
  simp only [View.ld_unit_zero (S := S5000x128) zero_off3, View.ld_unit_zero (S := S5000x1) zero_off3, View.ld_unit_zero (S := S1x128) zero_off3]
  funext j
  obtain ⟨p, q, rfl⟩ : ∃ (p : Fin 5000) (q : Fin 128), j = ix2 p q := ⟨j 0, j 1, eq_ix2 j⟩
  exact normalised3_at _ _ _ _ _ _ _ _ _ _ _ _ p q (((cfg3.win 6).blk t).view.emb (ix2 p q)) (Fin.ext (emb3_6_col t p q))
    (fun k => iblk3_0_at_out V c t p q k) (fun k => iblk3_1_at_out V c t p q k) (iblk3_2_at_out V c t p q)
    (fun k => iblk3_3_at V c t _) (iblk3_4_at_out V c t p q) (iblk3_5_at_out V c t p q)

/-- An index of the array is in point t's block iff each coordinate is in the block's range on its axis. -/
theorem mem_blk3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v62).slice (win3_6.rect t)).set ↔ _
  rw [View.set_slice_whole, Rect.mem_set_unit]
  exact Iff.rfl

/-- Every row lies in the block of the point row / 5000. -/
theorem cover3 (i : S50000x128.Idx) :
    ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, -, -, -, -, -, -, e0, e1, -⟩ := blockIdx3 t
  have ht : t.val = (i 0).val / 5000 := rfl
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- The whole output array of region 3: the pre-activation normalised row by row, scaled, shifted and clamped. -/
theorem region3_value (c : Dev nD) :
    (Gen.dat3 (F := Ideal) V c).arrAt 6 cfg3.N = Cert.Gcn.regLN (V c (Pipeline.arrRef spec3 0)) (V c (Pipeline.arrRef spec3 1)) (V c (Pipeline.arrRef spec3 2)) (V c (Pipeline.arrRef spec3 3)) (V c (Pipeline.arrRef spec3 4)) (V c (Pipeline.arrRef spec3 5)) :=
  (Gen.dat3 (F := Ideal) V c).arrAt_eq_of_cover 6 _ (fun t _ => flushed3_eq V c t) cover3

end Cert.KernelIdeal.Reg

end
-- ==== Proof.RegLN5.lean ====
/-
  Region 5: the row-blocked normalising step. Ten grid points; point t reads rows 5000 t … 5000 t + 4999 of the
  aggregate, of the projection and of the scaling column, the three whole parameter rows (bias, scale, shift), and
  writes the same rows of the output. An output entry depends only on its own row of the inputs, so each written block
  is the restriction of one whole-array function — row r of d(r) · (agg + h') + b, normalised, scaled, shifted and
  clamped at zero — and the ten blocks cover the output array, so the array ends holding that function.
-/
import proofs.«157623_j84000970375232_2_alg».proof.Proof.Gen.KernelIdeal.Frame
import proofs.«157623_j84000970375232_2_alg».proof.Proof.Spec
import proofs.«157623_j84000970375232_2_alg».proof.Proof.PayLN
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_off5 : (![0, 0] : Fin 2 → Nat) = fun _ => 0 := funext fun a => by fin_cases a <;> rfl

/-- The index maps over the ten grid points: the row-blocked windows (0, 1, 2, 6) sit at block row t, column block 0;
    the three parameter rows (windows 3, 4, 5) are whole at every point. -/
theorem blockIdx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 ∧ t.val < 10 :=
  (by decide +kernel : ∀ t : Fin grid5.N, _)

/-- One element of a block of the normalised array: when row p of the blocks agg, hp is row (i 0) of AGG, HP, entry p
    of the column block d is entry (i 0) of D, the bias row b is B, and entry q of the rows g, be is entry (i 1) of
    G, BE — with q the column (i 1) — the payload at (p, q) is the normalised row (i 0) at column (i 1). -/
theorem normalised5_at (d : Vec Ideal S5000x1 .f32) (agg hp : Vec Ideal S5000x128 .f32) (b g be : Vec Ideal S1x128 .f32)
    (AGG HP : Cert.Gcn.NF.Idx → EReal) (D : Cert.Gcn.N1.Idx → EReal) (B G BE : Cert.Gcn.R1.Idx → EReal)
    (p : Fin 5000) (q : Fin 128) (i : Cert.Gcn.NF.Idx)
    (hq : i 1 = q)
    (hagg : ∀ k : Fin 128, agg (ix2 p k) = AGG (ix2 (i 0) k))
    (hhp : ∀ k : Fin 128, hp (ix2 p k) = HP (ix2 (i 0) k))
    (hd : d (ix2 p 0) = D (ix2 (i 0) 0))
    (hb : ∀ k : Fin 128, b (ix2 0 k) = B (ix2 0 k))
    (hg : g (ix2 0 q) = G (ix2 0 (i 1)))
    (hbe : be (ix2 0 q) = BE (ix2 0 (i 1))) :
    Gen.k5_pay1 (F := Ideal) d agg hp b g be (ix2 p q) = Cert.Gcn.regLN AGG HP D B G BE i := by
  have hrow : (fun k : Fin 128 => d (ix2 p 0) * (agg (ix2 p k) + hp (ix2 p k)) + b (ix2 0 k))
      = fun k : Fin 128 => Cert.Gcn.preLN AGG HP D B (ix2 (i 0) k) := by
    funext k
    rw [hagg k, hhp k, hb k, hd]
    rfl
  rw [Pay.k5_pay1_apply, hg, hbe, hrow, ← hq]
  rfl

/-- Block t of window 0 (the aggregate) is rows 5000 t … 5000 t + 4999 of its array. -/
theorem iblk5_0_at (c : Dev nD) (t : Fin cfg5.N) (y : S5000x128.Idx) (i : S50000x128.Idx)
    (h0 : (i 0).val = 5000 * t.val + (y 0).val) (h1 : (i 1).val = (y 1).val) :
    (Gen.iblk5 V c 0 t : Vec Ideal S5000x128 .f32) y = (V c (Pipeline.arrRef spec5 0) : S50000x128.Idx → EReal) i := by
  obtain ⟨e0, e1, -⟩ := blockIdx5 t
  unfold Gen.iblk5
  rw [View.read_apply]
  refine congrArg (V c (Pipeline.arrRef spec5 0) : S50000x128.Idx → EReal) ?_
  funext a
  apply Fin.ext
  match a with
  | ⟨0, _⟩ => show win5_0.index t (0 : Fin 2) * 5000 + 1 * (y 0).val = (i 0).val; omega
  | ⟨1, _⟩ => show win5_0.index t (1 : Fin 2) * 128 + 1 * (y 1).val = (i 1).val; omega

/-- Block t of window 1 (the projection) is rows 5000 t … 5000 t + 4999 of its array. -/
theorem iblk5_1_at (c : Dev nD) (t : Fin cfg5.N) (y : S5000x128.Idx) (i : S50000x128.Idx)
    (h0 : (i 0).val = 5000 * t.val + (y 0).val) (h1 : (i 1).val = (y 1).val) :
    (Gen.iblk5 V c 1 t : Vec Ideal S5000x128 .f32) y = (V c (Pipeline.arrRef spec5 1) : S50000x128.Idx → EReal) i := by
  obtain ⟨-, -, e0, e1, -⟩ := blockIdx5 t
  unfold Gen.iblk5
  rw [View.read_apply]
  refine congrArg (V c (Pipeline.arrRef spec5 1) : S50000x128.Idx → EReal) ?_
  funext a
  apply Fin.ext
  match a with
  | ⟨0, _⟩ => show win5_1.index t (0 : Fin 2) * 5000 + 1 * (y 0).val = (i 0).val; omega
  | ⟨1, _⟩ => show win5_1.index t (1 : Fin 2) * 128 + 1 * (y 1).val = (i 1).val; omega

/-- Block t of window 2 (the scaling column) is entries 5000 t … 5000 t + 4999 of its column. -/
theorem iblk5_2_at (c : Dev nD) (t : Fin cfg5.N) (y : S5000x1.Idx) (i : S50000x1.Idx)
    (h0 : (i 0).val = 5000 * t.val + (y 0).val) :
    (Gen.iblk5 V c 2 t : Vec Ideal S5000x1 .f32) y = (V c (Pipeline.arrRef spec5 2) : S50000x1.Idx → EReal) i := by
  obtain ⟨-, -, -, -, e0, e1, -⟩ := blockIdx5 t
  unfold Gen.iblk5
  rw [View.read_apply]
  refine congrArg (V c (Pipeline.arrRef spec5 2) : S50000x1.Idx → EReal) ?_
  funext a
  apply Fin.ext
  have hy1 : (y 1).val < 1 := (y 1).isLt
  have hi1 : (i 1).val < 1 := (i 1).isLt
  match a with
  | ⟨0, _⟩ => show win5_2.index t (0 : Fin 2) * 5000 + 1 * (y 0).val = (i 0).val; omega
  | ⟨1, _⟩ => show win5_2.index t (1 : Fin 2) * 1 + 1 * (y 1).val = (i 1).val; omega

/-- Window 3's block (the bias row) is its whole array at every point. -/
theorem iblk5_3_at (c : Dev nD) (t : Fin cfg5.N) (y : S1x128.Idx) :
    (Gen.iblk5 V c 3 t : Vec Ideal S1x128 .f32) y = (V c (Pipeline.arrRef spec5 3) : S1x128.Idx → EReal) y := by
  obtain ⟨-, -, -, -, -, -, e0, e1, -⟩ := blockIdx5 t
  unfold Gen.iblk5
  rw [View.read_apply]
  refine congrArg (V c (Pipeline.arrRef spec5 3) : S1x128.Idx → EReal) ?_
  funext a
  apply Fin.ext
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- Window 4's block (the scale row) is its whole array at every point. -/
theorem iblk5_4_at (c : Dev nD) (t : Fin cfg5.N) (y : S1x128.Idx) :
    (Gen.iblk5 V c 4 t : Vec Ideal S1x128 .f32) y = (V c (Pipeline.arrRef spec5 4) : S1x128.Idx → EReal) y := by
  obtain ⟨-, -, -, -, -, -, -, -, e0, e1, -⟩ := blockIdx5 t
  unfold Gen.iblk5
  rw [View.read_apply]
  refine congrArg (V c (Pipeline.arrRef spec5 4) : S1x128.Idx → EReal) ?_
  funext a
  apply Fin.ext
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- Window 5's block (the shift row) is its whole array at every point. -/
theorem iblk5_5_at (c : Dev nD) (t : Fin cfg5.N) (y : S1x128.Idx) :
    (Gen.iblk5 V c 5 t : Vec Ideal S1x128 .f32) y = (V c (Pipeline.arrRef spec5 5) : S1x128.Idx → EReal) y := by
  obtain ⟨-, -, -, -, -, -, -, -, -, -, e0, e1, -⟩ := blockIdx5 t
  unfold Gen.iblk5
  rw [View.read_apply]
  refine congrArg (V c (Pipeline.arrRef spec5 5) : S1x128.Idx → EReal) ?_
  funext a
  apply Fin.ext
  match a with
  | ⟨0, _⟩ => show win5_5.index t (0 : Fin 2) * 1 + 1 * (y 0).val = (y 0).val; omega
  | ⟨1, _⟩ => show win5_5.index t (1 : Fin 2) * 128 + 1 * (y 1).val = (y 1).val; omega

/-- Where entry (p, q) of the output's block t lands in the array: row 5000 t + p, column q. -/
theorem emb5_6_row (t : Fin cfg5.N) (p : Fin 5000) (q : Fin 128) :
    ((((cfg5.win 6).blk t).view.emb (ix2 p q) : S50000x128.Idx) 0).val = 5000 * t.val + p.val := by
  obtain ⟨-, -, -, -, -, -, -, -, -, -, -, -, e0, e1, -⟩ := blockIdx5 t
  show win5_6.index t (0 : Fin 2) * 5000 + 1 * p.val = _
  omega
theorem emb5_6_col (t : Fin cfg5.N) (p : Fin 5000) (q : Fin 128) :
    ((((cfg5.win 6).blk t).view.emb (ix2 p q) : S50000x128.Idx) 1).val = q.val := by
  obtain ⟨-, -, -, -, -, -, -, -, -, -, -, -, e0, e1, -⟩ := blockIdx5 t
  show win5_6.index t (1 : Fin 2) * 128 + 1 * q.val = _
  omega

/-- Row p of window 0's block t is the array's row under entry (p, q) of the output's block t. -/
theorem iblk5_0_at_out (c : Dev nD) (t : Fin cfg5.N) (p : Fin 5000) (q k : Fin 128) :
    (Gen.iblk5 V c 0 t : Vec Ideal S5000x128 .f32) (ix2 p k)
      = (V c (Pipeline.arrRef spec5 0) : S50000x128.Idx → EReal) (ix2 ((((cfg5.win 6).blk t).view.emb (ix2 p q) : S50000x128.Idx) 0) k) :=
  iblk5_0_at V c t _ _ (emb5_6_row t p q) rfl

/-- Row p of window 1's block t is the array's row under entry (p, q) of the output's block t. -/
theorem iblk5_1_at_out (c : Dev nD) (t : Fin cfg5.N) (p : Fin 5000) (q k : Fin 128) :
    (Gen.iblk5 V c 1 t : Vec Ideal S5000x128 .f32) (ix2 p k)
      = (V c (Pipeline.arrRef spec5 1) : S50000x128.Idx → EReal) (ix2 ((((cfg5.win 6).blk t).view.emb (ix2 p q) : S50000x128.Idx) 0) k) :=
  iblk5_1_at V c t _ _ (emb5_6_row t p q) rfl

/-- Entry p of window 2's block t is the column's entry under entry (p, q) of the output's block t. -/
theorem iblk5_2_at_out (c : Dev nD) (t : Fin cfg5.N) (p : Fin 5000) (q : Fin 128) :
    (Gen.iblk5 V c 2 t : Vec Ideal S5000x1 .f32) (ix2 p 0)
      = (V c (Pipeline.arrRef spec5 2) : S50000x1.Idx → EReal) (ix2 ((((cfg5.win 6).blk t).view.emb (ix2 p q) : S50000x128.Idx) 0) 0) :=
  iblk5_2_at V c t _ _ (emb5_6_row t p q)

/-- Entry q of window 4's row is the row's entry under entry (p, q) of the output's block t. -/
theorem iblk5_4_at_out (c : Dev nD) (t : Fin cfg5.N) (p : Fin 5000) (q : Fin 128) :
    (Gen.iblk5 V c 4 t : Vec Ideal S1x128 .f32) (ix2 0 q)
      = (V c (Pipeline.arrRef spec5 4) : S1x128.Idx → EReal) (ix2 0 ((((cfg5.win 6).blk t).view.emb (ix2 p q) : S50000x128.Idx) 1)) := by
  rw [iblk5_4_at V c t]
  refine congrArg (V c (Pipeline.arrRef spec5 4) : S1x128.Idx → EReal) ?_
  funext a
  apply Fin.ext
  match a with
  | ⟨0, _⟩ => rfl
  | ⟨1, _⟩ => exact (emb5_6_col t p q).symm

/-- Entry q of window 5's row is the row's entry under entry (p, q) of the output's block t. -/
theorem iblk5_5_at_out (c : Dev nD) (t : Fin cfg5.N) (p : Fin 5000) (q : Fin 128) :
    (Gen.iblk5 V c 5 t : Vec Ideal S1x128 .f32) (ix2 0 q)
      = (V c (Pipeline.arrRef spec5 5) : S1x128.Idx → EReal) (ix2 0 ((((cfg5.win 6).blk t).view.emb (ix2 p q) : S50000x128.Idx) 1)) := by
  rw [iblk5_5_at V c t]
  refine congrArg (V c (Pipeline.arrRef spec5 5) : S1x128.Idx → EReal) ?_
  funext a
  apply Fin.ext
  match a with
  | ⟨0, _⟩ => rfl
  | ⟨1, _⟩ => exact (emb5_6_col t p q).symm

/-- What point t writes back is the body's payload of the six input blocks at t (the one store covers the whole
    staging buffer, the loads read whole blocks, and the window is uncut). -/
theorem written5_eq (c : Dev nD) (t : Fin cfg5.N) :
    (Gen.dat5 (F := Ideal) V c).flushed 6 t
      = Gen.k5_pay1 (F := Ideal) (Gen.iblk5 V c 2 t) (Gen.iblk5 V c 0 t) (Gen.iblk5 V c 1 t)
          (Gen.iblk5 V c 3 t) (Gen.iblk5 V c 4 t) (Gen.iblk5 V c 5 t) := by
  show (cfg5.win 6).cut (grid5.coords t) ((Gen.dat5 V c).after 6 t) = _
  rw [Gen.after5_6]
  unfold Gen.out5_6
  rw [View.canon_unit_zero zero_off5]
  simp only [View.ld_unit_zero (S := S5000x128) zero_off5, View.ld_unit_zero (S := S5000x1) zero_off5, View.ld_unit_zero (S := S1x128) zero_off5]
  rfl

/-- What point t writes back is block t of the normalised array of the arrays as the region finds them. -/
theorem flushed5_eq (c : Dev nD) (t : Fin cfg5.N) :
    (Gen.dat5 (F := Ideal) V c).flushed 6 t = ((cfg5.win 6).blk t).view.read (Elt Ideal)
      (Cert.Gcn.regLN (V c (Pipeline.arrRef spec5 0)) (V c (Pipeline.arrRef spec5 1)) (V c (Pipeline.arrRef spec5 2)) (V c (Pipeline.arrRef spec5 3)) (V c (Pipeline.arrRef spec5 4)) (V c (Pipeline.arrRef spec5 5))) := by
  rw [written5_eq]
  funext j
  obtain ⟨p, q, rfl⟩ : ∃ (p : Fin 5000) (q : Fin 128), j = ix2 p q := ⟨j 0, j 1, eq_ix2 j⟩
  exact normalised5_at _ _ _ _ _ _ _ _ _ _ _ _ p q (((cfg5.win 6).blk t).view.emb (ix2 p q)) (Fin.ext (emb5_6_col t p q))
    (fun k => iblk5_0_at_out V c t p q k) (fun k => iblk5_1_at_out V c t p q k) (iblk5_2_at_out V c t p q)
    (fun k => iblk5_3_at V c t _) (iblk5_4_at_out V c t p q) (iblk5_5_at_out V c t p q)

/-- An index of the array is in point t's block iff each coordinate is in the block's range on its axis. -/
theorem mem_blk5 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v85).slice (win5_6.rect t)).set ↔ _
  rw [View.set_slice_whole, Rect.mem_set_unit]
  exact Iff.rfl

/-- Every row lies in the block of the point row / 5000. -/
theorem cover5 (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨-, -, -, -, -, -, -, -, -, -, -, -, e0, e1, -⟩ := blockIdx5 t
  have ht : t.val = (i 0).val / 5000 := rfl
  refine ⟨t, flush5_6 t, ?_⟩
  rw [mem_blk5]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

/-- The whole output array of region 5: the pre-activation normalised row by row, scaled, shifted and clamped. -/
theorem region5_value (c : Dev nD) :
    (Gen.dat5 (F := Ideal) V c).arrAt 6 cfg5.N = Cert.Gcn.regLN (V c (Pipeline.arrRef spec5 0)) (V c (Pipeline.arrRef spec5 1)) (V c (Pipeline.arrRef spec5 2)) (V c (Pipeline.arrRef spec5 3)) (V c (Pipeline.arrRef spec5 4)) (V c (Pipeline.arrRef spec5 5)) :=
  (Gen.dat5 (F := Ideal) V c).arrAt_eq_of_cover 6 _ (fun t _ => flushed5_eq V c t) cover5

end Cert.KernelIdeal.Reg

end
-- ==== Proof.PayMB.lean ====
/-
  The last projection with its bias, read entry by entry at the ideal values.

  The body multiplies a 5000 × 128 block x by a 128 × 128 matrix w, accumulating into zero, and adds to every row the
  1 × 128 row b. At the ideal values the narrowing of the operands to sixteen bits is the identity and a cast to the same
  shape changes nothing, so entry (p, q) of the result is (∑ k, x(p, k) · w(k, q)) + b(0, q).
-/
import proofs.«157623_j84000970375232_2_alg».proof.Proof.Gen.KernelIdeal.Skeleton
import proofs.«157623_j84000970375232_2_alg».proof.Proof.LibMatmulAt
import Idealize.ShloMosaic.PureOps.Ideal.Laws
import Idealize.ShloMosaic.Lib.Pipeline.Value
import Idealize.ShloMosaic.Lib.ValueLayout
import Idealize.ShloMosaic.Lib.ValueIdx

noncomputable section

namespace Cert.KernelIdeal.Pay

open Idealize.ShloMosaic Idealize.ShloMosaic.ValueIdx Cert.KernelIdeal Cert.KernelIdeal.Gen

/-- Entry (p, q) of the projection with bias: (∑ k, x(p, k) · w(k, q)) + b(0, q). -/
theorem k6_pay1_apply (x : Vec Ideal S5000x128 .f32) (w : Vec Ideal S128x128 .f32) (b : Vec Ideal S1x128 .f32)
    (p : Fin 5000) (q : Fin 128) :
    Gen.k6_pay1 (F := Ideal) x w b (ix2 p q) = (∑ k : Fin 128, x (ix2 p k) * w (ix2 k q)) + b (ix2 0 q) := by
  unfold Gen.k6_pay1
  simp only [shapeCast_self]
  refine congrArg₂ (· + ·) ?_ (broadcastTo_1b_ab_apply b _ p q)
  exact Hand.matmul_zero_plain_apply _ rfl none _ _ (ix2 p q)

end Cert.KernelIdeal.Pay

end
-- ==== Proof.RegMB6.lean ====
/-
  Region 6: a row-blocked matrix product with a bias row added. Ten grid points; point t reads rows
  5000 t … 5000 t + 4999 of the left operand, the whole square right operand and the whole bias row, and writes the
  same rows of the output. Each written block is the restriction of one whole-array function, (x·w)(r, q) + b(q), and
  the ten blocks cover the output array, so the array ends holding that function.
-/
import proofs.«157623_j84000970375232_2_alg».proof.Proof.Gen.KernelIdeal.Frame
import proofs.«157623_j84000970375232_2_alg».proof.Proof.Spec
import proofs.«157623_j84000970375232_2_alg».proof.Proof.PayMB
import Idealize.ShloMosaic.Lib.Pipeline.Value

noncomputable section

namespace Cert.KernelIdeal.Reg

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_off6 : (![0, 0] : Fin 2 → Nat) = fun _ => 0 := funext fun a => by fin_cases a <;> rfl

/-- The index maps over the ten grid points: the row-blocked windows (0, 3) sit at block row t, column block 0;
    the square operand (window 1) and the bias row (window 2) are whole at every point. -/
theorem blockIdx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 ∧ t.val < 10 :=
  (by decide +kernel : ∀ t : Fin grid6.N, _)

/-- One element of a block of the biased product: when row p of the block x is row (i 0) of X, column q of the
    square operand w is column (i 1) of W, and entry q of the bias row b is entry (i 1) of B, the payload at
    (p, q) is (X·W)(i) + B(i 1). -/
theorem biasedProduct6_at (x : Vec Ideal S5000x128 .f32) (w : Vec Ideal S128x128 .f32) (b : Vec Ideal S1x128 .f32)
    (X : Cert.Gcn.NF.Idx → EReal) (W : Cert.Gcn.FF.Idx → EReal) (B : Cert.Gcn.R1.Idx → EReal)
    (p : Fin 5000) (q : Fin 128) (i : Cert.Gcn.NF.Idx)
    (hx : ∀ k : Fin 128, x (ix2 p k) = X (ix2 (i 0) k))
    (hw : ∀ k : Fin 128, w (ix2 k q) = W (ix2 k (i 1)))
    (hb : b (ix2 0 q) = B (ix2 0 (i 1))) :
    Gen.k6_pay1 (F := Ideal) x w b (ix2 p q) = Cert.Gcn.regMB X W B i := by
  rw [Pay.k6_pay1_apply]
  unfold Cert.Gcn.regMB Cert.Gcn.mm
  rw [hb]
  exact congrArg (· + B (ix2 0 (i 1))) (Finset.sum_congr rfl fun k _ => by rw [hx k, hw k])

/-- Block t of window 0 (the left operand) is rows 5000 t … 5000 t + 4999 of its array. -/
theorem iblk6_0_at (c : Dev nD) (t : Fin cfg6.N) (y : S5000x128.Idx) (i : S50000x128.Idx)
    (h0 : (i 0).val = 5000 * t.val + (y 0).val) (h1 : (i 1).val = (y 1).val) :
    (Gen.iblk6 V c 0 t : Vec Ideal S5000x128 .f32) y = (V c (Pipeline.arrRef spec6 0) : S50000x128.Idx → EReal) i := by
  obtain ⟨e0, e1, -⟩ := blockIdx6 t
  unfold Gen.iblk6
  rw [View.read_apply]
  refine congrArg (V c (Pipeline.arrRef spec6 0) : S50000x128.Idx → EReal) ?_
  funext a
  apply Fin.ext
  match a with
  | ⟨0, _⟩ => show win6_0.index t (0 : Fin 2) * 5000 + 1 * (y 0).val = (i 0).val; omega
  | ⟨1, _⟩ => show win6_0.index t (1 : Fin 2) * 128 + 1 * (y 1).val = (i 1).val; omega

/-- Window 1's block (the square operand) is its whole array at every point. -/
theorem iblk6_1_at (c : Dev nD) (t : Fin cfg6.N) (y : S128x128.Idx) :
    (Gen.iblk6 V c 1 t : Vec Ideal S128x128 .f32) y = (V c (Pipeline.arrRef spec6 1) : S128x128.Idx → EReal) y := by
  obtain ⟨-, -, e0, e1, -⟩ := blockIdx6 t
  unfold Gen.iblk6
  rw [View.read_apply]
  refine congrArg (V c (Pipeline.arrRef spec6 1) : S128x128.Idx → EReal) ?_
  funext a
  apply Fin.ext
  match a with
  | ⟨0, _⟩ => show win6_1.index t (0 : Fin 2) * 128 + 1 * (y 0).val = (y 0).val; omega
  | ⟨1, _⟩ => show win6_1.index t (1 : Fin 2) * 128 + 1 * (y 1).val = (y 1).val; omega

/-- Window 2's block (the bias row) is its whole array at every point. -/
theorem iblk6_2_at (c : Dev nD) (t : Fin cfg6.N) (y : S1x128.Idx) :
    (Gen.iblk6 V c 2 t : Vec Ideal S1x128 .f32) y = (V c (Pipeline.arrRef spec6 2) : S1x128.Idx → EReal) y := by
  obtain ⟨-, -, -, -, e0, e1, -⟩ := blockIdx6 t
  unfold Gen.iblk6
  rw [View.read_apply]
  refine congrArg (V c (Pipeline.arrRef spec6 2) : S1x128.Idx → EReal) ?_
  funext a
  apply Fin.ext
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- Where entry (p, q) of the output's block t lands in the array: row 5000 t + p, column q. -/
theorem emb6_3_row (t : Fin cfg6.N) (p : Fin 5000) (q : Fin 128) :
    ((((cfg6.win 3).blk t).view.emb (ix2 p q) : S50000x128.Idx) 0).val = 5000 * t.val + p.val := by
  obtain ⟨-, -, -, -, -, -, e0, e1, -⟩ := blockIdx6 t
  show win6_3.index t (0 : Fin 2) * 5000 + 1 * p.val = _
  omega
theorem emb6_3_col (t : Fin cfg6.N) (p : Fin 5000) (q : Fin 128) :
    ((((cfg6.win 3).blk t).view.emb (ix2 p q) : S50000x128.Idx) 1).val = q.val := by
  obtain ⟨-, -, -, -, -, -, e0, e1, -⟩ := blockIdx6 t
  show win6_3.index t (1 : Fin 2) * 128 + 1 * q.val = _
  omega

/-- Row p of window 0's block t is the array's row under entry (p, q) of the output's block t. -/
theorem iblk6_0_at_out (c : Dev nD) (t : Fin cfg6.N) (p : Fin 5000) (q k : Fin 128) :
    (Gen.iblk6 V c 0 t : Vec Ideal S5000x128 .f32) (ix2 p k)
      = (V c (Pipeline.arrRef spec6 0) : S50000x128.Idx → EReal) (ix2 ((((cfg6.win 3).blk t).view.emb (ix2 p q) : S50000x128.Idx) 0) k) :=
  iblk6_0_at V c t _ _ (emb6_3_row t p q) rfl

/-- Column q of window 1's block is the array's column under entry (p, q) of the output's block t. -/
theorem iblk6_1_at_out (c : Dev nD) (t : Fin cfg6.N) (p : Fin 5000) (q k : Fin 128) :
    (Gen.iblk6 V c 1 t : Vec Ideal S128x128 .f32) (ix2 k q)
      = (V c (Pipeline.arrRef spec6 1) : S128x128.Idx → EReal) (ix2 k ((((cfg6.win 3).blk t).view.emb (ix2 p q) : S50000x128.Idx) 1)) := by
  rw [iblk6_1_at V c t]
  refine congrArg (V c (Pipeline.arrRef spec6 1) : S128x128.Idx → EReal) ?_
  funext a
  apply Fin.ext
  match a with
  | ⟨0, _⟩ => rfl
  | ⟨1, _⟩ => exact (emb6_3_col t p q).symm

/-- Entry q of window 2's row is the row's entry under entry (p, q) of the output's block t. -/
theorem iblk6_2_at_out (c : Dev nD) (t : Fin cfg6.N) (p : Fin 5000) (q : Fin 128) :
    (Gen.iblk6 V c 2 t : Vec Ideal S1x128 .f32) (ix2 0 q)
      = (V c (Pipeline.arrRef spec6 2) : S1x128.Idx → EReal) (ix2 0 ((((cfg6.win 3).blk t).view.emb (ix2 p q) : S50000x128.Idx) 1)) := by
  rw [iblk6_2_at V c t]
  refine congrArg (V c (Pipeline.arrRef spec6 2) : S1x128.Idx → EReal) ?_
  funext a
  apply Fin.ext
  match a with
  | ⟨0, _⟩ => rfl
  | ⟨1, _⟩ => exact (emb6_3_col t p q).symm

/-- What point t writes back is block t of the biased product of the arrays as the region finds them. -/
theorem flushed6_eq (c : Dev nD) (t : Fin cfg6.N) :
    (Gen.dat6 (F := Ideal) V c).flushed 3 t = ((cfg6.win 3).blk t).view.read (Elt Ideal)
      (Cert.Gcn.regMB (V c (Pipeline.arrRef spec6 0)) (V c (Pipeline.arrRef spec6 1)) (V c (Pipeline.arrRef spec6 2))) := by
  show (cfg6.win 3).cut (grid6.coords t) ((Gen.dat6 V c).after 3 t) = _
  rw [Gen.after6_3]
  unfold Gen.out6_3
  rw [View.canon_unit_zero zero_off6]
  simp only [View.ld_unit_zero (S := S5000x128) zero_off6, View.ld_unit_zero (S := S128x128) zero_off6, View.ld_unit_zero (S := S1x128) zero_off6]
  funext j
  obtain ⟨p, q, rfl⟩ : ∃ (p : Fin 5000) (q : Fin 128), j = ix2 p q := ⟨j 0, j 1, eq_ix2 j⟩
  exact biasedProduct6_at _ _ _ _ _ _ p q (((cfg6.win 3).blk t).view.emb (ix2 p q))
    (fun k => iblk6_0_at_out V c t p q k) (fun k => iblk6_1_at_out V c t p q k) (iblk6_2_at_out V c t p q)

/-- An index of the array is in point t's block iff each coordinate is in the block's range on its axis. -/
theorem mem_blk6 (t : Fin cfg6.N) (i : S50000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v89).slice (win6_3.rect t)).set ↔ _
  rw [View.set_slice_whole, Rect.mem_set_unit]
  exact Iff.rfl

/-- Every row lies in the block of the point row / 5000. -/
theorem cover6 (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  have hN : cfg6.N = 10 := N_6
  let t : Fin cfg6.N := ⟨(i 0).val / 5000, by rw [hN]; omega⟩
  obtain ⟨-, -, -, -, -, -, e0, e1, -⟩ := blockIdx6 t
  have ht : t.val = (i 0).val / 5000 := rfl
  refine ⟨t, flush6_3 t, ?_⟩
  rw [mem_blk6]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 128 ≤ (i 1).val ∧ (i 1).val < win6_3.index t (1 : Fin 2) * 128 + 128; omega

/-- The whole output array of region 6: the product with its bias row added. -/
theorem region6_value (c : Dev nD) :
    (Gen.dat6 (F := Ideal) V c).arrAt 3 cfg6.N = Cert.Gcn.regMB (V c (Pipeline.arrRef spec6 0)) (V c (Pipeline.arrRef spec6 1)) (V c (Pipeline.arrRef spec6 2)) :=
  (Gen.dat6 (F := Ideal) V c).arrAt_eq_of_cover 3 _ (fun t _ => flushed6_eq V c t) cover6

end Cert.KernelIdeal.Reg

end
-- ==== Proof.KernelValue.lean ====
/-
  The idealized kernel program's result as one composed term of the argument arrays.

  The program is a chain of nineteen segments: host operations prepare the edge indices and deg^(-1/2); then three
  times a tiled matrix product scaled row by row (h' = dinv ⊙ x·w), a fetch of h' at the edges' sources summed onto the
  edges' destinations, and a tiled normalisation (dinv ⊙ (sum + h') + b, layer norm, clamp at zero); then a tiled product
  with the padded last weight plus the padded bias, of which the first 40 columns are kept. Each tiled region's whole
  output array is its function of its whole input arrays; each host stretch is read operation by operation; a buffer
  read later than it was written is carried across the boundaries in between.
-/
import proofs.«157623_j84000970375232_2_alg».proof.Proof.KCarry
import proofs.«157623_j84000970375232_2_alg».proof.Proof.RegMD0
import proofs.«157623_j84000970375232_2_alg».proof.Proof.RegMD2
import proofs.«157623_j84000970375232_2_alg».proof.Proof.RegMD4
import proofs.«157623_j84000970375232_2_alg».proof.Proof.RegLN1
import proofs.«157623_j84000970375232_2_alg».proof.Proof.RegLN3
import proofs.«157623_j84000970375232_2_alg».proof.Proof.RegLN5
import proofs.«157623_j84000970375232_2_alg».proof.Proof.RegMB6

set_option maxRecDepth 16384

noncomputable section

namespace Cert.KernelIdeal.KV

open Cert.KernelIdeal Cert.KernelIdeal.Gen Cert.Gcn
open Idealize.ShloMosaic Idealize.ShloMosaic.TcCoe Idealize.ShloMosaic.StableHlo
open Idealize.SL.Sem

/-- Row l of a parameter array as a vector of 128 entries (the 1 × 128 row of the definitions is its reshape). -/
def row0V (a : FVec Ideal S3x128 .f32) : FVec Ideal S128 .f32 :=
  shapeCast S128 (extractStridedSlice S1x128 ![0, 0] a slices_S3x128_S1x128_0_0) shapeCasts_S1x128_S128
def row1V (a : FVec Ideal S3x128 .f32) : FVec Ideal S128 .f32 :=
  shapeCast S128 (extractStridedSlice S1x128 ![1, 0] a slices_S3x128_S1x128_1_0) shapeCasts_S1x128_S128
def row2V (a : FVec Ideal S3x128 .f32) : FVec Ideal S128 .f32 :=
  shapeCast S128 (extractStridedSlice S1x128 ![2, 0] a slices_S3x128_S1x128_2_0) shapeCasts_S1x128_S128

variable (m : (ℓ : Loc nD τ sig) → Buf (Elt Ideal) ℓ) (ρ : Dev nD → PrngReg) (c : Dev nD)

/-! ## Layer 0: the scaled product, the sum over the edges, the normalisation -/

theorem W1_x0 : W1 m ρ c (Proc.devRef .tc main_arg0) = (m ((c : Thread nD τ).loc main_arg0)) := W1_arg0 m ρ c
theorem W1_w0 : W1 m ρ c (Proc.devRef .tc main_v18) = w0K (m ((c : Thread nD τ).loc main_arg2)) := W1_v18 m ρ c
set_option maxHeartbeats 4000000 in
theorem W1_rb0 : W1 m ρ c (Proc.devRef .tc main_v20) = row0V (m ((c : Thread nD τ).loc main_arg3)) := by
  show StableHlo.after hostOps0 (W0 m ρ c) (Proc.devRef .tc main_v20) = _
  after_results_simp
  rfl
set_option maxHeartbeats 4000000 in
theorem W1_rg0 : W1 m ρ c (Proc.devRef .tc main_v22) = row0V (m ((c : Thread nD τ).loc main_arg4)) := by
  show StableHlo.after hostOps0 (W0 m ρ c) (Proc.devRef .tc main_v22) = _
  after_results_simp
  rfl
set_option maxHeartbeats 4000000 in
theorem W1_rbe0 : W1 m ρ c (Proc.devRef .tc main_v24) = row0V (m ((c : Thread nD τ).loc main_arg5)) := by
  show StableHlo.after hostOps0 (W0 m ρ c) (Proc.devRef .tc main_v24) = _
  after_results_simp
  rfl

/-- The scaled product h' = dinv ⊙ x·w of the whole arrays. -/
theorem W2_hp : W2 m ρ c (Proc.devRef .tc main_v25) = regMD (m ((c : Thread nD τ).loc main_arg0)) (w0K (m ((c : Thread nD τ).loc main_arg2))) (d2K (m ((c : Thread nD τ).loc main_arg1))) := by
  refine (W2_arr m ρ c 3).trans ((Reg.region0_value (V1 m ρ) c).trans ?_)
  show regMD (W1 m ρ c (Proc.devRef .tc main_arg0)) (W1 m ρ c (Proc.devRef .tc main_v18)) (W1 m ρ c (Proc.devRef .tc main_v16)) = _
  rw [W1_x0, W1_w0, W1_v16]
theorem W3_hp : W3 m ρ c (Proc.devRef .tc main_v25) = regMD (m ((c : Thread nD τ).loc main_arg0)) (w0K (m ((c : Thread nD τ).loc main_arg2))) (d2K (m ((c : Thread nD τ).loc main_arg1))) :=
  (show StableHlo.after hostOps1 (W2 m ρ c) (Proc.devRef .tc main_v25) = W2 m ρ c (Proc.devRef .tc main_v25) by host_keep).trans (W2_hp m ρ c)
set_option maxHeartbeats 4000000 in
/-- The rows of h' at the edges' sources, summed onto their destinations. -/
theorem W3_agg : W3 m ρ c (Proc.devRef .tc main_v35) = aggK (regMD (m ((c : Thread nD τ).loc main_arg0)) (w0K (m ((c : Thread nD τ).loc main_arg2))) (d2K (m ((c : Thread nD τ).loc main_arg1)))) (m ((c : Thread nD τ).loc main_arg1)) := by
  show StableHlo.after hostOps1 (W2 m ρ c) (Proc.devRef .tc main_v35) = _
  after_results_simp
  rw [W2_v3, W2_hp, W2_v1]
  rfl
/-- The layer's bias, scale and shift as 1 × 128 rows. -/
theorem W2_rb : W2 m ρ c (Proc.devRef .tc main_v20) = row0V (m ((c : Thread nD τ).loc main_arg3)) :=
  (W2_of_ne m ρ c main_v20 (by decide)).trans (W1_rb0 m ρ c)
theorem W2_rg : W2 m ρ c (Proc.devRef .tc main_v22) = row0V (m ((c : Thread nD τ).loc main_arg4)) :=
  (W2_of_ne m ρ c main_v22 (by decide)).trans (W1_rg0 m ρ c)
theorem W2_rbe : W2 m ρ c (Proc.devRef .tc main_v24) = row0V (m ((c : Thread nD τ).loc main_arg5)) :=
  (W2_of_ne m ρ c main_v24 (by decide)).trans (W1_rbe0 m ρ c)
set_option maxHeartbeats 4000000 in
theorem W3_b : W3 m ρ c (Proc.devRef .tc main_v36) = row0K (m ((c : Thread nD τ).loc main_arg3)) := by
  show StableHlo.after hostOps1 (W2 m ρ c) (Proc.devRef .tc main_v36) = _
  after_results_simp
  rw [W2_rb]
  rfl
set_option maxHeartbeats 4000000 in
theorem W3_g : W3 m ρ c (Proc.devRef .tc main_v37) = row0K (m ((c : Thread nD τ).loc main_arg4)) := by
  show StableHlo.after hostOps1 (W2 m ρ c) (Proc.devRef .tc main_v37) = _
  after_results_simp
  rw [W2_rg]
  rfl
set_option maxHeartbeats 4000000 in
theorem W3_be : W3 m ρ c (Proc.devRef .tc main_v38) = row0K (m ((c : Thread nD τ).loc main_arg5)) := by
  show StableHlo.after hostOps1 (W2 m ρ c) (Proc.devRef .tc main_v38) = _
  after_results_simp
  rw [W2_rbe]
  rfl
/-- The layer's output array. -/
theorem W4_out : W4 m ρ c (Proc.devRef .tc main_v39) = layerK (m ((c : Thread nD τ).loc main_arg0)) (m ((c : Thread nD τ).loc main_arg1)) (w0K (m ((c : Thread nD τ).loc main_arg2))) (row0K (m ((c : Thread nD τ).loc main_arg3))) (row0K (m ((c : Thread nD τ).loc main_arg4))) (row0K (m ((c : Thread nD τ).loc main_arg5))) := by
  refine (W4_arr m ρ c 6).trans ((Reg.region1_value (V3 m ρ) c).trans ?_)
  show regLN (W3 m ρ c (Proc.devRef .tc main_v35)) (W3 m ρ c (Proc.devRef .tc main_v25)) (W3 m ρ c (Proc.devRef .tc main_v16))
    (W3 m ρ c (Proc.devRef .tc main_v36)) (W3 m ρ c (Proc.devRef .tc main_v37)) (W3 m ρ c (Proc.devRef .tc main_v38)) = _
  rw [W3_agg, W3_hp, W3_v16, W3_b, W3_g, W3_be]
  rfl

/-! ## Layer 1: the scaled product, the sum over the edges, the normalisation -/

theorem W5_x1 : W5 m ρ c (Proc.devRef .tc main_v39) = (layerK (m ((c : Thread nD τ).loc main_arg0)) (m ((c : Thread nD τ).loc main_arg1)) (w0K (m ((c : Thread nD τ).loc main_arg2))) (row0K (m ((c : Thread nD τ).loc main_arg3))) (row0K (m ((c : Thread nD τ).loc main_arg4))) (row0K (m ((c : Thread nD τ).loc main_arg5)))) :=
  (show StableHlo.after hostOps2 (W4 m ρ c) (Proc.devRef .tc main_v39) = W4 m ρ c (Proc.devRef .tc main_v39) by host_keep).trans (W4_out m ρ c)
set_option maxHeartbeats 4000000 in
theorem W5_w1 : W5 m ρ c (Proc.devRef .tc main_v41) = w1K (m ((c : Thread nD τ).loc main_arg2)) := by
  show StableHlo.after hostOps2 (W4 m ρ c) (Proc.devRef .tc main_v41) = _
  after_results_simp
  rw [W4_arg2]
  rfl
set_option maxHeartbeats 4000000 in
theorem W5_rb1 : W5 m ρ c (Proc.devRef .tc main_v43) = row1V (m ((c : Thread nD τ).loc main_arg3)) := by
  show StableHlo.after hostOps2 (W4 m ρ c) (Proc.devRef .tc main_v43) = _
  after_results_simp
  rw [W4_arg3]
  rfl
set_option maxHeartbeats 4000000 in
theorem W5_rg1 : W5 m ρ c (Proc.devRef .tc main_v45) = row1V (m ((c : Thread nD τ).loc main_arg4)) := by
  show StableHlo.after hostOps2 (W4 m ρ c) (Proc.devRef .tc main_v45) = _
  after_results_simp
  rw [W4_arg4]
  rfl
set_option maxHeartbeats 4000000 in
theorem W5_rbe1 : W5 m ρ c (Proc.devRef .tc main_v47) = row1V (m ((c : Thread nD τ).loc main_arg5)) := by
  show StableHlo.after hostOps2 (W4 m ρ c) (Proc.devRef .tc main_v47) = _
  after_results_simp
  rw [W4_arg5]
  rfl

/-- The scaled product h' = dinv ⊙ x·w of the whole arrays. -/
theorem W6_hp : W6 m ρ c (Proc.devRef .tc main_v48) = regMD (layerK (m ((c : Thread nD τ).loc main_arg0)) (m ((c : Thread nD τ).loc main_arg1)) (w0K (m ((c : Thread nD τ).loc main_arg2))) (row0K (m ((c : Thread nD τ).loc main_arg3))) (row0K (m ((c : Thread nD τ).loc main_arg4))) (row0K (m ((c : Thread nD τ).loc main_arg5)))) (w1K (m ((c : Thread nD τ).loc main_arg2))) (d2K (m ((c : Thread nD τ).loc main_arg1))) := by
  refine (W6_arr m ρ c 3).trans ((Reg.region2_value (V5 m ρ) c).trans ?_)
  show regMD (W5 m ρ c (Proc.devRef .tc main_v39)) (W5 m ρ c (Proc.devRef .tc main_v41)) (W5 m ρ c (Proc.devRef .tc main_v16)) = _
  rw [W5_x1, W5_w1, W5_v16]
theorem W7_hp : W7 m ρ c (Proc.devRef .tc main_v48) = regMD (layerK (m ((c : Thread nD τ).loc main_arg0)) (m ((c : Thread nD τ).loc main_arg1)) (w0K (m ((c : Thread nD τ).loc main_arg2))) (row0K (m ((c : Thread nD τ).loc main_arg3))) (row0K (m ((c : Thread nD τ).loc main_arg4))) (row0K (m ((c : Thread nD τ).loc main_arg5)))) (w1K (m ((c : Thread nD τ).loc main_arg2))) (d2K (m ((c : Thread nD τ).loc main_arg1))) :=
  (show StableHlo.after hostOps3 (W6 m ρ c) (Proc.devRef .tc main_v48) = W6 m ρ c (Proc.devRef .tc main_v48) by host_keep).trans (W6_hp m ρ c)
set_option maxHeartbeats 4000000 in
/-- The rows of h' at the edges' sources, summed onto their destinations. -/
theorem W7_agg : W7 m ρ c (Proc.devRef .tc main_v58) = aggK (regMD (layerK (m ((c : Thread nD τ).loc main_arg0)) (m ((c : Thread nD τ).loc main_arg1)) (w0K (m ((c : Thread nD τ).loc main_arg2))) (row0K (m ((c : Thread nD τ).loc main_arg3))) (row0K (m ((c : Thread nD τ).loc main_arg4))) (row0K (m ((c : Thread nD τ).loc main_arg5)))) (w1K (m ((c : Thread nD τ).loc main_arg2))) (d2K (m ((c : Thread nD τ).loc main_arg1)))) (m ((c : Thread nD τ).loc main_arg1)) := by
  show StableHlo.after hostOps3 (W6 m ρ c) (Proc.devRef .tc main_v58) = _
  after_results_simp
  rw [W6_v3, W6_hp, W6_v1]
  rfl
/-- The layer's bias, scale and shift as 1 × 128 rows. -/
theorem W6_rb : W6 m ρ c (Proc.devRef .tc main_v43) = row1V (m ((c : Thread nD τ).loc main_arg3)) :=
  (W6_of_ne m ρ c main_v43 (by decide)).trans (W5_rb1 m ρ c)
theorem W6_rg : W6 m ρ c (Proc.devRef .tc main_v45) = row1V (m ((c : Thread nD τ).loc main_arg4)) :=
  (W6_of_ne m ρ c main_v45 (by decide)).trans (W5_rg1 m ρ c)
theorem W6_rbe : W6 m ρ c (Proc.devRef .tc main_v47) = row1V (m ((c : Thread nD τ).loc main_arg5)) :=
  (W6_of_ne m ρ c main_v47 (by decide)).trans (W5_rbe1 m ρ c)
set_option maxHeartbeats 4000000 in
theorem W7_b : W7 m ρ c (Proc.devRef .tc main_v59) = row1K (m ((c : Thread nD τ).loc main_arg3)) := by
  show StableHlo.after hostOps3 (W6 m ρ c) (Proc.devRef .tc main_v59) = _
  after_results_simp
  rw [W6_rb]
  rfl
set_option maxHeartbeats 4000000 in
theorem W7_g : W7 m ρ c (Proc.devRef .tc main_v60) = row1K (m ((c : Thread nD τ).loc main_arg4)) := by
  show StableHlo.after hostOps3 (W6 m ρ c) (Proc.devRef .tc main_v60) = _
  after_results_simp
  rw [W6_rg]
  rfl
set_option maxHeartbeats 4000000 in
theorem W7_be : W7 m ρ c (Proc.devRef .tc main_v61) = row1K (m ((c : Thread nD τ).loc main_arg5)) := by
  show StableHlo.after hostOps3 (W6 m ρ c) (Proc.devRef .tc main_v61) = _
  after_results_simp
  rw [W6_rbe]
  rfl
/-- The layer's output array. -/
theorem W8_out : W8 m ρ c (Proc.devRef .tc main_v62) = layerK (layerK (m ((c : Thread nD τ).loc main_arg0)) (m ((c : Thread nD τ).loc main_arg1)) (w0K (m ((c : Thread nD τ).loc main_arg2))) (row0K (m ((c : Thread nD τ).loc main_arg3))) (row0K (m ((c : Thread nD τ).loc main_arg4))) (row0K (m ((c : Thread nD τ).loc main_arg5)))) (m ((c : Thread nD τ).loc main_arg1)) (w1K (m ((c : Thread nD τ).loc main_arg2))) (row1K (m ((c : Thread nD τ).loc main_arg3))) (row1K (m ((c : Thread nD τ).loc main_arg4))) (row1K (m ((c : Thread nD τ).loc main_arg5))) := by
  refine (W8_arr m ρ c 6).trans ((Reg.region3_value (V7 m ρ) c).trans ?_)
  show regLN (W7 m ρ c (Proc.devRef .tc main_v58)) (W7 m ρ c (Proc.devRef .tc main_v48)) (W7 m ρ c (Proc.devRef .tc main_v16))
    (W7 m ρ c (Proc.devRef .tc main_v59)) (W7 m ρ c (Proc.devRef .tc main_v60)) (W7 m ρ c (Proc.devRef .tc main_v61)) = _
  rw [W7_agg, W7_hp, W7_v16, W7_b, W7_g, W7_be]
  rfl

/-! ## Layer 2: the scaled product, the sum over the edges, the normalisation -/

theorem W9_x2 : W9 m ρ c (Proc.devRef .tc main_v62) = (layerK (layerK (m ((c : Thread nD τ).loc main_arg0)) (m ((c : Thread nD τ).loc main_arg1)) (w0K (m ((c : Thread nD τ).loc main_arg2))) (row0K (m ((c : Thread nD τ).loc main_arg3))) (row0K (m ((c : Thread nD τ).loc main_arg4))) (row0K (m ((c : Thread nD τ).loc main_arg5)))) (m ((c : Thread nD τ).loc main_arg1)) (w1K (m ((c : Thread nD τ).loc main_arg2))) (row1K (m ((c : Thread nD τ).loc main_arg3))) (row1K (m ((c : Thread nD τ).loc main_arg4))) (row1K (m ((c : Thread nD τ).loc main_arg5)))) :=
  (show StableHlo.after hostOps4 (W8 m ρ c) (Proc.devRef .tc main_v62) = W8 m ρ c (Proc.devRef .tc main_v62) by host_keep).trans (W8_out m ρ c)
set_option maxHeartbeats 4000000 in
theorem W9_w2 : W9 m ρ c (Proc.devRef .tc main_v64) = w2K (m ((c : Thread nD τ).loc main_arg2)) := by
  show StableHlo.after hostOps4 (W8 m ρ c) (Proc.devRef .tc main_v64) = _
  after_results_simp
  rw [W8_arg2]
  rfl
set_option maxHeartbeats 4000000 in
theorem W9_rb2 : W9 m ρ c (Proc.devRef .tc main_v66) = row2V (m ((c : Thread nD τ).loc main_arg3)) := by
  show StableHlo.after hostOps4 (W8 m ρ c) (Proc.devRef .tc main_v66) = _
  after_results_simp
  rw [W8_arg3]
  rfl
set_option maxHeartbeats 4000000 in
theorem W9_rg2 : W9 m ρ c (Proc.devRef .tc main_v68) = row2V (m ((c : Thread nD τ).loc main_arg4)) := by
  show StableHlo.after hostOps4 (W8 m ρ c) (Proc.devRef .tc main_v68) = _
  after_results_simp
  rw [W8_arg4]
  rfl
set_option maxHeartbeats 4000000 in
theorem W9_rbe2 : W9 m ρ c (Proc.devRef .tc main_v70) = row2V (m ((c : Thread nD τ).loc main_arg5)) := by
  show StableHlo.after hostOps4 (W8 m ρ c) (Proc.devRef .tc main_v70) = _
  after_results_simp
  rw [W8_arg5]
  rfl

/-- The scaled product h' = dinv ⊙ x·w of the whole arrays. -/
theorem W10_hp : W10 m ρ c (Proc.devRef .tc main_v71) = regMD (layerK (layerK (m ((c : Thread nD τ).loc main_arg0)) (m ((c : Thread nD τ).loc main_arg1)) (w0K (m ((c : Thread nD τ).loc main_arg2))) (row0K (m ((c : Thread nD τ).loc main_arg3))) (row0K (m ((c : Thread nD τ).loc main_arg4))) (row0K (m ((c : Thread nD τ).loc main_arg5)))) (m ((c : Thread nD τ).loc main_arg1)) (w1K (m ((c : Thread nD τ).loc main_arg2))) (row1K (m ((c : Thread nD τ).loc main_arg3))) (row1K (m ((c : Thread nD τ).loc main_arg4))) (row1K (m ((c : Thread nD τ).loc main_arg5)))) (w2K (m ((c : Thread nD τ).loc main_arg2))) (d2K (m ((c : Thread nD τ).loc main_arg1))) := by
  refine (W10_arr m ρ c 3).trans ((Reg.region4_value (V9 m ρ) c).trans ?_)
  show regMD (W9 m ρ c (Proc.devRef .tc main_v62)) (W9 m ρ c (Proc.devRef .tc main_v64)) (W9 m ρ c (Proc.devRef .tc main_v16)) = _
  rw [W9_x2, W9_w2, W9_v16]
theorem W11_hp : W11 m ρ c (Proc.devRef .tc main_v71) = regMD (layerK (layerK (m ((c : Thread nD τ).loc main_arg0)) (m ((c : Thread nD τ).loc main_arg1)) (w0K (m ((c : Thread nD τ).loc main_arg2))) (row0K (m ((c : Thread nD τ).loc main_arg3))) (row0K (m ((c : Thread nD τ).loc main_arg4))) (row0K (m ((c : Thread nD τ).loc main_arg5)))) (m ((c : Thread nD τ).loc main_arg1)) (w1K (m ((c : Thread nD τ).loc main_arg2))) (row1K (m ((c : Thread nD τ).loc main_arg3))) (row1K (m ((c : Thread nD τ).loc main_arg4))) (row1K (m ((c : Thread nD τ).loc main_arg5)))) (w2K (m ((c : Thread nD τ).loc main_arg2))) (d2K (m ((c : Thread nD τ).loc main_arg1))) :=
  (show StableHlo.after hostOps5 (W10 m ρ c) (Proc.devRef .tc main_v71) = W10 m ρ c (Proc.devRef .tc main_v71) by host_keep).trans (W10_hp m ρ c)
set_option maxHeartbeats 4000000 in
/-- The rows of h' at the edges' sources, summed onto their destinations. -/
theorem W11_agg : W11 m ρ c (Proc.devRef .tc main_v81) = aggK (regMD (layerK (layerK (m ((c : Thread nD τ).loc main_arg0)) (m ((c : Thread nD τ).loc main_arg1)) (w0K (m ((c : Thread nD τ).loc main_arg2))) (row0K (m ((c : Thread nD τ).loc main_arg3))) (row0K (m ((c : Thread nD τ).loc main_arg4))) (row0K (m ((c : Thread nD τ).loc main_arg5)))) (m ((c : Thread nD τ).loc main_arg1)) (w1K (m ((c : Thread nD τ).loc main_arg2))) (row1K (m ((c : Thread nD τ).loc main_arg3))) (row1K (m ((c : Thread nD τ).loc main_arg4))) (row1K (m ((c : Thread nD τ).loc main_arg5)))) (w2K (m ((c : Thread nD τ).loc main_arg2))) (d2K (m ((c : Thread nD τ).loc main_arg1)))) (m ((c : Thread nD τ).loc main_arg1)) := by
  show StableHlo.after hostOps5 (W10 m ρ c) (Proc.devRef .tc main_v81) = _
  after_results_simp
  rw [W10_v3, W10_hp, W10_v1]
  rfl
/-- The layer's bias, scale and shift as 1 × 128 rows. -/
theorem W10_rb : W10 m ρ c (Proc.devRef .tc main_v66) = row2V (m ((c : Thread nD τ).loc main_arg3)) :=
  (W10_of_ne m ρ c main_v66 (by decide)).trans (W9_rb2 m ρ c)
theorem W10_rg : W10 m ρ c (Proc.devRef .tc main_v68) = row2V (m ((c : Thread nD τ).loc main_arg4)) :=
  (W10_of_ne m ρ c main_v68 (by decide)).trans (W9_rg2 m ρ c)
theorem W10_rbe : W10 m ρ c (Proc.devRef .tc main_v70) = row2V (m ((c : Thread nD τ).loc main_arg5)) :=
  (W10_of_ne m ρ c main_v70 (by decide)).trans (W9_rbe2 m ρ c)
set_option maxHeartbeats 4000000 in
theorem W11_b : W11 m ρ c (Proc.devRef .tc main_v82) = row2K (m ((c : Thread nD τ).loc main_arg3)) := by
  show StableHlo.after hostOps5 (W10 m ρ c) (Proc.devRef .tc main_v82) = _
  after_results_simp
  rw [W10_rb]
  rfl
set_option maxHeartbeats 4000000 in
theorem W11_g : W11 m ρ c (Proc.devRef .tc main_v83) = row2K (m ((c : Thread nD τ).loc main_arg4)) := by
  show StableHlo.after hostOps5 (W10 m ρ c) (Proc.devRef .tc main_v83) = _
  after_results_simp
  rw [W10_rg]
  rfl
set_option maxHeartbeats 4000000 in
theorem W11_be : W11 m ρ c (Proc.devRef .tc main_v84) = row2K (m ((c : Thread nD τ).loc main_arg5)) := by
  show StableHlo.after hostOps5 (W10 m ρ c) (Proc.devRef .tc main_v84) = _
  after_results_simp
  rw [W10_rbe]
  rfl
/-- The layer's output array. -/
theorem W12_out : W12 m ρ c (Proc.devRef .tc main_v85) = layerK (layerK (layerK (m ((c : Thread nD τ).loc main_arg0)) (m ((c : Thread nD τ).loc main_arg1)) (w0K (m ((c : Thread nD τ).loc main_arg2))) (row0K (m ((c : Thread nD τ).loc main_arg3))) (row0K (m ((c : Thread nD τ).loc main_arg4))) (row0K (m ((c : Thread nD τ).loc main_arg5)))) (m ((c : Thread nD τ).loc main_arg1)) (w1K (m ((c : Thread nD τ).loc main_arg2))) (row1K (m ((c : Thread nD τ).loc main_arg3))) (row1K (m ((c : Thread nD τ).loc main_arg4))) (row1K (m ((c : Thread nD τ).loc main_arg5)))) (m ((c : Thread nD τ).loc main_arg1)) (w2K (m ((c : Thread nD τ).loc main_arg2))) (row2K (m ((c : Thread nD τ).loc main_arg3))) (row2K (m ((c : Thread nD τ).loc main_arg4))) (row2K (m ((c : Thread nD τ).loc main_arg5))) := by
  refine (W12_arr m ρ c 6).trans ((Reg.region5_value (V11 m ρ) c).trans ?_)
  show regLN (W11 m ρ c (Proc.devRef .tc main_v81)) (W11 m ρ c (Proc.devRef .tc main_v71)) (W11 m ρ c (Proc.devRef .tc main_v16))
    (W11 m ρ c (Proc.devRef .tc main_v82)) (W11 m ρ c (Proc.devRef .tc main_v83)) (W11 m ρ c (Proc.devRef .tc main_v84)) = _
  rw [W11_agg, W11_hp, W11_v16, W11_b, W11_g, W11_be]
  rfl

/-! ## The head -/

set_option maxHeartbeats 4000000 in
theorem W17_x : W17 m ρ c (Proc.devRef .tc main_v85) = (layerK (layerK (layerK (m ((c : Thread nD τ).loc main_arg0)) (m ((c : Thread nD τ).loc main_arg1)) (w0K (m ((c : Thread nD τ).loc main_arg2))) (row0K (m ((c : Thread nD τ).loc main_arg3))) (row0K (m ((c : Thread nD τ).loc main_arg4))) (row0K (m ((c : Thread nD τ).loc main_arg5)))) (m ((c : Thread nD τ).loc main_arg1)) (w1K (m ((c : Thread nD τ).loc main_arg2))) (row1K (m ((c : Thread nD τ).loc main_arg3))) (row1K (m ((c : Thread nD τ).loc main_arg4))) (row1K (m ((c : Thread nD τ).loc main_arg5)))) (m ((c : Thread nD τ).loc main_arg1)) (w2K (m ((c : Thread nD τ).loc main_arg2))) (row2K (m ((c : Thread nD τ).loc main_arg3))) (row2K (m ((c : Thread nD τ).loc main_arg4))) (row2K (m ((c : Thread nD τ).loc main_arg5)))) := by
  refine Eq.trans ?_ (W12_out m ρ c)
  show StableHlo.after hostOps6_4 (StableHlo.after hostOps6_3 (StableHlo.after hostOps6_2 (StableHlo.after hostOps6_1 (StableHlo.after hostOps6 (W12 m ρ c))))) (Proc.devRef .tc main_v85) = _
  after_results_simp
set_option maxHeartbeats 4000000 in
theorem W17_w : W17 m ρ c (Proc.devRef .tc main_v86) = wpadK (m ((c : Thread nD τ).loc main_arg6)) := by
  show StableHlo.after hostOps6_4 (StableHlo.after hostOps6_3 (StableHlo.after hostOps6_2 (StableHlo.after hostOps6_1 (StableHlo.after hostOps6 (W12 m ρ c))))) (Proc.devRef .tc main_v86) = _
  after_results_simp
  rw [W12_arg6]
  rfl
set_option maxHeartbeats 4000000 in
theorem W17_b : W17 m ρ c (Proc.devRef .tc main_v88) = bpadK (m ((c : Thread nD τ).loc main_arg7)) := by
  show StableHlo.after hostOps6_4 (StableHlo.after hostOps6_3 (StableHlo.after hostOps6_2 (StableHlo.after hostOps6_1 (StableHlo.after hostOps6 (W12 m ρ c))))) (Proc.devRef .tc main_v88) = _
  after_results_simp
  rw [W12_arg7]
  rfl
theorem W18_y : W18 m ρ c (Proc.devRef .tc main_v89) = regMB (layerK (layerK (layerK (m ((c : Thread nD τ).loc main_arg0)) (m ((c : Thread nD τ).loc main_arg1)) (w0K (m ((c : Thread nD τ).loc main_arg2))) (row0K (m ((c : Thread nD τ).loc main_arg3))) (row0K (m ((c : Thread nD τ).loc main_arg4))) (row0K (m ((c : Thread nD τ).loc main_arg5)))) (m ((c : Thread nD τ).loc main_arg1)) (w1K (m ((c : Thread nD τ).loc main_arg2))) (row1K (m ((c : Thread nD τ).loc main_arg3))) (row1K (m ((c : Thread nD τ).loc main_arg4))) (row1K (m ((c : Thread nD τ).loc main_arg5)))) (m ((c : Thread nD τ).loc main_arg1)) (w2K (m ((c : Thread nD τ).loc main_arg2))) (row2K (m ((c : Thread nD τ).loc main_arg3))) (row2K (m ((c : Thread nD τ).loc main_arg4))) (row2K (m ((c : Thread nD τ).loc main_arg5)))) (wpadK (m ((c : Thread nD τ).loc main_arg6))) (bpadK (m ((c : Thread nD τ).loc main_arg7))) := by
  refine (W18_arr m ρ c 3).trans ((Reg.region6_value (V17 m ρ) c).trans ?_)
  show regMB (W17 m ρ c (Proc.devRef .tc main_v85)) (W17 m ρ c (Proc.devRef .tc main_v86)) (W17 m ρ c (Proc.devRef .tc main_v88)) = _
  rw [W17_x, W17_w, W17_b]

/-- THE RESULT: the program's result array after the run, as the head of three layers of the argument arrays. -/
theorem W19_result : W19 m ρ c (Proc.devRef .tc main_v90) = headK (layerK (layerK (layerK (m ((c : Thread nD τ).loc main_arg0)) (m ((c : Thread nD τ).loc main_arg1)) (w0K (m ((c : Thread nD τ).loc main_arg2))) (row0K (m ((c : Thread nD τ).loc main_arg3))) (row0K (m ((c : Thread nD τ).loc main_arg4))) (row0K (m ((c : Thread nD τ).loc main_arg5)))) (m ((c : Thread nD τ).loc main_arg1)) (w1K (m ((c : Thread nD τ).loc main_arg2))) (row1K (m ((c : Thread nD τ).loc main_arg3))) (row1K (m ((c : Thread nD τ).loc main_arg4))) (row1K (m ((c : Thread nD τ).loc main_arg5)))) (m ((c : Thread nD τ).loc main_arg1)) (w2K (m ((c : Thread nD τ).loc main_arg2))) (row2K (m ((c : Thread nD τ).loc main_arg3))) (row2K (m ((c : Thread nD τ).loc main_arg4))) (row2K (m ((c : Thread nD τ).loc main_arg5)))) (m ((c : Thread nD τ).loc main_arg6)) (m ((c : Thread nD τ).loc main_arg7)) := by
  show StableHlo.after hostOps7 (W18 m ρ c) (Proc.devRef .tc main_v90) = _
  after_results_simp
  rw [W18_y]
  rfl

end Cert.KernelIdeal.KV

end
-- ==== Proof.RefWindows.lean ====
/-
  The reference program's run read in four windows. Its 311 host operations are three layers of the same shape and a
  head; the buffer contents after the whole list are the contents after the head's four operations, from the contents
  after the third layer's, and so on back to the launch contents. Window by window, the buffer a window ends in holds
  the stage function of the argument arrays.
-/
import proofs.«157623_j84000970375232_2_alg».proof.Proof.RefRead

noncomputable section

namespace Cert.ReferenceIdeal.Windows

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ## The operation list, cut in four (the entries are the run module's, in order) -/

/-- The first layer: operations 1–105 of @main (through `main_v85`). -/
abbrev opsL1 : List (HloOp τ sig (Elt F)) :=
  [
    unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    unary main_arg2 main_v4 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v4 main_v5 rfl shapeCasts_S1x128x128_S128x128,
    unary main_arg3 main_v6 ((extractStridedSlice S1x128 ![0, 0] · slices_S3x128_S1x128_0_0) : (⟨S3x128, .f32⟩ : BufTy).Contents (Elt F) → (⟨S1x128, .f32⟩ : BufTy).Contents (Elt F)),
    reshape main_v6 main_v7 rfl shapeCasts_S1x128_S128,
    binary main_arg0 main_v5 main_v8 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x00000000#32),
    unary main_cst main_v9 (broadcastInDim S50000 ![] bcast_S_S50000 : (⟨S_, .f32⟩ : BufTy).Contents (Elt F) → (⟨S50000, .f32⟩ : BufTy).Contents (Elt F)),
    nullary main_c (constantI S_ 32 0#32),
    unary main_c main_v10 (broadcastInDim S800000 ![] bcast_S_S800000 : (⟨S_, .i32⟩ : BufTy).Contents (Elt F) → (⟨S800000, .i32⟩ : BufTy).Contents (Elt F)),
    binary main_v3 main_v10 main_v11 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v12 (broadcastInDim S800000 ![] bcast_S_S800000 : (⟨S_, .i32⟩ : BufTy).Contents (Elt F) → (⟨S800000, .i32⟩ : BufTy).Contents (Elt F)),
    binary main_v3 main_v12 main_v13 (addi : (⟨S800000, .i32⟩ : BufTy).Contents (Elt F) → (⟨S800000, .i32⟩ : BufTy).Contents (Elt F) → (⟨S800000, .i32⟩ : BufTy).Contents (Elt F)),
    ternary main_v11 main_v13 main_v3 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v14 main_v15 (broadcastInDim S800000x1 ![0] bcast_S800000_S800000x1_0 : (⟨S800000, .i32⟩ : BufTy).Contents (Elt F) → (⟨S800000x1, .i32⟩ : BufTy).Contents (Elt F)),
    nullary main_cst_1 (constant S_ .f32 0x3F800000#32),
    unary main_cst_1 main_v16 (broadcastInDim S800000 ![] bcast_S_S800000 : (⟨S_, .f32⟩ : BufTy).Contents (Elt F) → (⟨S800000, .f32⟩ : BufTy).Contents (Elt F)),
    ternary main_v9 main_v15 main_v16 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v18 (broadcastInDim S50000 ![] bcast_S_S50000 : (⟨S_, .f32⟩ : BufTy).Contents (Elt F) → (⟨S50000, .f32⟩ : BufTy).Contents (Elt F)),
    binary main_v17 main_v18 main_v19 (addf : (⟨S50000, .f32⟩ : BufTy).Contents (Elt F) → (⟨S50000, .f32⟩ : BufTy).Contents (Elt F) → (⟨S50000, .f32⟩ : BufTy).Contents (Elt F)),
    unary main_v19 main_v20 (Host.rsqrt : (⟨S50000, .f32⟩ : BufTy).Contents (Elt F) → (⟨S50000, .f32⟩ : BufTy).Contents (Elt F)),
    nullary main_c_3 (constantI S_ 32 0#32),
    unary main_c_3 main_v21 (broadcastInDim S800000 ![] bcast_S_S800000 : (⟨S_, .i32⟩ : BufTy).Contents (Elt F) → (⟨S800000, .i32⟩ : BufTy).Contents (Elt F)),
    binary main_v1 main_v21 main_v22 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v23 (broadcastInDim S800000 ![] bcast_S_S800000 : (⟨S_, .i32⟩ : BufTy).Contents (Elt F) → (⟨S800000, .i32⟩ : BufTy).Contents (Elt F)),
    binary main_v1 main_v23 main_v24 (addi : (⟨S800000, .i32⟩ : BufTy).Contents (Elt F) → (⟨S800000, .i32⟩ : BufTy).Contents (Elt F) → (⟨S800000, .i32⟩ : BufTy).Contents (Elt F)),
    ternary main_v22 main_v24 main_v1 main_v25 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v25 main_v26 (broadcastInDim S800000x1 ![0] bcast_S800000_S800000x1_0 : (⟨S800000, .i32⟩ : BufTy).Contents (Elt F) → (⟨S800000x1, .i32⟩ : BufTy).Contents (Elt F)),
    binary main_v20 main_v26 main_v27 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_5 (constantI S_ 32 0#32),
    unary main_c_5 main_v28 (broadcastInDim S800000 ![] bcast_S_S800000 : (⟨S_, .i32⟩ : BufTy).Contents (Elt F) → (⟨S800000, .i32⟩ : BufTy).Contents (Elt F)),
    binary main_v3 main_v28 main_v29 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v30 (broadcastInDim S800000 ![] bcast_S_S800000 : (⟨S_, .i32⟩ : BufTy).Contents (Elt F) → (⟨S800000, .i32⟩ : BufTy).Contents (Elt F)),
    binary main_v3 main_v30 main_v31 (addi : (⟨S800000, .i32⟩ : BufTy).Contents (Elt F) → (⟨S800000, .i32⟩ : BufTy).Contents (Elt F) → (⟨S800000, .i32⟩ : BufTy).Contents (Elt F)),
    ternary main_v29 main_v31 main_v3 main_v32 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v32 main_v33 (broadcastInDim S800000x1 ![0] bcast_S800000_S800000x1_0 : (⟨S800000, .i32⟩ : BufTy).Contents (Elt F) → (⟨S800000x1, .i32⟩ : BufTy).Contents (Elt F)),
    binary main_v20 main_v33 main_v34 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v27 main_v34 main_v35 (mulf : (⟨S800000, .f32⟩ : BufTy).Contents (Elt F) → (⟨S800000, .f32⟩ : BufTy).Contents (Elt F) → (⟨S800000, .f32⟩ : BufTy).Contents (Elt F)),
    unary main_v35 main_v36 (broadcastInDim S800000x1 ![0] bcast_S800000_S800000x1_0 : (⟨S800000, .f32⟩ : BufTy).Contents (Elt F) → (⟨S800000x1, .f32⟩ : BufTy).Contents (Elt F)),
    nullary main_c_7 (constantI S_ 32 0#32),
    unary main_c_7 main_v37 (broadcastInDim S800000 ![] bcast_S_S800000 : (⟨S_, .i32⟩ : BufTy).Contents (Elt F) → (⟨S800000, .i32⟩ : BufTy).Contents (Elt F)),
    binary main_v1 main_v37 main_v38 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v39 (broadcastInDim S800000 ![] bcast_S_S800000 : (⟨S_, .i32⟩ : BufTy).Contents (Elt F) → (⟨S800000, .i32⟩ : BufTy).Contents (Elt F)),
    binary main_v1 main_v39 main_v40 (addi : (⟨S800000, .i32⟩ : BufTy).Contents (Elt F) → (⟨S800000, .i32⟩ : BufTy).Contents (Elt F) → (⟨S800000, .i32⟩ : BufTy).Contents (Elt F)),
    ternary main_v38 main_v40 main_v1 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v41 main_v42 (broadcastInDim S800000x1 ![0] bcast_S800000_S800000x1_0 : (⟨S800000, .i32⟩ : BufTy).Contents (Elt F) → (⟨S800000x1, .i32⟩ : BufTy).Contents (Elt F)),
    binary main_v8 main_v42 main_v43 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v36 main_v44 (broadcastInDim S800000x128 ![0, 1] bcast_S800000x1_S800000x128_0_1 : (⟨S800000x1, .f32⟩ : BufTy).Contents (Elt F) → (⟨S800000x128, .f32⟩ : BufTy).Contents (Elt F)),
    binary main_v44 main_v43 main_v45 (mulf : (⟨S800000x128, .f32⟩ : BufTy).Contents (Elt F) → (⟨S800000x128, .f32⟩ : BufTy).Contents (Elt F) → (⟨S800000x128, .f32⟩ : BufTy).Contents (Elt F)),
    nullary main_cst_9 (constant S_ .f32 0x00000000#32),
    unary main_cst_9 main_v46 (broadcastInDim S50000x128 ![] bcast_S_S50000x128 : (⟨S_, .f32⟩ : BufTy).Contents (Elt F) → (⟨S50000x128, .f32⟩ : BufTy).Contents (Elt F)),
    unary main_v3 main_v47 (broadcastInDim S800000x1 ![0] bcast_S800000_S800000x1_0 : (⟨S800000, .i32⟩ : BufTy).Contents (Elt F) → (⟨S800000x1, .i32⟩ : BufTy).Contents (Elt F)),
    ternary main_v46 main_v47 main_v45 main_v48 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v20 main_v20 main_v49 (mulf : (⟨S50000, .f32⟩ : BufTy).Contents (Elt F) → (⟨S50000, .f32⟩ : BufTy).Contents (Elt F) → (⟨S50000, .f32⟩ : BufTy).Contents (Elt F)),
    unary main_v49 main_v50 (broadcastInDim S50000x1 ![0] bcast_S50000_S50000x1_0 : (⟨S50000, .f32⟩ : BufTy).Contents (Elt F) → (⟨S50000x1, .f32⟩ : BufTy).Contents (Elt F)),
    unary main_v50 main_v51 (broadcastInDim S50000x128 ![0, 1] bcast_S50000x1_S50000x128_0_1 : (⟨S50000x1, .f32⟩ : BufTy).Contents (Elt F) → (⟨S50000x128, .f32⟩ : BufTy).Contents (Elt F)),
    binary main_v51 main_v8 main_v52 (mulf : (⟨S50000x128, .f32⟩ : BufTy).Contents (Elt F) → (⟨S50000x128, .f32⟩ : BufTy).Contents (Elt F) → (⟨S50000x128, .f32⟩ : BufTy).Contents (Elt F)),
    binary main_v48 main_v52 main_v53 (addf : (⟨S50000x128, .f32⟩ : BufTy).Contents (Elt F) → (⟨S50000x128, .f32⟩ : BufTy).Contents (Elt F) → (⟨S50000x128, .f32⟩ : BufTy).Contents (Elt F)),
    unary main_v7 main_v54 (broadcastInDim S1x128 ![1] bcast_S128_S1x128_1 : (⟨S128, .f32⟩ : BufTy).Contents (Elt F) → (⟨S1x128, .f32⟩ : BufTy).Contents (Elt F)),
    unary main_v54 main_v55 (broadcastInDim S50000x128 ![0, 1] bcast_S1x128_S50000x128_0_1 : (⟨S1x128, .f32⟩ : BufTy).Contents (Elt F) → (⟨S50000x128, .f32⟩ : BufTy).Contents (Elt F)),
    binary main_v53 main_v55 main_v56 (addf : (⟨S50000x128, .f32⟩ : BufTy).Contents (Elt F) → (⟨S50000x128, .f32⟩ : BufTy).Contents (Elt F) → (⟨S50000x128, .f32⟩ : BufTy).Contents (Elt F)),
    unary main_arg4 main_v57 ((extractStridedSlice S1x128 ![0, 0] · slices_S3x128_S1x128_0_0) : (⟨S3x128, .f32⟩ : BufTy).Contents (Elt F) → (⟨S1x128, .f32⟩ : BufTy).Contents (Elt F)),
    reshape main_v57 main_v58 rfl shapeCasts_S1x128_S128,
    unary main_arg5 main_v59 ((extractStridedSlice S1x128 ![0, 0] · slices_S3x128_S1x128_0_0) : (⟨S3x128, .f32⟩ : BufTy).Contents (Elt F) → (⟨S1x128, .f32⟩ : BufTy).Contents (Elt F)),
    reshape main_v59 main_v60 rfl shapeCasts_S1x128_S128,
    nullary main_cst_10 (constant S_ .f32 0x00000000#32),
    binary main_v56 main_cst_10 main_v61 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v61 main_v62 (broadcastInDim S50000x1 ![0] bcast_S50000_S50000x1_0 : (⟨S50000, .f32⟩ : BufTy).Contents (Elt F) → (⟨S50000x1, .f32⟩ : BufTy).Contents (Elt F)),
    nullary main_cst_11 (constant S_ .f32 0x43000000#32),
    unary main_cst_11 main_v63 (broadcastInDim S50000x1 ![] bcast_S_S50000x1 : (⟨S_, .f32⟩ : BufTy).Contents (Elt F) → (⟨S50000x1, .f32⟩ : BufTy).Contents (Elt F)),
    binary main_v62 main_v63 main_v64 (Host.divf : (⟨S50000x1, .f32⟩ : BufTy).Contents (Elt F) → (⟨S50000x1, .f32⟩ : BufTy).Contents (Elt F) → (⟨S50000x1, .f32⟩ : BufTy).Contents (Elt F)),
    unary main_v64 main_v65 (broadcastInDim S50000x128 ![0, 1] bcast_S50000x1_S50000x128_0_1 : (⟨S50000x1, .f32⟩ : BufTy).Contents (Elt F) → (⟨S50000x128, .f32⟩ : BufTy).Contents (Elt F)),
    binary main_v56 main_v65 main_v66 (subf : (⟨S50000x128, .f32⟩ : BufTy).Contents (Elt F) → (⟨S50000x128, .f32⟩ : BufTy).Contents (Elt F) → (⟨S50000x128, .f32⟩ : BufTy).Contents (Elt F)),
    binary main_v66 main_v66 main_v67 (mulf : (⟨S50000x128, .f32⟩ : BufTy).Contents (Elt F) → (⟨S50000x128, .f32⟩ : BufTy).Contents (Elt F) → (⟨S50000x128, .f32⟩ : BufTy).Contents (Elt F)),
    nullary main_cst_12 (constant S_ .f32 0x00000000#32),
    binary main_v67 main_cst_12 main_v68 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v68 main_v69 (broadcastInDim S50000x1 ![0] bcast_S50000_S50000x1_0 : (⟨S50000, .f32⟩ : BufTy).Contents (Elt F) → (⟨S50000x1, .f32⟩ : BufTy).Contents (Elt F)),
    nullary main_cst_13 (constant S_ .f32 0x43000000#32),
    unary main_cst_13 main_v70 (broadcastInDim S50000x1 ![] bcast_S_S50000x1 : (⟨S_, .f32⟩ : BufTy).Contents (Elt F) → (⟨S50000x1, .f32⟩ : BufTy).Contents (Elt F)),
    binary main_v69 main_v70 main_v71 (Host.divf : (⟨S50000x1, .f32⟩ : BufTy).Contents (Elt F) → (⟨S50000x1, .f32⟩ : BufTy).Contents (Elt F) → (⟨S50000x1, .f32⟩ : BufTy).Contents (Elt F)),
    unary main_v64 main_v72 (broadcastInDim S50000x128 ![0, 1] bcast_S50000x1_S50000x128_0_1 : (⟨S50000x1, .f32⟩ : BufTy).Contents (Elt F) → (⟨S50000x128, .f32⟩ : BufTy).Contents (Elt F)),
    binary main_v56 main_v72 main_v73 (subf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x3727C5AC#32),
    unary main_cst_14 main_v74 (broadcastInDim S50000x1 ![] bcast_S_S50000x1 : (⟨S_, .f32⟩ : BufTy).Contents (Elt F) → (⟨S50000x1, .f32⟩ : BufTy).Contents (Elt F)),
    binary main_v71 main_v74 main_v75 (addf : (⟨S50000x1, .f32⟩ : BufTy).Contents (Elt F) → (⟨S50000x1, .f32⟩ : BufTy).Contents (Elt F) → (⟨S50000x1, .f32⟩ : BufTy).Contents (Elt F)),
    unary main_v75 main_v76 (Host.rsqrt : (⟨S50000x1, .f32⟩ : BufTy).Contents (Elt F) → (⟨S50000x1, .f32⟩ : BufTy).Contents (Elt F)),
    unary main_v76 main_v77 (broadcastInDim S50000x128 ![0, 1] bcast_S50000x1_S50000x128_0_1 : (⟨S50000x1, .f32⟩ : BufTy).Contents (Elt F) → (⟨S50000x128, .f32⟩ : BufTy).Contents (Elt F)),
    binary main_v73 main_v77 main_v78 (mulf : (⟨S50000x128, .f32⟩ : BufTy).Contents (Elt F) → (⟨S50000x128, .f32⟩ : BufTy).Contents (Elt F) → (⟨S50000x128, .f32⟩ : BufTy).Contents (Elt F)),
    unary main_v58 main_v79 (broadcastInDim S1x128 ![1] bcast_S128_S1x128_1 : (⟨S128, .f32⟩ : BufTy).Contents (Elt F) → (⟨S1x128, .f32⟩ : BufTy).Contents (Elt F)),
    unary main_v79 main_v80 (broadcastInDim S50000x128 ![0, 1] bcast_S1x128_S50000x128_0_1 : (⟨S1x128, .f32⟩ : BufTy).Contents (Elt F) → (⟨S50000x128, .f32⟩ : BufTy).Contents (Elt F)),
    binary main_v78 main_v80 main_v81 (mulf : (⟨S50000x128, .f32⟩ : BufTy).Contents (Elt F) → (⟨S50000x128, .f32⟩ : BufTy).Contents (Elt F) → (⟨S50000x128, .f32⟩ : BufTy).Contents (Elt F)),
    unary main_v60 main_v82 (broadcastInDim S1x128 ![1] bcast_S128_S1x128_1 : (⟨S128, .f32⟩ : BufTy).Contents (Elt F) → (⟨S1x128, .f32⟩ : BufTy).Contents (Elt F)),
    unary main_v82 main_v83 (broadcastInDim S50000x128 ![0, 1] bcast_S1x128_S50000x128_0_1 : (⟨S1x128, .f32⟩ : BufTy).Contents (Elt F) → (⟨S50000x128, .f32⟩ : BufTy).Contents (Elt F)),
    binary main_v81 main_v83 main_v84 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v84) (TRef.of (T := ⟨S50000x128, .f32⟩) main_call0_v0) (TRef.of (T := ⟨S50000x128, .f32⟩) main_v85) maximumf ]

/-- The second layer: operations 106–206 (through `main_v167`). -/
abbrev opsL2 : List (HloOp τ sig (Elt F)) :=
  [
    unary main_arg2 main_v86 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v86 main_v87 rfl shapeCasts_S1x128x128_S128x128,
    unary main_arg3 main_v88 ((extractStridedSlice S1x128 ![1, 0] · slices_S3x128_S1x128_1_0) : (⟨S3x128, .f32⟩ : BufTy).Contents (Elt F) → (⟨S1x128, .f32⟩ : BufTy).Contents (Elt F)),
    reshape main_v88 main_v89 rfl shapeCasts_S1x128_S128,
    binary main_v85 main_v87 main_v90 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_15 (constant S_ .f32 0x00000000#32),
    unary main_cst_15 main_v91 (broadcastInDim S50000 ![] bcast_S_S50000 : (⟨S_, .f32⟩ : BufTy).Contents (Elt F) → (⟨S50000, .f32⟩ : BufTy).Contents (Elt F)),
    nullary main_c_16 (constantI S_ 32 0#32),
    unary main_c_16 main_v92 (broadcastInDim S800000 ![] bcast_S_S800000 : (⟨S_, .i32⟩ : BufTy).Contents (Elt F) → (⟨S800000, .i32⟩ : BufTy).Contents (Elt F)),
    binary main_v3 main_v92 main_v93 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v94 (broadcastInDim S800000 ![] bcast_S_S800000 : (⟨S_, .i32⟩ : BufTy).Contents (Elt F) → (⟨S800000, .i32⟩ : BufTy).Contents (Elt F)),
    binary main_v3 main_v94 main_v95 (addi : (⟨S800000, .i32⟩ : BufTy).Contents (Elt F) → (⟨S800000, .i32⟩ : BufTy).Contents (Elt F) → (⟨S800000, .i32⟩ : BufTy).Contents (Elt F)),
    ternary main_v93 main_v95 main_v3 main_v96 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v96 main_v97 (broadcastInDim S800000x1 ![0] bcast_S800000_S800000x1_0 : (⟨S800000, .i32⟩ : BufTy).Contents (Elt F) → (⟨S800000x1, .i32⟩ : BufTy).Contents (Elt F)),
    nullary main_cst_18 (constant S_ .f32 0x3F800000#32),
    unary main_cst_18 main_v98 (broadcastInDim S800000 ![] bcast_S_S800000 : (⟨S_, .f32⟩ : BufTy).Contents (Elt F) → (⟨S800000, .f32⟩ : BufTy).Contents (Elt F)),
    ternary main_v91 main_v97 main_v98 main_v99 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_19 (constant S_ .f32 0x3F800000#32),
    unary main_cst_19 main_v100 (broadcastInDim S50000 ![] bcast_S_S50000 : (⟨S_, .f32⟩ : BufTy).Contents (Elt F) → (⟨S50000, .f32⟩ : BufTy).Contents (Elt F)),
    binary main_v99 main_v100 main_v101 (addf : (⟨S50000, .f32⟩ : BufTy).Contents (Elt F) → (⟨S50000, .f32⟩ : BufTy).Contents (Elt F) → (⟨S50000, .f32⟩ : BufTy).Contents (Elt F)),
    unary main_v101 main_v102 (Host.rsqrt : (⟨S50000, .f32⟩ : BufTy).Contents (Elt F) → (⟨S50000, .f32⟩ : BufTy).Contents (Elt F)),
    nullary main_c_20 (constantI S_ 32 0#32),
    unary main_c_20 main_v103 (broadcastInDim S800000 ![] bcast_S_S800000 : (⟨S_, .i32⟩ : BufTy).Contents (Elt F) → (⟨S800000, .i32⟩ : BufTy).Contents (Elt F)),
    binary main_v1 main_v103 main_v104 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v105 (broadcastInDim S800000 ![] bcast_S_S800000 : (⟨S_, .i32⟩ : BufTy).Contents (Elt F) → (⟨S800000, .i32⟩ : BufTy).Contents (Elt F)),
    binary main_v1 main_v105 main_v106 (addi : (⟨S800000, .i32⟩ : BufTy).Contents (Elt F) → (⟨S800000, .i32⟩ : BufTy).Contents (Elt F) → (⟨S800000, .i32⟩ : BufTy).Contents (Elt F)),
    ternary main_v104 main_v106 main_v1 main_v107 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v107 main_v108 (broadcastInDim S800000x1 ![0] bcast_S800000_S800000x1_0 : (⟨S800000, .i32⟩ : BufTy).Contents (Elt F) → (⟨S800000x1, .i32⟩ : BufTy).Contents (Elt F)),
    binary main_v102 main_v108 main_v109 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_22 (constantI S_ 32 0#32),
    unary main_c_22 main_v110 (broadcastInDim S800000 ![] bcast_S_S800000 : (⟨S_, .i32⟩ : BufTy).Contents (Elt F) → (⟨S800000, .i32⟩ : BufTy).Contents (Elt F)),
    binary main_v3 main_v110 main_v111 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v112 (broadcastInDim S800000 ![] bcast_S_S800000 : (⟨S_, .i32⟩ : BufTy).Contents (Elt F) → (⟨S800000, .i32⟩ : BufTy).Contents (Elt F)),
    binary main_v3 main_v112 main_v113 (addi : (⟨S800000, .i32⟩ : BufTy).Contents (Elt F) → (⟨S800000, .i32⟩ : BufTy).Contents (Elt F) → (⟨S800000, .i32⟩ : BufTy).Contents (Elt F)),
    ternary main_v111 main_v113 main_v3 main_v114 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v114 main_v115 (broadcastInDim S800000x1 ![0] bcast_S800000_S800000x1_0 : (⟨S800000, .i32⟩ : BufTy).Contents (Elt F) → (⟨S800000x1, .i32⟩ : BufTy).Contents (Elt F)),
    binary main_v102 main_v115 main_v116 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v109 main_v116 main_v117 (mulf : (⟨S800000, .f32⟩ : BufTy).Contents (Elt F) → (⟨S800000, .f32⟩ : BufTy).Contents (Elt F) → (⟨S800000, .f32⟩ : BufTy).Contents (Elt F)),
    unary main_v117 main_v118 (broadcastInDim S800000x1 ![0] bcast_S800000_S800000x1_0 : (⟨S800000, .f32⟩ : BufTy).Contents (Elt F) → (⟨S800000x1, .f32⟩ : BufTy).Contents (Elt F)),
    nullary main_c_24 (constantI S_ 32 0#32),
    unary main_c_24 main_v119 (broadcastInDim S800000 ![] bcast_S_S800000 : (⟨S_, .i32⟩ : BufTy).Contents (Elt F) → (⟨S800000, .i32⟩ : BufTy).Contents (Elt F)),
    binary main_v1 main_v119 main_v120 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v121 (broadcastInDim S800000 ![] bcast_S_S800000 : (⟨S_, .i32⟩ : BufTy).Contents (Elt F) → (⟨S800000, .i32⟩ : BufTy).Contents (Elt F)),
    binary main_v1 main_v121 main_v122 (addi : (⟨S800000, .i32⟩ : BufTy).Contents (Elt F) → (⟨S800000, .i32⟩ : BufTy).Contents (Elt F) → (⟨S800000, .i32⟩ : BufTy).Contents (Elt F)),
    ternary main_v120 main_v122 main_v1 main_v123 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v123 main_v124 (broadcastInDim S800000x1 ![0] bcast_S800000_S800000x1_0 : (⟨S800000, .i32⟩ : BufTy).Contents (Elt F) → (⟨S800000x1, .i32⟩ : BufTy).Contents (Elt F)),
    binary main_v90 main_v124 main_v125 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v118 main_v126 (broadcastInDim S800000x128 ![0, 1] bcast_S800000x1_S800000x128_0_1 : (⟨S800000x1, .f32⟩ : BufTy).Contents (Elt F) → (⟨S800000x128, .f32⟩ : BufTy).Contents (Elt F)),
    binary main_v126 main_v125 main_v127 (mulf : (⟨S800000x128, .f32⟩ : BufTy).Contents (Elt F) → (⟨S800000x128, .f32⟩ : BufTy).Contents (Elt F) → (⟨S800000x128, .f32⟩ : BufTy).Contents (Elt F)),
    nullary main_cst_26 (constant S_ .f32 0x00000000#32),
    unary main_cst_26 main_v128 (broadcastInDim S50000x128 ![] bcast_S_S50000x128 : (⟨S_, .f32⟩ : BufTy).Contents (Elt F) → (⟨S50000x128, .f32⟩ : BufTy).Contents (Elt F)),
    unary main_v3 main_v129 (broadcastInDim S800000x1 ![0] bcast_S800000_S800000x1_0 : (⟨S800000, .i32⟩ : BufTy).Contents (Elt F) → (⟨S800000x1, .i32⟩ : BufTy).Contents (Elt F)),
    ternary main_v128 main_v129 main_v127 main_v130 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v102 main_v102 main_v131 (mulf : (⟨S50000, .f32⟩ : BufTy).Contents (Elt F) → (⟨S50000, .f32⟩ : BufTy).Contents (Elt F) → (⟨S50000, .f32⟩ : BufTy).Contents (Elt F)),
    unary main_v131 main_v132 (broadcastInDim S50000x1 ![0] bcast_S50000_S50000x1_0 : (⟨S50000, .f32⟩ : BufTy).Contents (Elt F) → (⟨S50000x1, .f32⟩ : BufTy).Contents (Elt F)),
    unary main_v132 main_v133 (broadcastInDim S50000x128 ![0, 1] bcast_S50000x1_S50000x128_0_1 : (⟨S50000x1, .f32⟩ : BufTy).Contents (Elt F) → (⟨S50000x128, .f32⟩ : BufTy).Contents (Elt F)),
    binary main_v133 main_v90 main_v134 (mulf : (⟨S50000x128, .f32⟩ : BufTy).Contents (Elt F) → (⟨S50000x128, .f32⟩ : BufTy).Contents (Elt F) → (⟨S50000x128, .f32⟩ : BufTy).Contents (Elt F)),
    binary main_v130 main_v134 main_v135 (addf : (⟨S50000x128, .f32⟩ : BufTy).Contents (Elt F) → (⟨S50000x128, .f32⟩ : BufTy).Contents (Elt F) → (⟨S50000x128, .f32⟩ : BufTy).Contents (Elt F)),
    unary main_v89 main_v136 (broadcastInDim S1x128 ![1] bcast_S128_S1x128_1 : (⟨S128, .f32⟩ : BufTy).Contents (Elt F) → (⟨S1x128, .f32⟩ : BufTy).Contents (Elt F)),
    unary main_v136 main_v137 (broadcastInDim S50000x128 ![0, 1] bcast_S1x128_S50000x128_0_1 : (⟨S1x128, .f32⟩ : BufTy).Contents (Elt F) → (⟨S50000x128, .f32⟩ : BufTy).Contents (Elt F)),
    binary main_v135 main_v137 main_v138 (addf : (⟨S50000x128, .f32⟩ : BufTy).Contents (Elt F) → (⟨S50000x128, .f32⟩ : BufTy).Contents (Elt F) → (⟨S50000x128, .f32⟩ : BufTy).Contents (Elt F)),
    unary main_arg4 main_v139 ((extractStridedSlice S1x128 ![1, 0] · slices_S3x128_S1x128_1_0) : (⟨S3x128, .f32⟩ : BufTy).Contents (Elt F) → (⟨S1x128, .f32⟩ : BufTy).Contents (Elt F)),
    reshape main_v139 main_v140 rfl shapeCasts_S1x128_S128,
    unary main_arg5 main_v141 ((extractStridedSlice S1x128 ![1, 0] · slices_S3x128_S1x128_1_0) : (⟨S3x128, .f32⟩ : BufTy).Contents (Elt F) → (⟨S1x128, .f32⟩ : BufTy).Contents (Elt F)),
    reshape main_v141 main_v142 rfl shapeCasts_S1x128_S128,
    nullary main_cst_27 (constant S_ .f32 0x00000000#32),
    binary main_v138 main_cst_27 main_v143 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v143 main_v144 (broadcastInDim S50000x1 ![0] bcast_S50000_S50000x1_0 : (⟨S50000, .f32⟩ : BufTy).Contents (Elt F) → (⟨S50000x1, .f32⟩ : BufTy).Contents (Elt F)),
    nullary main_cst_28 (constant S_ .f32 0x43000000#32),
    unary main_cst_28 main_v145 (broadcastInDim S50000x1 ![] bcast_S_S50000x1 : (⟨S_, .f32⟩ : BufTy).Contents (Elt F) → (⟨S50000x1, .f32⟩ : BufTy).Contents (Elt F)),
    binary main_v144 main_v145 main_v146 (Host.divf : (⟨S50000x1, .f32⟩ : BufTy).Contents (Elt F) → (⟨S50000x1, .f32⟩ : BufTy).Contents (Elt F) → (⟨S50000x1, .f32⟩ : BufTy).Contents (Elt F)),
    unary main_v146 main_v147 (broadcastInDim S50000x128 ![0, 1] bcast_S50000x1_S50000x128_0_1 : (⟨S50000x1, .f32⟩ : BufTy).Contents (Elt F) → (⟨S50000x128, .f32⟩ : BufTy).Contents (Elt F)),
    binary main_v138 main_v147 main_v148 (subf : (⟨S50000x128, .f32⟩ : BufTy).Contents (Elt F) → (⟨S50000x128, .f32⟩ : BufTy).Contents (Elt F) → (⟨S50000x128, .f32⟩ : BufTy).Contents (Elt F)),
    binary main_v148 main_v148 main_v149 (mulf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x00000000#32),
    binary main_v149 main_cst_29 main_v150 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v150 main_v151 (broadcastInDim S50000x1 ![0] bcast_S50000_S50000x1_0 : (⟨S50000, .f32⟩ : BufTy).Contents (Elt F) → (⟨S50000x1, .f32⟩ : BufTy).Contents (Elt F)),
    nullary main_cst_30 (constant S_ .f32 0x43000000#32),
    unary main_cst_30 main_v152 (broadcastInDim S50000x1 ![] bcast_S_S50000x1 : (⟨S_, .f32⟩ : BufTy).Contents (Elt F) → (⟨S50000x1, .f32⟩ : BufTy).Contents (Elt F)),
    binary main_v151 main_v152 main_v153 (Host.divf : (⟨S50000x1, .f32⟩ : BufTy).Contents (Elt F) → (⟨S50000x1, .f32⟩ : BufTy).Contents (Elt F) → (⟨S50000x1, .f32⟩ : BufTy).Contents (Elt F)),
    unary main_v146 main_v154 (broadcastInDim S50000x128 ![0, 1] bcast_S50000x1_S50000x128_0_1 : (⟨S50000x1, .f32⟩ : BufTy).Contents (Elt F) → (⟨S50000x128, .f32⟩ : BufTy).Contents (Elt F)),
    binary main_v138 main_v154 main_v155 (subf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x3727C5AC#32),
    unary main_cst_31 main_v156 (broadcastInDim S50000x1 ![] bcast_S_S50000x1 : (⟨S_, .f32⟩ : BufTy).Contents (Elt F) → (⟨S50000x1, .f32⟩ : BufTy).Contents (Elt F)),
    binary main_v153 main_v156 main_v157 (addf : (⟨S50000x1, .f32⟩ : BufTy).Contents (Elt F) → (⟨S50000x1, .f32⟩ : BufTy).Contents (Elt F) → (⟨S50000x1, .f32⟩ : BufTy).Contents (Elt F)),
    unary main_v157 main_v158 (Host.rsqrt : (⟨S50000x1, .f32⟩ : BufTy).Contents (Elt F) → (⟨S50000x1, .f32⟩ : BufTy).Contents (Elt F)),
    unary main_v158 main_v159 (broadcastInDim S50000x128 ![0, 1] bcast_S50000x1_S50000x128_0_1 : (⟨S50000x1, .f32⟩ : BufTy).Contents (Elt F) → (⟨S50000x128, .f32⟩ : BufTy).Contents (Elt F)),
    binary main_v155 main_v159 main_v160 (mulf : (⟨S50000x128, .f32⟩ : BufTy).Contents (Elt F) → (⟨S50000x128, .f32⟩ : BufTy).Contents (Elt F) → (⟨S50000x128, .f32⟩ : BufTy).Contents (Elt F)),
    unary main_v140 main_v161 (broadcastInDim S1x128 ![1] bcast_S128_S1x128_1 : (⟨S128, .f32⟩ : BufTy).Contents (Elt F) → (⟨S1x128, .f32⟩ : BufTy).Contents (Elt F)),
    unary main_v161 main_v162 (broadcastInDim S50000x128 ![0, 1] bcast_S1x128_S50000x128_0_1 : (⟨S1x128, .f32⟩ : BufTy).Contents (Elt F) → (⟨S50000x128, .f32⟩ : BufTy).Contents (Elt F)),
    binary main_v160 main_v162 main_v163 (mulf : (⟨S50000x128, .f32⟩ : BufTy).Contents (Elt F) → (⟨S50000x128, .f32⟩ : BufTy).Contents (Elt F) → (⟨S50000x128, .f32⟩ : BufTy).Contents (Elt F)),
    unary main_v142 main_v164 (broadcastInDim S1x128 ![1] bcast_S128_S1x128_1 : (⟨S128, .f32⟩ : BufTy).Contents (Elt F) → (⟨S1x128, .f32⟩ : BufTy).Contents (Elt F)),
    unary main_v164 main_v165 (broadcastInDim S50000x128 ![0, 1] bcast_S1x128_S50000x128_0_1 : (⟨S1x128, .f32⟩ : BufTy).Contents (Elt F) → (⟨S50000x128, .f32⟩ : BufTy).Contents (Elt F)),
    binary main_v163 main_v165 main_v166 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v166) (TRef.of (T := ⟨S50000x128, .f32⟩) main_call1_v0) (TRef.of (T := ⟨S50000x128, .f32⟩) main_v167) maximumf ]

/-- The third layer: operations 207–307 (through `main_v249`). -/
abbrev opsL3 : List (HloOp τ sig (Elt F)) :=
  [
    unary main_arg2 main_v168 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v168 main_v169 rfl shapeCasts_S1x128x128_S128x128,
    unary main_arg3 main_v170 ((extractStridedSlice S1x128 ![2, 0] · slices_S3x128_S1x128_2_0) : (⟨S3x128, .f32⟩ : BufTy).Contents (Elt F) → (⟨S1x128, .f32⟩ : BufTy).Contents (Elt F)),
    reshape main_v170 main_v171 rfl shapeCasts_S1x128_S128,
    binary main_v167 main_v169 main_v172 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_32 (constant S_ .f32 0x00000000#32),
    unary main_cst_32 main_v173 (broadcastInDim S50000 ![] bcast_S_S50000 : (⟨S_, .f32⟩ : BufTy).Contents (Elt F) → (⟨S50000, .f32⟩ : BufTy).Contents (Elt F)),
    nullary main_c_33 (constantI S_ 32 0#32),
    unary main_c_33 main_v174 (broadcastInDim S800000 ![] bcast_S_S800000 : (⟨S_, .i32⟩ : BufTy).Contents (Elt F) → (⟨S800000, .i32⟩ : BufTy).Contents (Elt F)),
    binary main_v3 main_v174 main_v175 (cmpi .slt : (⟨S800000, .i32⟩ : BufTy).Contents (Elt F) → (⟨S800000, .i32⟩ : BufTy).Contents (Elt F) → (⟨S800000, .i1⟩ : BufTy).Contents (Elt F)),
    nullary main_c_34 (constantI S_ 32 50000#32),
    unary main_c_34 main_v176 (broadcastInDim S800000 ![] bcast_S_S800000 : (⟨S_, .i32⟩ : BufTy).Contents (Elt F) → (⟨S800000, .i32⟩ : BufTy).Contents (Elt F)),
    binary main_v3 main_v176 main_v177 (addi : (⟨S800000, .i32⟩ : BufTy).Contents (Elt F) → (⟨S800000, .i32⟩ : BufTy).Contents (Elt F) → (⟨S800000, .i32⟩ : BufTy).Contents (Elt F)),
    ternary main_v175 main_v177 main_v3 main_v178 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v178 main_v179 (broadcastInDim S800000x1 ![0] bcast_S800000_S800000x1_0 : (⟨S800000, .i32⟩ : BufTy).Contents (Elt F) → (⟨S800000x1, .i32⟩ : BufTy).Contents (Elt F)),
    nullary main_cst_35 (constant S_ .f32 0x3F800000#32),
    unary main_cst_35 main_v180 (broadcastInDim S800000 ![] bcast_S_S800000 : (⟨S_, .f32⟩ : BufTy).Contents (Elt F) → (⟨S800000, .f32⟩ : BufTy).Contents (Elt F)),
    ternary main_v173 main_v179 main_v180 main_v181 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_36 (constant S_ .f32 0x3F800000#32),
    unary main_cst_36 main_v182 (broadcastInDim S50000 ![] bcast_S_S50000 : (⟨S_, .f32⟩ : BufTy).Contents (Elt F) → (⟨S50000, .f32⟩ : BufTy).Contents (Elt F)),
    binary main_v181 main_v182 main_v183 (addf : (⟨S50000, .f32⟩ : BufTy).Contents (Elt F) → (⟨S50000, .f32⟩ : BufTy).Contents (Elt F) → (⟨S50000, .f32⟩ : BufTy).Contents (Elt F)),
    unary main_v183 main_v184 (Host.rsqrt : (⟨S50000, .f32⟩ : BufTy).Contents (Elt F) → (⟨S50000, .f32⟩ : BufTy).Contents (Elt F)),
    nullary main_c_37 (constantI S_ 32 0#32),
    unary main_c_37 main_v185 (broadcastInDim S800000 ![] bcast_S_S800000 : (⟨S_, .i32⟩ : BufTy).Contents (Elt F) → (⟨S800000, .i32⟩ : BufTy).Contents (Elt F)),
    binary main_v1 main_v185 main_v186 (cmpi .slt : (⟨S800000, .i32⟩ : BufTy).Contents (Elt F) → (⟨S800000, .i32⟩ : BufTy).Contents (Elt F) → (⟨S800000, .i1⟩ : BufTy).Contents (Elt F)),
    nullary main_c_38 (constantI S_ 32 50000#32),
    unary main_c_38 main_v187 (broadcastInDim S800000 ![] bcast_S_S800000 : (⟨S_, .i32⟩ : BufTy).Contents (Elt F) → (⟨S800000, .i32⟩ : BufTy).Contents (Elt F)),
    binary main_v1 main_v187 main_v188 (addi : (⟨S800000, .i32⟩ : BufTy).Contents (Elt F) → (⟨S800000, .i32⟩ : BufTy).Contents (Elt F) → (⟨S800000, .i32⟩ : BufTy).Contents (Elt F)),
    ternary main_v186 main_v188 main_v1 main_v189 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v189 main_v190 (broadcastInDim S800000x1 ![0] bcast_S800000_S800000x1_0 : (⟨S800000, .i32⟩ : BufTy).Contents (Elt F) → (⟨S800000x1, .i32⟩ : BufTy).Contents (Elt F)),
    binary main_v184 main_v190 main_v191 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_39 (constantI S_ 32 0#32),
    unary main_c_39 main_v192 (broadcastInDim S800000 ![] bcast_S_S800000 : (⟨S_, .i32⟩ : BufTy).Contents (Elt F) → (⟨S800000, .i32⟩ : BufTy).Contents (Elt F)),
    binary main_v3 main_v192 main_v193 (cmpi .slt : (⟨S800000, .i32⟩ : BufTy).Contents (Elt F) → (⟨S800000, .i32⟩ : BufTy).Contents (Elt F) → (⟨S800000, .i1⟩ : BufTy).Contents (Elt F)),
    nullary main_c_40 (constantI S_ 32 50000#32),
    unary main_c_40 main_v194 (broadcastInDim S800000 ![] bcast_S_S800000 : (⟨S_, .i32⟩ : BufTy).Contents (Elt F) → (⟨S800000, .i32⟩ : BufTy).Contents (Elt F)),
    binary main_v3 main_v194 main_v195 (addi : (⟨S800000, .i32⟩ : BufTy).Contents (Elt F) → (⟨S800000, .i32⟩ : BufTy).Contents (Elt F) → (⟨S800000, .i32⟩ : BufTy).Contents (Elt F)),
    ternary main_v193 main_v195 main_v3 main_v196 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v196 main_v197 (broadcastInDim S800000x1 ![0] bcast_S800000_S800000x1_0 : (⟨S800000, .i32⟩ : BufTy).Contents (Elt F) → (⟨S800000x1, .i32⟩ : BufTy).Contents (Elt F)),
    binary main_v184 main_v197 main_v198 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v191 main_v198 main_v199 (mulf : (⟨S800000, .f32⟩ : BufTy).Contents (Elt F) → (⟨S800000, .f32⟩ : BufTy).Contents (Elt F) → (⟨S800000, .f32⟩ : BufTy).Contents (Elt F)),
    unary main_v199 main_v200 (broadcastInDim S800000x1 ![0] bcast_S800000_S800000x1_0 : (⟨S800000, .f32⟩ : BufTy).Contents (Elt F) → (⟨S800000x1, .f32⟩ : BufTy).Contents (Elt F)),
    nullary main_c_41 (constantI S_ 32 0#32),
    unary main_c_41 main_v201 (broadcastInDim S800000 ![] bcast_S_S800000 : (⟨S_, .i32⟩ : BufTy).Contents (Elt F) → (⟨S800000, .i32⟩ : BufTy).Contents (Elt F)),
    binary main_v1 main_v201 main_v202 (cmpi .slt : (⟨S800000, .i32⟩ : BufTy).Contents (Elt F) → (⟨S800000, .i32⟩ : BufTy).Contents (Elt F) → (⟨S800000, .i1⟩ : BufTy).Contents (Elt F)),
    nullary main_c_42 (constantI S_ 32 50000#32),
    unary main_c_42 main_v203 (broadcastInDim S800000 ![] bcast_S_S800000 : (⟨S_, .i32⟩ : BufTy).Contents (Elt F) → (⟨S800000, .i32⟩ : BufTy).Contents (Elt F)),
    binary main_v1 main_v203 main_v204 (addi : (⟨S800000, .i32⟩ : BufTy).Contents (Elt F) → (⟨S800000, .i32⟩ : BufTy).Contents (Elt F) → (⟨S800000, .i32⟩ : BufTy).Contents (Elt F)),
    ternary main_v202 main_v204 main_v1 main_v205 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v205 main_v206 (broadcastInDim S800000x1 ![0] bcast_S800000_S800000x1_0 : (⟨S800000, .i32⟩ : BufTy).Contents (Elt F) → (⟨S800000x1, .i32⟩ : BufTy).Contents (Elt F)),
    binary main_v172 main_v206 main_v207 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v200 main_v208 (broadcastInDim S800000x128 ![0, 1] bcast_S800000x1_S800000x128_0_1 : (⟨S800000x1, .f32⟩ : BufTy).Contents (Elt F) → (⟨S800000x128, .f32⟩ : BufTy).Contents (Elt F)),
    binary main_v208 main_v207 main_v209 (mulf : (⟨S800000x128, .f32⟩ : BufTy).Contents (Elt F) → (⟨S800000x128, .f32⟩ : BufTy).Contents (Elt F) → (⟨S800000x128, .f32⟩ : BufTy).Contents (Elt F)),
    nullary main_cst_43 (constant S_ .f32 0x00000000#32),
    unary main_cst_43 main_v210 (broadcastInDim S50000x128 ![] bcast_S_S50000x128 : (⟨S_, .f32⟩ : BufTy).Contents (Elt F) → (⟨S50000x128, .f32⟩ : BufTy).Contents (Elt F)),
    unary main_v3 main_v211 (broadcastInDim S800000x1 ![0] bcast_S800000_S800000x1_0 : (⟨S800000, .i32⟩ : BufTy).Contents (Elt F) → (⟨S800000x1, .i32⟩ : BufTy).Contents (Elt F)),
    ternary main_v210 main_v211 main_v209 main_v212 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v184 main_v184 main_v213 (mulf : (⟨S50000, .f32⟩ : BufTy).Contents (Elt F) → (⟨S50000, .f32⟩ : BufTy).Contents (Elt F) → (⟨S50000, .f32⟩ : BufTy).Contents (Elt F)),
    unary main_v213 main_v214 (broadcastInDim S50000x1 ![0] bcast_S50000_S50000x1_0 : (⟨S50000, .f32⟩ : BufTy).Contents (Elt F) → (⟨S50000x1, .f32⟩ : BufTy).Contents (Elt F)),
    unary main_v214 main_v215 (broadcastInDim S50000x128 ![0, 1] bcast_S50000x1_S50000x128_0_1 : (⟨S50000x1, .f32⟩ : BufTy).Contents (Elt F) → (⟨S50000x128, .f32⟩ : BufTy).Contents (Elt F)),
    binary main_v215 main_v172 main_v216 (mulf : (⟨S50000x128, .f32⟩ : BufTy).Contents (Elt F) → (⟨S50000x128, .f32⟩ : BufTy).Contents (Elt F) → (⟨S50000x128, .f32⟩ : BufTy).Contents (Elt F)),
    binary main_v212 main_v216 main_v217 (addf : (⟨S50000x128, .f32⟩ : BufTy).Contents (Elt F) → (⟨S50000x128, .f32⟩ : BufTy).Contents (Elt F) → (⟨S50000x128, .f32⟩ : BufTy).Contents (Elt F)),
    unary main_v171 main_v218 (broadcastInDim S1x128 ![1] bcast_S128_S1x128_1 : (⟨S128, .f32⟩ : BufTy).Contents (Elt F) → (⟨S1x128, .f32⟩ : BufTy).Contents (Elt F)),
    unary main_v218 main_v219 (broadcastInDim S50000x128 ![0, 1] bcast_S1x128_S50000x128_0_1 : (⟨S1x128, .f32⟩ : BufTy).Contents (Elt F) → (⟨S50000x128, .f32⟩ : BufTy).Contents (Elt F)),
    binary main_v217 main_v219 main_v220 (addf : (⟨S50000x128, .f32⟩ : BufTy).Contents (Elt F) → (⟨S50000x128, .f32⟩ : BufTy).Contents (Elt F) → (⟨S50000x128, .f32⟩ : BufTy).Contents (Elt F)),
    unary main_arg4 main_v221 ((extractStridedSlice S1x128 ![2, 0] · slices_S3x128_S1x128_2_0) : (⟨S3x128, .f32⟩ : BufTy).Contents (Elt F) → (⟨S1x128, .f32⟩ : BufTy).Contents (Elt F)),
    reshape main_v221 main_v222 rfl shapeCasts_S1x128_S128,
    unary main_arg5 main_v223 ((extractStridedSlice S1x128 ![2, 0] · slices_S3x128_S1x128_2_0) : (⟨S3x128, .f32⟩ : BufTy).Contents (Elt F) → (⟨S1x128, .f32⟩ : BufTy).Contents (Elt F)),
    reshape main_v223 main_v224 rfl shapeCasts_S1x128_S128,
    nullary main_cst_44 (constant S_ .f32 0x00000000#32),
    binary main_v220 main_cst_44 main_v225 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v225 main_v226 (broadcastInDim S50000x1 ![0] bcast_S50000_S50000x1_0 : (⟨S50000, .f32⟩ : BufTy).Contents (Elt F) → (⟨S50000x1, .f32⟩ : BufTy).Contents (Elt F)),
    nullary main_cst_45 (constant S_ .f32 0x43000000#32),
    unary main_cst_45 main_v227 (broadcastInDim S50000x1 ![] bcast_S_S50000x1 : (⟨S_, .f32⟩ : BufTy).Contents (Elt F) → (⟨S50000x1, .f32⟩ : BufTy).Contents (Elt F)),
    binary main_v226 main_v227 main_v228 (Host.divf : (⟨S50000x1, .f32⟩ : BufTy).Contents (Elt F) → (⟨S50000x1, .f32⟩ : BufTy).Contents (Elt F) → (⟨S50000x1, .f32⟩ : BufTy).Contents (Elt F)),
    unary main_v228 main_v229 (broadcastInDim S50000x128 ![0, 1] bcast_S50000x1_S50000x128_0_1 : (⟨S50000x1, .f32⟩ : BufTy).Contents (Elt F) → (⟨S50000x128, .f32⟩ : BufTy).Contents (Elt F)),
    binary main_v220 main_v229 main_v230 (subf : (⟨S50000x128, .f32⟩ : BufTy).Contents (Elt F) → (⟨S50000x128, .f32⟩ : BufTy).Contents (Elt F) → (⟨S50000x128, .f32⟩ : BufTy).Contents (Elt F)),
    binary main_v230 main_v230 main_v231 (mulf : (⟨S50000x128, .f32⟩ : BufTy).Contents (Elt F) → (⟨S50000x128, .f32⟩ : BufTy).Contents (Elt F) → (⟨S50000x128, .f32⟩ : BufTy).Contents (Elt F)),
    nullary main_cst_46 (constant S_ .f32 0x00000000#32),
    binary main_v231 main_cst_46 main_v232 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v232 main_v233 (broadcastInDim S50000x1 ![0] bcast_S50000_S50000x1_0 : (⟨S50000, .f32⟩ : BufTy).Contents (Elt F) → (⟨S50000x1, .f32⟩ : BufTy).Contents (Elt F)),
    nullary main_cst_47 (constant S_ .f32 0x43000000#32),
    unary main_cst_47 main_v234 (broadcastInDim S50000x1 ![] bcast_S_S50000x1 : (⟨S_, .f32⟩ : BufTy).Contents (Elt F) → (⟨S50000x1, .f32⟩ : BufTy).Contents (Elt F)),
    binary main_v233 main_v234 main_v235 (Host.divf : (⟨S50000x1, .f32⟩ : BufTy).Contents (Elt F) → (⟨S50000x1, .f32⟩ : BufTy).Contents (Elt F) → (⟨S50000x1, .f32⟩ : BufTy).Contents (Elt F)),
    unary main_v228 main_v236 (broadcastInDim S50000x128 ![0, 1] bcast_S50000x1_S50000x128_0_1 : (⟨S50000x1, .f32⟩ : BufTy).Contents (Elt F) → (⟨S50000x128, .f32⟩ : BufTy).Contents (Elt F)),
    binary main_v220 main_v236 main_v237 (subf : (⟨S50000x128, .f32⟩ : BufTy).Contents (Elt F) → (⟨S50000x128, .f32⟩ : BufTy).Contents (Elt F) → (⟨S50000x128, .f32⟩ : BufTy).Contents (Elt F)),
    nullary main_cst_48 (constant S_ .f32 0x3727C5AC#32),
    unary main_cst_48 main_v238 (broadcastInDim S50000x1 ![] bcast_S_S50000x1 : (⟨S_, .f32⟩ : BufTy).Contents (Elt F) → (⟨S50000x1, .f32⟩ : BufTy).Contents (Elt F)),
    binary main_v235 main_v238 main_v239 (addf : (⟨S50000x1, .f32⟩ : BufTy).Contents (Elt F) → (⟨S50000x1, .f32⟩ : BufTy).Contents (Elt F) → (⟨S50000x1, .f32⟩ : BufTy).Contents (Elt F)),
    unary main_v239 main_v240 (Host.rsqrt : (⟨S50000x1, .f32⟩ : BufTy).Contents (Elt F) → (⟨S50000x1, .f32⟩ : BufTy).Contents (Elt F)),
    unary main_v240 main_v241 (broadcastInDim S50000x128 ![0, 1] bcast_S50000x1_S50000x128_0_1 : (⟨S50000x1, .f32⟩ : BufTy).Contents (Elt F) → (⟨S50000x128, .f32⟩ : BufTy).Contents (Elt F)),
    binary main_v237 main_v241 main_v242 (mulf : (⟨S50000x128, .f32⟩ : BufTy).Contents (Elt F) → (⟨S50000x128, .f32⟩ : BufTy).Contents (Elt F) → (⟨S50000x128, .f32⟩ : BufTy).Contents (Elt F)),
    unary main_v222 main_v243 (broadcastInDim S1x128 ![1] bcast_S128_S1x128_1 : (⟨S128, .f32⟩ : BufTy).Contents (Elt F) → (⟨S1x128, .f32⟩ : BufTy).Contents (Elt F)),
    unary main_v243 main_v244 (broadcastInDim S50000x128 ![0, 1] bcast_S1x128_S50000x128_0_1 : (⟨S1x128, .f32⟩ : BufTy).Contents (Elt F) → (⟨S50000x128, .f32⟩ : BufTy).Contents (Elt F)),
    binary main_v242 main_v244 main_v245 (mulf : (⟨S50000x128, .f32⟩ : BufTy).Contents (Elt F) → (⟨S50000x128, .f32⟩ : BufTy).Contents (Elt F) → (⟨S50000x128, .f32⟩ : BufTy).Contents (Elt F)),
    unary main_v224 main_v246 (broadcastInDim S1x128 ![1] bcast_S128_S1x128_1 : (⟨S128, .f32⟩ : BufTy).Contents (Elt F) → (⟨S1x128, .f32⟩ : BufTy).Contents (Elt F)),
    unary main_v246 main_v247 (broadcastInDim S50000x128 ![0, 1] bcast_S1x128_S50000x128_0_1 : (⟨S1x128, .f32⟩ : BufTy).Contents (Elt F) → (⟨S50000x128, .f32⟩ : BufTy).Contents (Elt F)),
    binary main_v245 main_v247 main_v248 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v248) (TRef.of (T := ⟨S50000x128, .f32⟩) main_call2_v0) (TRef.of (T := ⟨S50000x128, .f32⟩) main_v249) maximumf ]

/-- The head: operations 308–311 (through `main_v253`). -/
abbrev opsH : List (HloOp τ sig (Elt F)) :=
  [
    binary main_v249 main_arg6 main_v250 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    unary main_arg7 main_v251 (broadcastInDim S1x40 ![1] bcast_S40_S1x40_1 : (⟨S40, .f32⟩ : BufTy).Contents (Elt F) → (⟨S1x40, .f32⟩ : BufTy).Contents (Elt F)),
    unary main_v251 main_v252 (broadcastInDim S50000x40 ![0, 1] bcast_S1x40_S50000x40_0_1 : (⟨S1x40, .f32⟩ : BufTy).Contents (Elt F) → (⟨S50000x40, .f32⟩ : BufTy).Contents (Elt F)),
    binary main_v250 main_v252 main_v253 (addf : (⟨S50000x40, .f32⟩ : BufTy).Contents (Elt F) → (⟨S50000x40, .f32⟩ : BufTy).Contents (Elt F) → (⟨S50000x40, .f32⟩ : BufTy).Contents (Elt F)) ]

set_option maxRecDepth 8192 in
/-- The four windows, in order, are the whole list. -/
theorem ops_split : (ops : List (HloOp τ sig (Elt F))) = opsL1 ++ (opsL2 ++ (opsL3 ++ opsH)) := rfl

/-- The contents after a list of operations followed by another are the contents after the second from the contents
    after the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The first layer's window -/

set_option maxRecDepth 8192 in
set_option maxHeartbeats 4000000 in
/-- After the first layer's operations its last buffer holds the first stage function of the argument arrays. -/
theorem after_L1_v85 (V : Valuation τ sig (Elt F)) :
    after (opsL1 (F := F)) V (Proc.devRef .tc main_v85) = val_main_v85 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  after_results_simp
  rfl

set_option maxRecDepth 8192 in
set_option maxHeartbeats 16000000 in
/-- The first layer also leaves the two edge-index vectors (the rows of the edge array) in their buffers. -/
theorem after_L1_v1 (V : Valuation τ sig (Elt F)) :
    after (opsL1 (F := F)) V (Proc.devRef .tc main_v1) = val_main_v1 (F := F) (V (Proc.devRef .tc main_arg1)) := by
  after_results_simp <;> rfl

set_option maxRecDepth 8192 in
set_option maxHeartbeats 16000000 in
theorem after_L1_v3 (V : Valuation τ sig (Elt F)) :
    after (opsL1 (F := F)) V (Proc.devRef .tc main_v3) = val_main_v3 (F := F) (V (Proc.devRef .tc main_arg1)) := by
  after_results_simp <;> rfl

set_option maxRecDepth 8192 in
set_option maxHeartbeats 16000000 in
/-- No operation of the first layer writes an argument buffer: the arguments keep their contents. -/
theorem after_L1_kept (V : Valuation τ sig (Elt F)) :
    after (opsL1 (F := F)) V (Proc.devRef .tc main_arg0) = V (Proc.devRef .tc main_arg0)
      ∧ after (opsL1 (F := F)) V (Proc.devRef .tc main_arg1) = V (Proc.devRef .tc main_arg1)
      ∧ after (opsL1 (F := F)) V (Proc.devRef .tc main_arg2) = V (Proc.devRef .tc main_arg2)
      ∧ after (opsL1 (F := F)) V (Proc.devRef .tc main_arg3) = V (Proc.devRef .tc main_arg3)
      ∧ after (opsL1 (F := F)) V (Proc.devRef .tc main_arg4) = V (Proc.devRef .tc main_arg4)
      ∧ after (opsL1 (F := F)) V (Proc.devRef .tc main_arg5) = V (Proc.devRef .tc main_arg5)
      ∧ after (opsL1 (F := F)) V (Proc.devRef .tc main_arg6) = V (Proc.devRef .tc main_arg6)
      ∧ after (opsL1 (F := F)) V (Proc.devRef .tc main_arg7) = V (Proc.devRef .tc main_arg7) := by
  refine ⟨?_, ?_, ?_, ?_, ?_, ?_, ?_, ?_⟩ <;> (after_results_simp <;> rfl)

/-! ## The second and third layers' windows -/

set_option maxRecDepth 8192 in
set_option maxHeartbeats 16000000 in
/-- After the second layer's operations, from contents that hold the previous stage and the two edge-index vectors, its
    last buffer holds the next stage function of the argument arrays. -/
theorem after_L2_v167 (V : Valuation τ sig (Elt F)) (a0 : (⟨S50000x128, .f32⟩ : BufTy).Contents (Elt F)) (a1 : (⟨S2x800000, .i32⟩ : BufTy).Contents (Elt F))
    (a2 : (⟨S3x128x128, .f32⟩ : BufTy).Contents (Elt F)) (a3 a4 a5 : (⟨S3x128, .f32⟩ : BufTy).Contents (Elt F))
    (hp : V (Proc.devRef .tc main_v85) = val_main_v85 (F := F) a0 a1 a2 a3 a4 a5)
    (h1 : V (Proc.devRef .tc main_v1) = val_main_v1 (F := F) a1) (h3 : V (Proc.devRef .tc main_v3) = val_main_v3 (F := F) a1)
    (e2 : V (Proc.devRef .tc main_arg2) = a2) (e3 : V (Proc.devRef .tc main_arg3) = a3) (e4 : V (Proc.devRef .tc main_arg4) = a4) (e5 : V (Proc.devRef .tc main_arg5) = a5) :
    after (opsL2 (F := F)) V (Proc.devRef .tc main_v167) = val_main_v167 (F := F) a0 a1 a2 a3 a4 a5 := by
  after_results_simp
  simp only [hp, h1, h3, e2, e3, e4, e5]
  rfl

set_option maxRecDepth 8192 in
set_option maxHeartbeats 16000000 in
/-- No operation of the second layer writes an argument buffer or an edge-index vector: they keep their contents. -/
theorem after_L2_kept (V : Valuation τ sig (Elt F)) :
    after (opsL2 (F := F)) V (Proc.devRef .tc main_arg0) = V (Proc.devRef .tc main_arg0)
      ∧ after (opsL2 (F := F)) V (Proc.devRef .tc main_arg1) = V (Proc.devRef .tc main_arg1)
      ∧ after (opsL2 (F := F)) V (Proc.devRef .tc main_arg2) = V (Proc.devRef .tc main_arg2)
      ∧ after (opsL2 (F := F)) V (Proc.devRef .tc main_arg3) = V (Proc.devRef .tc main_arg3)
      ∧ after (opsL2 (F := F)) V (Proc.devRef .tc main_arg4) = V (Proc.devRef .tc main_arg4)
      ∧ after (opsL2 (F := F)) V (Proc.devRef .tc main_arg5) = V (Proc.devRef .tc main_arg5)
      ∧ after (opsL2 (F := F)) V (Proc.devRef .tc main_arg6) = V (Proc.devRef .tc main_arg6)
      ∧ after (opsL2 (F := F)) V (Proc.devRef .tc main_arg7) = V (Proc.devRef .tc main_arg7)
      ∧ after (opsL2 (F := F)) V (Proc.devRef .tc main_v1) = V (Proc.devRef .tc main_v1)
      ∧ after (opsL2 (F := F)) V (Proc.devRef .tc main_v3) = V (Proc.devRef .tc main_v3) := by
  refine ⟨?_, ?_, ?_, ?_, ?_, ?_, ?_, ?_, ?_, ?_⟩ <;> (after_results_simp <;> rfl)

set_option maxRecDepth 8192 in
set_option maxHeartbeats 16000000 in
/-- After the third layer's operations, from contents that hold the previous stage and the two edge-index vectors, its
    last buffer holds the next stage function of the argument arrays. -/
theorem after_L3_v249 (V : Valuation τ sig (Elt F)) (a0 : (⟨S50000x128, .f32⟩ : BufTy).Contents (Elt F)) (a1 : (⟨S2x800000, .i32⟩ : BufTy).Contents (Elt F))
    (a2 : (⟨S3x128x128, .f32⟩ : BufTy).Contents (Elt F)) (a3 a4 a5 : (⟨S3x128, .f32⟩ : BufTy).Contents (Elt F))
    (hp : V (Proc.devRef .tc main_v167) = val_main_v167 (F := F) a0 a1 a2 a3 a4 a5)
    (h1 : V (Proc.devRef .tc main_v1) = val_main_v1 (F := F) a1) (h3 : V (Proc.devRef .tc main_v3) = val_main_v3 (F := F) a1)
    (e2 : V (Proc.devRef .tc main_arg2) = a2) (e3 : V (Proc.devRef .tc main_arg3) = a3) (e4 : V (Proc.devRef .tc main_arg4) = a4) (e5 : V (Proc.devRef .tc main_arg5) = a5) :
    after (opsL3 (F := F)) V (Proc.devRef .tc main_v249) = val_main_v249 (F := F) a0 a1 a2 a3 a4 a5 := by
  after_results_simp
  simp only [hp, h1, h3, e2, e3, e4, e5]
  rfl

set_option maxRecDepth 8192 in
set_option maxHeartbeats 16000000 in
/-- No operation of the third layer writes an argument buffer or an edge-index vector: they keep their contents. -/
theorem after_L3_kept (V : Valuation τ sig (Elt F)) :
    after (opsL3 (F := F)) V (Proc.devRef .tc main_arg0) = V (Proc.devRef .tc main_arg0)
      ∧ after (opsL3 (F := F)) V (Proc.devRef .tc main_arg1) = V (Proc.devRef .tc main_arg1)
      ∧ after (opsL3 (F := F)) V (Proc.devRef .tc main_arg2) = V (Proc.devRef .tc main_arg2)
      ∧ after (opsL3 (F := F)) V (Proc.devRef .tc main_arg3) = V (Proc.devRef .tc main_arg3)
      ∧ after (opsL3 (F := F)) V (Proc.devRef .tc main_arg4) = V (Proc.devRef .tc main_arg4)
      ∧ after (opsL3 (F := F)) V (Proc.devRef .tc main_arg5) = V (Proc.devRef .tc main_arg5)
      ∧ after (opsL3 (F := F)) V (Proc.devRef .tc main_arg6) = V (Proc.devRef .tc main_arg6)
      ∧ after (opsL3 (F := F)) V (Proc.devRef .tc main_arg7) = V (Proc.devRef .tc main_arg7)
      ∧ after (opsL3 (F := F)) V (Proc.devRef .tc main_v1) = V (Proc.devRef .tc main_v1)
      ∧ after (opsL3 (F := F)) V (Proc.devRef .tc main_v3) = V (Proc.devRef .tc main_v3) := by
  refine ⟨?_, ?_, ?_, ?_, ?_, ?_, ?_, ?_, ?_, ?_⟩ <;> (after_results_simp <;> rfl)

/-! ## The head's window -/

set_option maxRecDepth 8192 in
set_option maxHeartbeats 16000000 in
/-- After the head's four operations, from contents that hold the third stage, the result buffer holds the result
    function of the argument arrays. -/
theorem after_H_v253 (V : Valuation τ sig (Elt F)) (a0 : (⟨S50000x128, .f32⟩ : BufTy).Contents (Elt F)) (a1 : (⟨S2x800000, .i32⟩ : BufTy).Contents (Elt F))
    (a2 : (⟨S3x128x128, .f32⟩ : BufTy).Contents (Elt F)) (a3 a4 a5 : (⟨S3x128, .f32⟩ : BufTy).Contents (Elt F))
    (a6 : (⟨S128x40, .f32⟩ : BufTy).Contents (Elt F)) (a7 : (⟨S40, .f32⟩ : BufTy).Contents (Elt F))
    (hp : V (Proc.devRef .tc main_v249) = val_main_v249 (F := F) a0 a1 a2 a3 a4 a5)
    (e6 : V (Proc.devRef .tc main_arg6) = a6) (e7 : V (Proc.devRef .tc main_arg7) = a7) :
    after (opsH (F := F)) V (Proc.devRef .tc main_v253) = val_main_v253 (F := F) a0 a1 a2 a3 a4 a5 a6 a7 := by
  after_results_simp
  simp only [hp, e6, e7]
  rfl

set_option maxRecDepth 8192 in
set_option maxHeartbeats 16000000 in
/-- No operation of the head writes an argument buffer. -/
theorem after_H_kept (V : Valuation τ sig (Elt F)) :
    after (opsH (F := F)) V (Proc.devRef .tc main_arg0) = V (Proc.devRef .tc main_arg0)
      ∧ after (opsH (F := F)) V (Proc.devRef .tc main_arg1) = V (Proc.devRef .tc main_arg1)
      ∧ after (opsH (F := F)) V (Proc.devRef .tc main_arg2) = V (Proc.devRef .tc main_arg2)
      ∧ after (opsH (F := F)) V (Proc.devRef .tc main_arg3) = V (Proc.devRef .tc main_arg3)
      ∧ after (opsH (F := F)) V (Proc.devRef .tc main_arg4) = V (Proc.devRef .tc main_arg4)
      ∧ after (opsH (F := F)) V (Proc.devRef .tc main_arg5) = V (Proc.devRef .tc main_arg5)
      ∧ after (opsH (F := F)) V (Proc.devRef .tc main_arg6) = V (Proc.devRef .tc main_arg6)
      ∧ after (opsH (F := F)) V (Proc.devRef .tc main_arg7) = V (Proc.devRef .tc main_arg7) := by
  refine ⟨?_, ?_, ?_, ?_, ?_, ?_, ?_, ?_⟩ <;> (after_results_simp <;> rfl)

/-! ## The whole list -/

/-- After all 311 operations the result buffer holds the result function of the argument arrays: window by window,
    each window's last buffer from the previous window's, the arguments and the edge-index vectors kept in between. -/
theorem after_ops_result (V : Valuation τ sig (Elt F)) :
    after (ops (F := F)) V (Proc.devRef .tc main_v253) = val_main_v253 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_split, after_append, after_append, after_append]
  obtain ⟨_, _, p2, p3, p4, p5, p6, p7⟩ := after_L1_kept (F := F) V
  obtain ⟨_, _, q2, q3, q4, q5, q6, q7, q8, q9⟩ := after_L2_kept (F := F) (after (opsL1 (F := F)) V)
  obtain ⟨_, _, _, _, _, _, r6, r7, _, _⟩ := after_L3_kept (F := F) (after (opsL2 (F := F)) (after (opsL1 (F := F)) V))
  have s1 := after_L2_v167 (after (opsL1 (F := F)) V) _ _ _ _ _ _ (after_L1_v85 V) (after_L1_v1 V) (after_L1_v3 V) p2 p3 p4 p5
  have s2 := after_L3_v249 (after (opsL2 (F := F)) (after (opsL1 (F := F)) V)) _ _ _ _ _ _ s1
    (q8.trans (after_L1_v1 V)) (q9.trans (after_L1_v3 V)) (q2.trans p2) (q3.trans p3) (q4.trans p4) (q5.trans p5)
  exact after_H_v253 _ _ _ _ _ _ _ _ _ s2 (r6.trans (q6.trans p6)) (r7.trans (q7.trans p7))

/-! The argument buffers after the whole list: kept through every window. -/

theorem after_ops_arg0 (V : Valuation τ sig (Elt F)) :
    after (ops (F := F)) V (Proc.devRef .tc main_arg0) = V (Proc.devRef .tc main_arg0) := by
  rw [ops_split, after_append, after_append, after_append]
  exact (after_H_kept _).1.trans ((after_L3_kept _).1.trans ((after_L2_kept _).1.trans (after_L1_kept V).1))

theorem after_ops_arg1 (V : Valuation τ sig (Elt F)) :
    after (ops (F := F)) V (Proc.devRef .tc main_arg1) = V (Proc.devRef .tc main_arg1) := by
  rw [ops_split, after_append, after_append, after_append]
  exact (after_H_kept _).2.1.trans ((after_L3_kept _).2.1.trans ((after_L2_kept _).2.1.trans (after_L1_kept V).2.1))

theorem after_ops_arg2 (V : Valuation τ sig (Elt F)) :
    after (ops (F := F)) V (Proc.devRef .tc main_arg2) = V (Proc.devRef .tc main_arg2) := by
  rw [ops_split, after_append, after_append, after_append]
  exact (after_H_kept _).2.2.1.trans ((after_L3_kept _).2.2.1.trans ((after_L2_kept _).2.2.1.trans (after_L1_kept V).2.2.1))

theorem after_ops_arg3 (V : Valuation τ sig (Elt F)) :
    after (ops (F := F)) V (Proc.devRef .tc main_arg3) = V (Proc.devRef .tc main_arg3) := by
  rw [ops_split, after_append, after_append, after_append]
  exact (after_H_kept _).2.2.2.1.trans ((after_L3_kept _).2.2.2.1.trans ((after_L2_kept _).2.2.2.1.trans (after_L1_kept V).2.2.2.1))

theorem after_ops_arg4 (V : Valuation τ sig (Elt F)) :
    after (ops (F := F)) V (Proc.devRef .tc main_arg4) = V (Proc.devRef .tc main_arg4) := by
  rw [ops_split, after_append, after_append, after_append]
  exact (after_H_kept _).2.2.2.2.1.trans ((after_L3_kept _).2.2.2.2.1.trans ((after_L2_kept _).2.2.2.2.1.trans (after_L1_kept V).2.2.2.2.1))

theorem after_ops_arg5 (V : Valuation τ sig (Elt F)) :
    after (ops (F := F)) V (Proc.devRef .tc main_arg5) = V (Proc.devRef .tc main_arg5) := by
  rw [ops_split, after_append, after_append, after_append]
  exact (after_H_kept _).2.2.2.2.2.1.trans ((after_L3_kept _).2.2.2.2.2.1.trans ((after_L2_kept _).2.2.2.2.2.1.trans (after_L1_kept V).2.2.2.2.2.1))

theorem after_ops_arg6 (V : Valuation τ sig (Elt F)) :
    after (ops (F := F)) V (Proc.devRef .tc main_arg6) = V (Proc.devRef .tc main_arg6) := by
  rw [ops_split, after_append, after_append, after_append]
  exact (after_H_kept _).2.2.2.2.2.2.1.trans ((after_L3_kept _).2.2.2.2.2.2.1.trans ((after_L2_kept _).2.2.2.2.2.2.1.trans (after_L1_kept V).2.2.2.2.2.2.1))

theorem after_ops_arg7 (V : Valuation τ sig (Elt F)) :
    after (ops (F := F)) V (Proc.devRef .tc main_arg7) = V (Proc.devRef .tc main_arg7) := by
  rw [ops_split, after_append, after_append, after_append]
  exact (after_H_kept _).2.2.2.2.2.2.2.trans ((after_L3_kept _).2.2.2.2.2.2.2.1.trans ((after_L2_kept _).2.2.2.2.2.2.2.1.trans (after_L1_kept V).2.2.2.2.2.2.2))

end Cert.ReferenceIdeal.Windows

end
-- ==== Proof.RefRunThm.lean ====
/-
  The reference program's run: every weakly fair execution of @main terminates with the result buffer at the result
  function of the arguments' launch contents and with the arguments unchanged. The contents after the 311 operations
  are read window by window in the module imported here; this module joins them to the program's run.
-/
import proofs.«157623_j84000970375232_2_alg».proof.Proof.RefWindows

noncomputable section

namespace Cert.ReferenceIdeal.Windows

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

set_option maxRecDepth 8192 in
set_option maxHeartbeats 124400000 in
/-- On every device, for any float values, from any memory with zero counters: every weakly fair execution of @main
    terminates with the result buffer at the result function of the arguments' launch contents, and the arguments
    unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v253) = val_main_v253 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v253).trans (after_ops_result (launchContents m c)),
      (h c main_arg0).trans (after_ops_arg0 (launchContents m c)),
      (h c main_arg1).trans (after_ops_arg1 (launchContents m c)),
      (h c main_arg2).trans (after_ops_arg2 (launchContents m c)),
      (h c main_arg3).trans (after_ops_arg3 (launchContents m c)),
      (h c main_arg4).trans (after_ops_arg4 (launchContents m c)),
      (h c main_arg5).trans (after_ops_arg5 (launchContents m c)),
      (h c main_arg6).trans (after_ops_arg6 (launchContents m c)),
      (h c main_arg7).trans (after_ops_arg7 (launchContents m c))⟩)
    (run_seq scopedRefs_eq scopedSems_eq defs main (fun _ => ops) main_eq (fun _ => ops_sub) m ρ)

end Cert.ReferenceIdeal.Windows

end
-- ==== Proof.LibGatherScatter.lean ====
/-
  Row fetches and row scatters of a nodes × features array, read at one index: which operand entry a fetched entry is,
  and which entry of the result an update entry is added to. Also: the index wrap-around for negative row numbers,
  and that one plus a count, to the power -1/2, is a non-negative real number.
-/
import proofs.«157623_j84000970375232_2_alg».proof.Proof.Spec
import Idealize.ShloMosaic.PureOps.Dims
import Idealize.ShloMosaic.PureOps.ShapeOps
import Idealize.ShloMosaic.PureOps.Ideal
import Idealize.ShloMosaic.Lib.ValueIdx

noncomputable section

namespace Cert.Gcn

open Idealize.ShloMosaic Idealize.ShloMosaic.ValueIdx

/-- the dimension numbers of a row fetch: the operand's axis 0 is indexed and collapsed, its axis 1 is copied whole -/
private abbrev rowsDims (wf : GatherDims.WF NF E1 EF [1] [0] [] [0] [] 1 ![1, 128]) : GatherDims NF E1 EF where
  offsetDims := [1]
  collapsedSliceDims := [0]
  operandBatchingDims := []
  startIndicesBatchingDims := []
  startIndexMap := [0]
  indexVectorDim := 1
  sliceSizes := ![1, 128]
  wf := wf

private theorem axis2_cases (a : Fin 2) : a = 0 ∨ a = 1 := by
  match a with
  | ⟨0, _⟩ => exact Or.inl rfl
  | ⟨1, _⟩ => exact Or.inr rfl

private theorem gatherRows_lit {α : Type} (wf : GatherDims.WF NF E1 EF [1] [0] [] [0] [] 1 ![1, 128])
    (x : NF.Idx → α) (idx : IVec E1 32) (j : EF.Idx) :
    Host.gather (rowsDims wf) x idx j = x (ix2 (rowOf (idx (ix2 (j 0) 0))) (j 1)) := by
  unfold Host.gather
  congr 1
  funext a
  refine Fin.ext ?_
  show (rowsDims wf).start j idx a + (rowsDims wf).batchCoord j a + (rowsDims wf).offCoord j a = _
  rw [GatherDims.batchCoord_eq_zero _ _ _ List.not_mem_nil]
  obtain rfl | rfl := axis2_cases a
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims wf).startIndexMap from List.mem_singleton.mpr rfl)]
    have hsi : (rowsDims wf).siIdx j ⟨List.idxOf (0 : Fin 2) (rowsDims wf).startIndexMap,
        List.idxOf_lt_length_iff.2 (List.mem_singleton.mpr rfl)⟩ = ix2 (j 0) 0 := by
      funext b; refine Fin.ext ?_
      obtain rfl | rfl := axis2_cases b
      · rfl
      · rfl
    rw [hsi]
    rfl
  · have h1 : (1 : Fin 2) ∉ (rowsDims wf).startIndexMap := by show (1 : Fin 2) ∉ [0]; decide
    have hst : (rowsDims wf).start j idx 1 = 0 := by unfold GatherDims.start; rw [dif_neg h1]
    rw [hst]
    simp only [Nat.add_zero, Nat.zero_add]
    rfl

/-- fetching rows: entry (e, q) of the result is entry (rowOf (idx e), q) of the operand -/
theorem gatherRows_apply {α : Type} (d : GatherDims NF E1 EF)
    (h1 : d.offsetDims = [1]) (h2 : d.collapsedSliceDims = [0]) (h3 : d.operandBatchingDims = []) (h4 : d.startIndicesBatchingDims = [])
    (h5 : d.startIndexMap = [0]) (h6 : d.indexVectorDim = 1) (h7 : d.sliceSizes = ![1, 128])
    (x : NF.Idx → α) (idx : IVec E1 32) (j : EF.Idx) :
    Host.gather d x idx j = x (ix2 (rowOf (idx (ix2 (j 0) 0))) (j 1)) := by
  obtain ⟨od, cd, ob, sb, sm, iv, ss, wf⟩ := d
  simp only at h1 h2 h3 h4 h5 h6 h7
  subst h1 h2 h3 h4 h5 h6 h7
  exact gatherRows_lit wf x idx j

/-- the dimension numbers of a row scatter: the operand's axis 0 is indexed, its axis 1 is the window -/
private abbrev rowsSDims (wf : ScatterDims.WF NF E1 EF [1] [0] [0] 1) : ScatterDims NF E1 EF where
  updateWindowDims := [1]
  insertedWindowDims := [0]
  scatterDimsToOperandDims := [0]
  indexVectorDim := 1
  wf := wf

private theorem scatterRows_lit (wf : ScatterDims.WF NF E1 EF [1] [0] [0] 1)
    (idx : IVec E1 32) (j : EF.Idx) (i : NF.Idx) (h : (rowsSDims wf).resultIdx? j idx = some i) :
    (idx (ix2 (j 0) 0)).toInt = ((i 0).val : ℤ) ∧ j 1 = i 1 := by
  unfold ScatterDims.resultIdx? at h
  split at h
  · rename_i hr
    have hi := Option.some.inj h
    subst hi
    have hsi : (rowsSDims wf).siIdx j ⟨List.idxOf (0 : Fin 2) (rowsSDims wf).scatterDimsToOperandDims,
        List.idxOf_lt_length_iff.2 (List.mem_singleton.mpr rfl)⟩ = ix2 (j 0) 0 := by
      funext b; refine Fin.ext ?_
      obtain rfl | rfl := axis2_cases b
      · rfl
      · rfl
    have hs0 : (rowsSDims wf).start j idx 0 = (idx (ix2 (j 0) 0)).toInt := by
      unfold ScatterDims.start
      rw [dif_pos (show (0 : Fin 2) ∈ (rowsSDims wf).scatterDimsToOperandDims from List.mem_singleton.mpr rfl), hsi]
      rfl
    have hw0 : (rowsSDims wf).window j 0 = 0 := rfl
    have hs1 : (rowsSDims wf).start j idx 1 = 0 := by
      unfold ScatterDims.start
      rw [dif_neg (show (1 : Fin 2) ∉ (rowsSDims wf).scatterDimsToOperandDims by show (1 : Fin 2) ∉ [0]; decide)]
    have hw1 : (rowsSDims wf).window j 1 = (j 1).val := rfl
    have hr0 := (hr 0).1
    rw [hs0, hw0] at hr0
    refine ⟨?_, ?_⟩
    · show _ = (((rowsSDims wf).start j idx 0 + ((rowsSDims wf).window j 0 : ℕ)).toNat : ℤ)
      rw [hs0, hw0]
      simp only [Nat.cast_zero, add_zero] at hr0 ⊢
      exact (Int.toNat_of_nonneg hr0).symm
    · refine Fin.ext ?_
      show (j 1).val = ((rowsSDims wf).start j idx 1 + ((rowsSDims wf).window j 1 : ℕ)).toNat
      rw [hs1, hw1]
      simp
  · exact absurd h (by simp)

/-- where an update row lands: update entry (e, q) lands on (r, q') only if the index of e, read signed and unclamped, is r, and q = q' -/
theorem scatterRows_lands (d : ScatterDims NF E1 EF)
    (h1 : d.updateWindowDims = [1]) (h2 : d.insertedWindowDims = [0]) (h3 : d.scatterDimsToOperandDims = [0]) (h4 : d.indexVectorDim = 1)
    (idx : IVec E1 32) (j : EF.Idx) (i : NF.Idx) (h : d.resultIdx? j idx = some i) :
    (idx (ix2 (j 0) 0)).toInt = ((i 0).val : ℤ) ∧ j 1 = i 1 := by
  obtain ⟨uw, iw, sd, iv, wf⟩ := d
  simp only at h1 h2 h3 h4
  subst h1 h2 h3 h4
  exact scatterRows_lit wf idx j i h

/-- the dimension numbers of fetching entries of a vector: the operand's one axis is indexed and collapsed -/
private abbrev vecDims (wf : GatherDims.WF Nv E1 Ev [] [0] [] [0] [] 1 ![1]) : GatherDims Nv E1 Ev where
  offsetDims := []
  collapsedSliceDims := [0]
  operandBatchingDims := []
  startIndicesBatchingDims := []
  startIndexMap := [0]
  indexVectorDim := 1
  sliceSizes := ![1]
  wf := wf

private theorem gatherVec_lit {α : Type} (wf : GatherDims.WF Nv E1 Ev [] [0] [] [0] [] 1 ![1])
    (x : Nv.Idx → α) (idx : IVec E1 32) (j : Ev.Idx) :
    Host.gather (vecDims wf) x idx j = x (ix1 (rowOf (idx (ix2 (j 0) 0)))) := by
  unfold Host.gather
  congr 1
  funext a
  obtain rfl : a = 0 := Subsingleton.elim _ _
  refine Fin.ext ?_
  show (vecDims wf).start j idx 0 + (vecDims wf).batchCoord j 0 + (vecDims wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims wf).startIndexMap from List.mem_singleton.mpr rfl)]
  have hsi : (vecDims wf).siIdx j ⟨List.idxOf (0 : Fin 1) (vecDims wf).startIndexMap,
      List.idxOf_lt_length_iff.2 (List.mem_singleton.mpr rfl)⟩ = ix2 (j 0) 0 := by
    funext b; refine Fin.ext ?_
    obtain rfl | rfl := axis2_cases b
    · rfl
    · rfl
  rw [hsi]
  rfl

/-- fetching entries of a vector -/
theorem gatherVec_apply {α : Type} (d : GatherDims Nv E1 Ev)
    (h1 : d.offsetDims = []) (h2 : d.collapsedSliceDims = [0]) (h3 : d.operandBatchingDims = []) (h4 : d.startIndicesBatchingDims = [])
    (h5 : d.startIndexMap = [0]) (h6 : d.indexVectorDim = 1) (h7 : d.sliceSizes = ![1])
    (x : Nv.Idx → α) (idx : IVec E1 32) (j : Ev.Idx) :
    Host.gather d x idx j = x (ix1 (rowOf (idx (ix2 (j 0) 0)))) := by
  obtain ⟨od, cd, ob, sb, sm, iv, ss, wf⟩ := d
  simp only at h1 h2 h3 h4 h5 h6 h7
  subst h1 h2 h3 h4 h5 h6 h7
  exact gatherVec_lit wf x idx j

/-- one plus a count of ones, to the power -1/2, is a non-negative real -/
theorem rsqrt_count_real {s si su : Shape} (d : ScatterDims s si su) {w : Nat} (idx : IVec si w) (r : s.Idx) :
    ∃ t : ℝ, 0 ≤ t ∧ Ideal.rsqrt (Ideal.hostScatterAdd d (fun _ => Ideal.ofBits .f32 0x00000000#32) idx (fun _ => Ideal.ofBits .f32 0x3F800000#32) r + Ideal.ofBits .f32 0x3F800000#32) = (t : EReal) := by
  have h1 : Ideal.ofBits .f32 0x3F800000#32 = 1 := IdealRules.sign_bit.ideal_onePat .f32
  unfold Ideal.hostScatterAdd
  rw [h1, Ideal.ofBits_zero_f32, zero_add, Finset.sum_const, nsmul_one]
  generalize (Finset.univ.filter fun j => d.resultIdx? j idx = some r).card = n
  have hc : ((n : EReal) + 1) = (((n : ℝ) + 1 : ℝ) : EReal) := by
    rw [EReal.coe_add, EReal.coe_natCast, EReal.coe_one]
  have hpos : (0 : ℝ) < (n : ℝ) + 1 := by positivity
  refine ⟨(Real.sqrt ((n : ℝ) + 1))⁻¹, inv_nonneg.mpr (Real.sqrt_nonneg _), ?_⟩
  rw [hc, Ideal.rsqrt_coe, if_neg (not_lt.mpr hpos.le), if_neg hpos.ne']

/-- a non-negative signed index that is a valid row is its own row, also after the wrap-around of negative indices -/
theorem rowOf_wrap (b : BitVec 32) (r : Fin 50000) (h : b.toInt = (r.val : ℤ)) :
    rowOf (Scalar.select (IntOp.cmpi .slt b 0#32) (IntOp.addi b 50000#32) b) = r := by
  have hslt : b.slt 0#32 = false := by
    simp [BitVec.slt, h]
  have hc : IntOp.cmpi .slt b 0#32 = 0#1 := by
    show BitVec.ofBool (b.slt 0#32) = 0#1
    rw [hslt]; rfl
  rw [hc, select_zero]
  refine Fin.ext ?_
  show min b.toInt.toNat 49999 = r.val
  rw [h, Int.toNat_natCast]
  have := r.isLt
  omega

end Cert.Gcn

end
-- ==== Proof.LayerAlgebra.lean ====
/-
  The one algebraic law that joins the two arrangements of a graph-convolution layer. For a non-negative real number t
  (a node's degree to the power -1/2) and arbitrary extended reals,

      t · ((0 + Σⱼ hⱼ·dⱼ) + h·t) + b  =  ((0 + Σⱼ (dⱼ·nⱼ)·hⱼ) + (t·t)·h) + b        whenever every nⱼ is t:

  a finite non-negative factor distributes over sums of extended reals (infinite terms included), and products of
  extended reals commute and associate.
-/
import Mathlib.Data.EReal.Operations
import Mathlib.Data.EReal.Inv
import Mathlib.Algebra.BigOperators.Group.Finset.Basic

namespace Cert.Gcn

/-- A non-negative real factor moves across a finite sum of extended reals. -/
theorem coe_nonneg_mul_sum {ι : Type} (s : Finset ι) (t : ℝ) (ht : 0 ≤ t) (f : ι → EReal) :
    (t : EReal) * ∑ j ∈ s, f j = ∑ j ∈ s, (t : EReal) * f j := by
  classical
  induction s using Finset.induction_on with
  | empty => simp
  | insert a s ha ih =>
    rw [Finset.sum_insert ha, Finset.sum_insert ha,
      EReal.left_distrib_of_nonneg_of_ne_top (by exact_mod_cast ht) (EReal.coe_ne_top t), ih]

/-- The law of the header. -/
theorem prescaled_eq_peredge {ι : Type} (s : Finset ι) (t : ℝ) (ht : 0 ≤ t) (hs ds ns : ι → EReal) (h b z : EReal)
    (hz : z = 0) (hn : ∀ j ∈ s, ns j = (t : EReal)) :
    (t : EReal) * ((z + ∑ j ∈ s, hs j * ds j) + h * (t : EReal)) + b
      = ((z + ∑ j ∈ s, (ds j * ns j) * hs j) + ((t : EReal) * (t : EReal)) * h) + b := by
  subst hz
  rw [zero_add, zero_add,
    EReal.left_distrib_of_nonneg_of_ne_top (by exact_mod_cast ht) (EReal.coe_ne_top t), coe_nonneg_mul_sum s t ht]
  congr 2
  · refine Finset.sum_congr rfl fun j hj => ?_
    rw [hn j hj, mul_comm (hs j) (ds j), ← mul_assoc, mul_comm (t : EReal) (ds j)]
  · rw [mul_comm h (t : EReal), ← mul_assoc]

end Cert.Gcn
-- ==== Proof.LayerBridge.lean ====
/-
  The two arrangements of one graph-convolution layer's pre-activation agree at every index. With t = dinv r a
  non-negative real number, the pre-scaled arrangement's value at (r, q),

      t · ((0 + Σ_{e lands on r} h(src e, q) · dinv(src e)) + h(r, q) · t) + b(q),

  equals the per-edge arrangement's

      ((0 + Σ_{e lands on r} (dinv(src e) · dinv(dst e)) · h(src e, q)) + (t · t) · h(r, q)) + b(q),

  because every edge e in the sum has dst e = r, so dinv(dst e) = t, and the non-negative real t moves across the sum.
-/
import proofs.«157623_j84000970375232_2_alg».proof.Proof.Spec
import proofs.«157623_j84000970375232_2_alg».proof.Proof.LibGatherScatter
import proofs.«157623_j84000970375232_2_alg».proof.Proof.LayerAlgebra

noncomputable section

namespace Cert.Gcn

open Idealize.ShloMosaic Idealize.ShloMosaic.ValueIdx

/-- the pre-activation of the pre-scaled arrangement is that of the per-edge arrangement, index by index -/
theorem layer_bridge
    (gd : GatherDims NF E1 EF) (g1 : gd.offsetDims = [1]) (g2 : gd.collapsedSliceDims = [0]) (g3 : gd.operandBatchingDims = []) (g4 : gd.startIndicesBatchingDims = []) (g5 : gd.startIndexMap = [0]) (g6 : gd.indexVectorDim = 1) (g7 : gd.sliceSizes = ![1, 128])
    (sd : ScatterDims NF E1 EF) (s1 : sd.updateWindowDims = [1]) (s2 : sd.insertedWindowDims = [0]) (s3 : sd.scatterDimsToOperandDims = [0]) (s4 : sd.indexVectorDim = 1)
    (x : NF.Idx → EReal) (w : FF.Idx → EReal) (dinv : Nv.Idx → EReal) (d2 : N1.Idx → EReal) (nsrcB ndstB dstB : IVec E1 32)
    (b2 : R1.Idx → EReal) (z : EReal) (hz : z = 0)
    (hd2 : ∀ r : Fin 50000, d2 (ix2 r 0) = dinv (ix1 r))
    (hdinv : ∀ r : Fin 50000, ∃ t : ℝ, 0 ≤ t ∧ dinv (ix1 r) = (t : EReal))
    (hwrap : ∀ (e : Fin 800000) (r : Fin 50000), (dstB (ix2 e 0)).toInt = (r.val : ℤ) → rowOf (ndstB (ix2 e 0)) = r)
    (i : NF.Idx) :
    preLN (Ideal.hostScatterAdd sd (fun _ => z) dstB (Host.gather gd (regMD x w d2) nsrcB)) (regMD x w d2) d2 b2 i
      = (Ideal.hostScatterAdd sd (fun _ => z) dstB
            (fun j => (dinv (ix1 (rowOf (nsrcB (ix2 (j 0) 0)))) * dinv (ix1 (rowOf (ndstB (ix2 (j 0) 0))))) * mm x w (ix2 (rowOf (nsrcB (ix2 (j 0) 0))) (j 1))) i
          + (dinv (ix1 (i 0)) * dinv (ix1 (i 0))) * mm x w i) + b2 (ix2 0 (i 1)) := by
  obtain ⟨r, q, rfl⟩ : ∃ (r : Fin 50000) (q : Fin 128), i = ix2 r q := ⟨i 0, i 1, eq_ix2 i⟩
  obtain ⟨t, ht, hdt⟩ := hdinv r
  have hd2r : d2 (ix2 r 0) = (t : EReal) := (hd2 r).trans hdt
  -- every update entry in the sum for (r, q) belongs to an edge whose destination row is r
  have hn : ∀ j ∈ Finset.univ.filter (fun j : EF.Idx => sd.resultIdx? j dstB = some (ix2 r q)),
      dinv (ix1 (rowOf (ndstB (ix2 (j 0) 0)))) = (t : EReal) := by
    intro j hj
    have hl := scatterRows_lands sd s1 s2 s3 s4 dstB j (ix2 r q) (Finset.mem_filter.mp hj).2
    rw [hwrap (j 0) r hl.1]
    exact hdt
  -- a fetched entry of the row-scaled projection
  have hsum : ∀ j : EF.Idx, Host.gather gd (regMD x w d2) nsrcB j
      = mm x w (ix2 (rowOf (nsrcB (ix2 (j 0) 0))) (j 1)) * dinv (ix1 (rowOf (nsrcB (ix2 (j 0) 0)))) := by
    intro j
    rw [gatherRows_apply gd g1 g2 g3 g4 g5 g6 g7]
    show mm x w _ * d2 (ix2 (rowOf (nsrcB (ix2 (j 0) 0))) 0) = _
    rw [hd2]
  have hhp : regMD x w d2 (ix2 r q) = mm x w (ix2 r q) * (t : EReal) := by
    show mm x w (ix2 r q) * d2 (ix2 r 0) = _
    rw [hd2r]
  show d2 (ix2 r 0) * ((z + ∑ j ∈ Finset.univ.filter (fun j : EF.Idx => sd.resultIdx? j dstB = some (ix2 r q)),
        Host.gather gd (regMD x w d2) nsrcB j) + regMD x w d2 (ix2 r q)) + b2 (ix2 0 q)
    = ((z + ∑ j ∈ Finset.univ.filter (fun j : EF.Idx => sd.resultIdx? j dstB = some (ix2 r q)),
        (dinv (ix1 (rowOf (nsrcB (ix2 (j 0) 0)))) * dinv (ix1 (rowOf (ndstB (ix2 (j 0) 0)))))
          * mm x w (ix2 (rowOf (nsrcB (ix2 (j 0) 0))) (j 1)))
        + (dinv (ix1 r) * dinv (ix1 r)) * mm x w (ix2 r q)) + b2 (ix2 0 q)
  rw [hd2r, hhp, hdt, Finset.sum_congr rfl (fun j _ => hsum j)]
  exact prescaled_eq_peredge _ t ht
    (fun j : EF.Idx => mm x w (ix2 (rowOf (nsrcB (ix2 (j 0) 0))) (j 1)))
    (fun j : EF.Idx => dinv (ix1 (rowOf (nsrcB (ix2 (j 0) 0)))))
    (fun j : EF.Idx => dinv (ix1 (rowOf (ndstB (ix2 (j 0) 0)))))
    (mm x w (ix2 r q)) (b2 (ix2 0 q)) z hz hn

end Cert.Gcn

end
-- ==== Proof.KLayer.lean ====
/-
  One layer of the kernel program's host-side terms, brought to the per-edge form.

  deg^(-1/2) is one plus a count of edges, to the power -1/2: a non-negative real number at every node; as a column it
  reads the same numbers. An index vector viewed as a column reads the same indices, and the wrap-around of negative
  indices is entry by entry. A destination index that is a valid row stays that row after the wrap-around. With these
  facts the layer's pre-activation in the pre-scaled arrangement — dinv(r) · (Σ over the edges landing on r of the scaled
  projection's fetched rows, plus the scaled projection's own row) plus the bias — is, index by index, the per-edge
  arrangement's: each edge's fetched row of the projection weighted by dinv(src) · dinv(dst), plus dinv(r)² times the
  projection's own row, plus the bias. The normalisation that follows reads the pre-activation at indices only.
-/
import proofs.«157623_j84000970375232_2_alg».proof.Proof.KDefs
import proofs.«157623_j84000970375232_2_alg».proof.Proof.LayerBridge
import proofs.«157623_j84000970375232_2_alg».proof.Proof.LibGatherScatter
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.KV

open Cert.KernelIdeal Cert.KernelIdeal.Gen Cert.Gcn
open Idealize.ShloMosaic Idealize.ShloMosaic.ValueIdx

/-- A vector of a entries viewed as an a × 1 column reads, at (p, 0), the vector's entry p. -/
theorem shapeCast_a_a1_apply {α : Type} {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- deg^(-1/2) as a column reads, at (r, 0), deg^(-1/2) of node r. -/
theorem d2K_apply (a1 : IVec S2x800000 32) (r : Fin 50000) : d2K a1 (ix2 r 0) = dinvK a1 (ix1 r) := by
  unfold d2K
  exact shapeCast_a_a1_apply (dinvK a1) _ r 0

/-- A rank-0 constant broadcast to any shape is the constant function. -/
theorem bcast_const (t : Shape) (dims : Fin S_.rank → Fin t.rank) (h : S_.BroadcastsInDim t dims) (b : BitVec 32) :
    broadcastInDim t dims h (constant (F := Ideal) S_ .f32 b) = fun _ => Ideal.ofBits .f32 b := rfl

/-- The reciprocal square root of a sum of two arrays, read at an index. -/
theorem rsqrt_addf_apply {s : Shape} (f g : FVec Ideal s .f32) (i : s.Idx) :
    Host.rsqrt (addf f g) i = Ideal.rsqrt (f i + g i) := rfl

/-- The accumulating scatter at the ideal values is the sum it denotes. -/
theorem scatterAdd_eq {s si su : Shape} (d : ScatterDims s si su) {w : Nat} (x : FVec Ideal s .f32) (idx : IVec si w)
    (upd : FVec Ideal su .f32) : Host.scatterAdd d x idx upd = Ideal.hostScatterAdd d x idx upd := rfl

/-- deg^(-1/2) of a node is a non-negative real number. -/
theorem dinvK_real (a1 : IVec S2x800000 32) (r : Fin 50000) : ∃ t : ℝ, 0 ≤ t ∧ dinvK a1 (ix1 r) = (t : EReal) := by
  have h := rsqrt_count_real scatter_S50000_S800000x1_S800000_n_0_0_1 (colK (wrapK (dstK a1))) (ix1 r)
  unfold dinvK
  rw [bcast_const, bcast_const, bcast_const, rsqrt_addf_apply, scatterAdd_eq]
  exact h

/-- An index vector viewed as a column reads, at (e, 0), the vector's entry e. -/
theorem colK_apply (v : IVec S800000 32) (e : Fin 800000) : colK v (ix2 e 0) = v (ix1 e) := by
  unfold colK
  refine broadcastInDim_apply _ _ v (ix2 e 0) (ix1 e) fun a => ?_
  match a with
  | ⟨0, _⟩ =>
    show e.val = if (800000 : ℕ) = 1 then 0 else e.val
    rw [if_neg (by decide)]

/-- The wrap-around of negative indices, entry by entry. -/
theorem wrapK_apply (v : IVec S800000 32) (e : Fin 800000) :
    wrapK v (ix1 e) = Scalar.select (IntOp.cmpi .slt (v (ix1 e)) 0#32) (IntOp.addi (v (ix1 e)) 50000#32) (v (ix1 e)) := rfl

/-- A destination index that is the valid row r selects row r after the wrap-around. -/
theorem wrap_lands (a1 : IVec S2x800000 32) (e : Fin 800000) (r : Fin 50000)
    (h : (colK (dstK a1) (ix2 e 0)).toInt = (r.val : ℤ)) : rowOf (colK (wrapK (dstK a1)) (ix2 e 0)) = r := by
  rw [colK_apply] at h
  rw [colK_apply, wrapK_apply]
  exact rowOf_wrap _ r h

/-- The pre-activation of the per-edge arrangement: over the edges landing on row r, the fetched row of x·w weighted by
    dinv(src) · dinv(dst), summed; plus dinv(r)² · (x·w)(r, q); plus b(q). -/
def preEK (x : FVec Ideal S50000x128 .f32) (w : FVec Ideal S128x128 .f32) (a1 : IVec S2x800000 32) (b : FVec Ideal S1x128 .f32)
    (i : S50000x128.Idx) : EReal :=
  (Ideal.hostScatterAdd scatter_S50000x128_S800000x1_S800000x128_1_0_0_1 (fun _ => Ideal.ofBits .f32 0x00000000#32) (colK (dstK a1))
      (fun j => (dinvK a1 (ix1 (rowOf (colK (wrapK (srcK a1)) (ix2 (j 0) 0)))) * dinvK a1 (ix1 (rowOf (colK (wrapK (dstK a1)) (ix2 (j 0) 0)))))
        * mm x w (ix2 (rowOf (colK (wrapK (srcK a1)) (ix2 (j 0) 0))) (j 1))) i
    + (dinvK a1 (ix1 (i 0)) * dinvK a1 (ix1 (i 0))) * mm x w i) + b (ix2 0 (i 1))

/-- One layer is the normalisation of the per-edge pre-activation. -/
theorem layerK_eq (x : FVec Ideal S50000x128 .f32) (a1 : IVec S2x800000 32) (w : FVec Ideal S128x128 .f32)
    (b g be : FVec Ideal S1x128 .f32) :
    layerK x a1 w b g be = lnrelu (preEK x w a1 b) (fun q => g (ix2 0 q)) (fun q => be (ix2 0 q)) := by
  unfold layerK regLN
  refine congrArg (fun pre => lnrelu pre (fun q => g (ix2 0 q)) (fun q => be (ix2 0 q))) (funext fun i => ?_)
  unfold preEK aggK
  exact layer_bridge gather_S50000x128_S800000x1_S800000x128_1_0_n_n_0_1_1128 rfl rfl rfl rfl rfl rfl rfl
    scatter_S50000x128_S800000x1_S800000x128_1_0_0_1 rfl rfl rfl rfl x w (dinvK a1) (d2K a1)
    (colK (wrapK (srcK a1))) (colK (wrapK (dstK a1))) (colK (dstK a1)) b _ Ideal.ofBits_zero_f32
    (d2K_apply a1) (dinvK_real a1) (wrap_lands a1) i

end Cert.KernelIdeal.KV

end
-- ==== Proof.HeadValue.lean ====
/-
  The head, read entry by entry at the ideal values.

  The 128 × 40 weight is padded on the right with 88 columns of a constant to 128 × 128, and the bias of 40 entries is
  padded with 88 entries of the same constant to 128 and viewed as one row. The head is the product of the 50000 × 128
  input with the padded weight plus the padded bias row, cut back to its first 40 columns. A column q < 40 lies inside
  the unpadded part, so the padded weight's column q is the weight's column q and the padded bias at q is the bias at
  q: the padding constant never enters. Entry (r, q) of the head is therefore (∑ k, x(r, k) · a6(k, q)) + a7(q).
-/
import proofs.«157623_j84000970375232_2_alg».proof.Proof.KDefs
import Idealize.ShloMosaic.Lib.KernelVsHost
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.KV

open Cert.KernelIdeal Cert.KernelIdeal.Gen Cert.Gcn
open Idealize.ShloMosaic Idealize.ShloMosaic.ValueIdx

/-- Column q < 40 of the padded weight is column q of the weight. -/
theorem wpadK_apply (a6 : FVec Ideal S128x40 .f32) (k : Fin 128) (q : Fin 40) (q' : Fin 128) (hq : q'.val = q.val) :
    wpadK a6 (ix2 k q') = a6 (ix2 k q) := by
  unfold wpadK
  refine pad_apply_of_inside _ _ _ a6 _ _ _ (ix2 k q') (ix2 k q) fun a => ?_
  match a with
  | ⟨0, _⟩ => show k.val = 0 + k.val * (0 + 1); omega
  | ⟨1, _⟩ => show q'.val = 0 + q.val * (0 + 1); omega

/-- Entry q < 40 of the padded bias row is entry q of the bias. -/
theorem bpadK_apply (a7 : FVec Ideal S40 .f32) (u : Fin 1) (q : Fin 40) (q' : Fin 128) (hq : q'.val = q.val) :
    bpadK a7 (ix2 u q') = a7 (ix1 q) := by
  unfold bpadK
  refine (shapeCast_a_1a_apply _ _ u q').trans ?_
  refine pad_apply_of_inside _ _ _ a7 _ _ _ (ix1 q') (ix1 q) fun a => ?_
  match a with
  | ⟨0, _⟩ => show q'.val = 0 + q.val * (0 + 1); omega

/-- Entry (r, q) of the head: (∑ k, x(r, k) · a6(k, q)) + a7(q). -/
theorem headK_apply (x : FVec Ideal S50000x128 .f32) (a6 : FVec Ideal S128x40 .f32) (a7 : FVec Ideal S40 .f32) (i : S50000x40.Idx) :
    headK x a6 a7 i = (∑ k : Fin 128, x (ix2 (i 0) k) * a6 (ix2 k (i 1))) + a7 (ix1 (i 1)) := by
  obtain ⟨p, q, rfl⟩ : ∃ (p : Fin 50000) (q : Fin 40), i = ix2 p q := ⟨i 0, i 1, eq_ix2 i⟩
  have hq : q.val < 128 := by have := q.isLt; omega
  show headK x a6 a7 (ix2 p q) = (∑ k : Fin 128, x (ix2 p k) * a6 (ix2 k q)) + a7 (ix1 q)
  unfold headK
  refine (extractStridedSlice_apply _ _ _ (ix2 p q) (ix2 p (⟨q.val, hq⟩ : Fin 128)) fun a => ?_).trans ?_
  · match a with
    | ⟨0, _⟩ => show p.val = 0 + p.val; omega
    | ⟨1, _⟩ => show q.val = 0 + q.val; omega
  · show (∑ k : Fin 128, x (ix2 p k) * wpadK a6 (ix2 k (⟨q.val, hq⟩ : Fin 128))) + bpadK a7 (ix2 0 (⟨q.val, hq⟩ : Fin 128)) = _
    refine congrArg₂ (· + ·) (Finset.sum_congr rfl fun k _ => ?_) (bpadK_apply a7 0 q _ rfl)
    exact congrArg (x (ix2 p k) * ·) (wpadK_apply a6 k q _ rfl)

end Cert.KernelIdeal.KV

end
-- ==== Proof.KParams.lean ====
/-
  Layer l's weight matrix is slab l of the 3 × 128 × 128 parameter array, and layer l's bias, scale and shift rows are
  row l of the 3 × 128 parameter arrays: the slices and reshapes that select them, read index by index.
-/
import proofs.«157623_j84000970375232_2_alg».proof.Proof.KDefs
import Idealize.ShloMosaic.Lib.Pipeline.Value
import Idealize.ShloMosaic.Lib.ValueLayout
import Idealize.ShloMosaic.Lib.ValueIdx

noncomputable section

namespace Cert.KernelIdeal.KV

open Cert.KernelIdeal Cert.KernelIdeal.Gen Cert.Gcn
open Idealize.ShloMosaic Idealize.ShloMosaic.ValueIdx

/-- Entry (k, q) of slab l of a 3 × 128 × 128 array, the slab taken as a 1 × 128 × 128 slice and its unit axis dropped. -/
theorem slab_apply (l : Fin 3) (a2 : FVec Ideal S3x128x128 .f32) (h : S3x128x128.Slices ![l.val, 0, 0] S1x128x128)
    (hc : S1x128x128.ShapeCasts S128x128) (k q : Fin 128) :
    shapeCast S128x128 (extractStridedSlice S1x128x128 ![l.val, 0, 0] a2 h) hc (ix2 k q) = a2 (ix3 l k q) := by
  refine (shapeCast_dropUnit_apply ![128, 128] _ hc (ix2 k q)).trans ?_
  refine extractStridedSlice_apply _ a2 h _ (ix3 l k q) fun a => ?_
  match a with
  | ⟨0, _⟩ => show l.val = l.val + 0; omega
  | ⟨1, _⟩ => show k.val = 0 + k.val; omega
  | ⟨2, _⟩ => show q.val = 0 + q.val; omega

theorem w0K_apply (a2 : FVec Ideal S3x128x128 .f32) (k q : Fin 128) : w0K a2 (ix2 k q) = a2 (ix3 0 k q) :=
  slab_apply 0 a2 _ _ k q
theorem w1K_apply (a2 : FVec Ideal S3x128x128 .f32) (k q : Fin 128) : w1K a2 (ix2 k q) = a2 (ix3 1 k q) :=
  slab_apply 1 a2 _ _ k q
theorem w2K_apply (a2 : FVec Ideal S3x128x128 .f32) (k q : Fin 128) : w2K a2 (ix2 k q) = a2 (ix3 2 k q) :=
  slab_apply 2 a2 _ _ k q

/-- Entry q of row l of a 3 × 128 array, the row taken as a 1 × 128 slice, flattened to 128 entries and given back its
    unit axis. -/
theorem row_apply (l : Fin 3) (a : FVec Ideal S3x128 .f32) (h : S3x128.Slices ![l.val, 0] S1x128)
    (hd : S1x128.ShapeCasts S128) (hu : S128.ShapeCasts S1x128) (q : Fin 128) :
    shapeCast S1x128 (shapeCast S128 (extractStridedSlice S1x128 ![l.val, 0] a h) hd) hu (ix2 0 q) = a (ix2 l q) := by
  refine (shapeCast_addUnit_apply ![128] _ hu (ix2 0 q)).trans ?_
  refine (shapeCast_dropUnit_apply ![128] _ hd _).trans ?_
  refine extractStridedSlice_apply _ a h _ (ix2 l q) fun a => ?_
  match a with
  | ⟨0, _⟩ => show l.val = l.val + 0; omega
  | ⟨1, _⟩ => show q.val = 0 + q.val; omega

theorem row0K_apply (a : FVec Ideal S3x128 .f32) (q : Fin 128) : row0K a (ix2 0 q) = a (ix2 0 q) :=
  row_apply 0 a _ _ _ q
theorem row1K_apply (a : FVec Ideal S3x128 .f32) (q : Fin 128) : row1K a (ix2 0 q) = a (ix2 1 q) :=
  row_apply 1 a _ _ _ q
theorem row2K_apply (a : FVec Ideal S3x128 .f32) (q : Fin 128) : row2K a (ix2 0 q) = a (ix2 2 q) :=
  row_apply 2 a _ _ _ q

end Cert.KernelIdeal.KV

end
-- ==== Proof.RefValue.lean ====
/-
  The reference program's result, read index by index.

  The reference applies three graph-convolution layers and then a linear head. Each layer forms the matrix product of
  its input with the layer's weight matrix, adds over the edges landing on a row the product's source row weighted by
  dinv[src]·dinv[dst], adds dinv[row]² times the product's own row and the bias, normalises each row to mean zero and
  variance one, scales and shifts by per-column vectors and clamps at zero from below. The degree vector and the
  wrapped edge indices are recomputed by every layer from the same edge list by the same operations, so they are named
  once here. The edge sum is left as the closed scatter term.
-/
import proofs.«157623_j84000970375232_2_alg».proof.Proof.RefRead
import proofs.«157623_j84000970375232_2_alg».proof.Proof.Spec
import proofs.«157623_j84000970375232_2_alg».proof.Proof.LibGatherScatter

noncomputable section

namespace Cert.ReferenceIdeal.RefValue

open Cert.Gcn Idealize.ShloMosaic Idealize.ShloMosaic.ValueIdx Cert.ReferenceIdeal Cert.ReferenceIdeal.Read

abbrev T0 : Type := (⟨S50000x128, .f32⟩ : BufTy).Contents (Elt Ideal)
abbrev T1 : Type := (⟨S2x800000, .i32⟩ : BufTy).Contents (Elt Ideal)
abbrev T2 : Type := (⟨S3x128x128, .f32⟩ : BufTy).Contents (Elt Ideal)
abbrev T3 : Type := (⟨S3x128, .f32⟩ : BufTy).Contents (Elt Ideal)

/-! ## The index preparation, named once -/

/-- deg^(-1/2) per node, where deg is one plus the number of edges landing on the node. -/
def dinvT (a1 : T1) : S50000.Idx → EReal := val_main_v20 (F := Ideal) a1
/-- The edges' source rows (a negative number wrapped around by adding the number of nodes), as a column. -/
def nsrcT (a1 : T1) : IVec S800000x1 32 := val_main_v26 (F := Ideal) a1
/-- The edges' destination rows, wrapped the same way, as a column. -/
def ndstT (a1 : T1) : IVec S800000x1 32 := val_main_v33 (F := Ideal) a1
/-- The edges' destination rows as given, as a column. -/
def dstT (a1 : T1) : IVec S800000x1 32 := val_main_v47 (F := Ideal) a1

/-! Every later copy is the same function of the edge list. -/
theorem dinvT_v20 (a1 : T1) : val_main_v20 (F := Ideal) a1 = dinvT a1 := rfl
theorem dinvT_v102 (a1 : T1) : val_main_v102 (F := Ideal) a1 = dinvT a1 := rfl
theorem dinvT_v184 (a1 : T1) : val_main_v184 (F := Ideal) a1 = dinvT a1 := rfl
theorem nsrcT_v26 (a1 : T1) : val_main_v26 (F := Ideal) a1 = nsrcT a1 := rfl
theorem nsrcT_v42 (a1 : T1) : val_main_v42 (F := Ideal) a1 = nsrcT a1 := rfl
theorem nsrcT_v108 (a1 : T1) : val_main_v108 (F := Ideal) a1 = nsrcT a1 := rfl
theorem nsrcT_v124 (a1 : T1) : val_main_v124 (F := Ideal) a1 = nsrcT a1 := rfl
theorem nsrcT_v190 (a1 : T1) : val_main_v190 (F := Ideal) a1 = nsrcT a1 := rfl
theorem nsrcT_v206 (a1 : T1) : val_main_v206 (F := Ideal) a1 = nsrcT a1 := rfl
theorem ndstT_v33 (a1 : T1) : val_main_v33 (F := Ideal) a1 = ndstT a1 := rfl
theorem ndstT_v115 (a1 : T1) : val_main_v115 (F := Ideal) a1 = ndstT a1 := rfl
theorem ndstT_v197 (a1 : T1) : val_main_v197 (F := Ideal) a1 = ndstT a1 := rfl
theorem dstT_v47 (a1 : T1) : val_main_v47 (F := Ideal) a1 = dstT a1 := rfl
theorem dstT_v129 (a1 : T1) : val_main_v129 (F := Ideal) a1 = dstT a1 := rfl
theorem dstT_v211 (a1 : T1) : val_main_v211 (F := Ideal) a1 = dstT a1 := rfl

/-! ## One layer, index by index -/

/-- The pre-activation of the per-edge arrangement at (r, q): the sum over the edges landing on r of
    dinv[src]·dinv[dst]·(x·w)[src, q], plus dinv[r]²·(x·w)[r, q], plus the bias b[q]. -/
def preR (x : NF.Idx → EReal) (w : FF.Idx → EReal) (a1 : T1) (bv : Fin 128 → EReal) (i : NF.Idx) : EReal :=
  (Ideal.hostScatterAdd scatter_S50000x128_S800000x1_S800000x128_1_0_0_1 (fun _ => czero) (dstT a1)
      (fun j => (dinvT a1 (ix1 (rowOf (nsrcT a1 (ix2 (j 0) 0)))) * dinvT a1 (ix1 (rowOf (ndstT a1 (ix2 (j 0) 0)))))
        * mm x w (ix2 (rowOf (nsrcT a1 (ix2 (j 0) 0))) (j 1))) i
    + (dinvT a1 (ix1 (i 0)) * dinvT a1 (ix1 (i 0))) * mm x w i) + bv (i 1)

/-- One layer: the pre-activation normalised row by row, scaled, shifted and clamped at zero. -/
def layerR (x : NF.Idx → EReal) (w : FF.Idx → EReal) (a1 : T1) (bv gv bev : Fin 128 → EReal) : NF.Idx → EReal :=
  lnrelu (preR x w a1 bv) gv bev

/-- Layer l's weight matrix. -/
def W (a2 : T2) (l : Fin 3) : FF.Idx → EReal := fun j => a2 (ix3 l (j 0) (j 1))
/-- Row l of a 3 × 128 parameter array. -/
def rowv (a : T3) (l : Fin 3) : Fin 128 → EReal := fun q => a (ix2 l q)

/-- The three layers' outputs as functions of the arguments. -/
def L1 (a0 : T0) (a1 : T1) (a2 : T2) (a3 a4 a5 : T3) : NF.Idx → EReal :=
  layerR a0 (W a2 0) a1 (rowv a3 0) (rowv a4 0) (rowv a5 0)
def L2 (a0 : T0) (a1 : T1) (a2 : T2) (a3 a4 a5 : T3) : NF.Idx → EReal :=
  layerR (L1 a0 a1 a2 a3 a4 a5) (W a2 1) a1 (rowv a3 1) (rowv a4 1) (rowv a5 1)
def L3 (a0 : T0) (a1 : T1) (a2 : T2) (a3 a4 a5 : T3) : NF.Idx → EReal :=
  layerR (L2 a0 a1 a2 a3 a4 a5) (W a2 2) a1 (rowv a3 2) (rowv a4 2) (rowv a5 2)

/-- The normalisation of one entry from the row's mean and variance, over arbitrary arrays. -/
theorem lnrelu_eq (P : NF.Idx → EReal) (g be : Fin 128 → EReal) (r : Fin 50000) (q : Fin 128) (m v gq bq : EReal)
    (hm : m = rowMean (fun k => P (ix2 r k))) (hv : v = rowVar (fun k => P (ix2 r k)))
    (hg : gq = g q) (hb : bq = be q) :
    max (((P (ix2 r q) - m) * Ideal.rsqrt (v + ceps)) * gq + bq) czero = lnrelu P g be (ix2 r q) := by
  subst hm hv hg hb
  rfl

/-! ## Layer 1 -/

/-- The layer's projection is the matrix product of the layer's input with the layer's weight matrix. -/
theorem mm1 (a0 : T0) (a1 : T1) (a2 : T2) (a3 a4 a5 : T3) (i : NF.Idx) :
    val_main_v8 (F := Ideal) a0 a2 i = mm (a0) (W a2 0) i := by
  rw [val_main_v8_apply]
  unfold mm
  refine Finset.sum_congr rfl (fun k _ => ?_)
  rw [val_main_v5_apply, val_main_v4_apply]
  have e1 : lidx_main_v8 i k = ix2 (i 0) k := by
    funext a; match a with | ⟨0, _⟩ => rfl | ⟨1, _⟩ => rfl
  have e2 : idx_main_v4 (idx_main_v5 (ridx_main_v8 i k)) = ix3 (0 : Fin 3) k (i 1) := by
    funext a
    match a with
    | ⟨0, _⟩ => rfl
    | ⟨1, _⟩ =>
      refine Fin.ext ?_
      have h1 := k.isLt
      have h2 := idx2_lt1 i
      show (k.val * 128 + (i 1).val) / 128 % 128 = k.val
      omega
    | ⟨2, _⟩ =>
      refine Fin.ext ?_
      have h1 := k.isLt
      have h2 := idx2_lt1 i
      show (k.val * 128 + (i 1).val) % 128 = (i 1).val
      omega
  rw [e1, e2]
  rfl

/-- The layer's pre-activation: the edge sum, the self term and the bias. -/
theorem pre1 (a0 : T0) (a1 : T1) (a2 : T2) (a3 a4 a5 : T3) (i : NF.Idx) :
    val_main_v56 (F := Ideal) a0 a1 a2 a3 i = preR (a0) (W a2 0) a1 (rowv a3 0) i := by
  have h46 : val_main_v46 (F := Ideal) = fun _ => czero := by
    funext j
    rw [val_main_v46_apply, val_main_cst_9_apply]
    rfl
  have h45 : val_main_v45 (F := Ideal) a0 a1 a2 = fun j =>
      (dinvT a1 (ix1 (rowOf (nsrcT a1 (ix2 (j 0) 0)))) * dinvT a1 (ix1 (rowOf (ndstT a1 (ix2 (j 0) 0)))))
        * mm (a0) (W a2 0) (ix2 (rowOf (nsrcT a1 (ix2 (j 0) 0))) (j 1)) := by
    funext j
    rw [val_main_v45_apply, val_main_v44_apply, val_main_v36_apply, val_main_v35_apply]
    unfold val_main_v27 val_main_v34 val_main_v43
    rw [gatherVec_apply _ rfl rfl rfl rfl rfl rfl rfl, gatherVec_apply _ rfl rfl rfl rfl rfl rfl rfl,
      gatherRows_apply _ rfl rfl rfl rfl rfl rfl rfl, mm1 a0 a1 a2 a3 a4 a5]
    rw [show val_main_v20 (F := Ideal) a1 = dinvT a1 from rfl, show val_main_v26 (F := Ideal) a1 = nsrcT a1 from rfl,
      show val_main_v33 (F := Ideal) a1 = ndstT a1 from rfl, show val_main_v42 (F := Ideal) a1 = nsrcT a1 from rfl,
      show idx_main_v36 (idx_main_v44 j) 0 = j 0 from rfl]
    rfl
  rw [val_main_v56_apply, val_main_v53_apply, val_main_v52_apply, val_main_v51_apply, val_main_v50_apply,
    val_main_v49_apply, val_main_v55_apply, val_main_v54_apply, val_main_v7_apply, val_main_v6_apply,
    mm1 a0 a1 a2 a3 a4 a5]
  rw [show val_main_v48 (F := Ideal) a0 a1 a2 = Ideal.hostScatterAdd scatter_S50000x128_S800000x1_S800000x128_1_0_0_1
      (val_main_v46 (F := Ideal)) (val_main_v47 (F := Ideal) a1) (val_main_v45 (F := Ideal) a0 a1 a2) from rfl]
  rw [h46, h45]
  have e3 : idx_main_v50 (idx_main_v51 i) = ix1 (i 0) := by
    funext a; match a with | ⟨0, _⟩ => rfl
  have e4 : idx_main_v6 (idx_main_v7 (idx_main_v54 (idx_main_v55 i))) = ix2 (0 : Fin 3) (i 1) := by
    funext a
    match a with
    | ⟨0, _⟩ => rfl
    | ⟨1, _⟩ => exact Fin.ext (Nat.mod_eq_of_lt (idx2_lt1 i))
  rw [e3, e4, show val_main_v20 (F := Ideal) a1 = dinvT a1 from rfl, show val_main_v47 (F := Ideal) a1 = dstT a1 from rfl]
  unfold preR rowv
  rfl

/-- The mean of row r of the pre-activation. -/
theorem mean1 (a0 : T0) (a1 : T1) (a2 : T2) (a3 a4 a5 : T3) (j : S50000x1.Idx) (r : Fin 50000) (hr : j 0 = r) :
    val_main_v64 (F := Ideal) a0 a1 a2 a3 j = rowMean (fun k => val_main_v56 (F := Ideal) a0 a1 a2 a3 (ix2 r k)) := by
  rw [val_main_v64_apply, val_main_v62_apply, val_main_v61_apply, val_main_v63_apply, val_main_cst_10_apply,
    val_main_cst_11_apply]
  have e : ∀ k : Fin 128, idx_main_v61 (idx_main_v62 j) k = ix2 r k := fun k => by
    funext a; match a with | ⟨0, _⟩ => exact hr | ⟨1, _⟩ => rfl
  simp only [Ideal.hostDivf_def, Ideal.ofBits_def, Ideal.ofBits_zero_f32, zero_add]
  refine congrArg (fun s => Ideal.div s c128) (Finset.sum_congr rfl (fun k _ => ?_))
  rw [e k]

/-- The variance of row r of the pre-activation. -/
theorem var1 (a0 : T0) (a1 : T1) (a2 : T2) (a3 a4 a5 : T3) (j : S50000x1.Idx) (r : Fin 50000) (hr : j 0 = r) :
    val_main_v71 (F := Ideal) a0 a1 a2 a3 j = rowVar (fun k => val_main_v56 (F := Ideal) a0 a1 a2 a3 (ix2 r k)) := by
  rw [val_main_v71_apply, val_main_v69_apply, val_main_v68_apply, val_main_v70_apply, val_main_cst_12_apply,
    val_main_cst_13_apply]
  have e : ∀ k : Fin 128, idx_main_v68 (idx_main_v69 j) k = ix2 r k := fun k => by
    funext a; match a with | ⟨0, _⟩ => exact hr | ⟨1, _⟩ => rfl
  simp only [Ideal.hostDivf_def, Ideal.ofBits_def, Ideal.ofBits_zero_f32, zero_add]
  refine congrArg (fun s => Ideal.div s c128) (Finset.sum_congr rfl (fun k _ => ?_))
  rw [e k, val_main_v67_apply, val_main_v66_apply, val_main_v65_apply,
    mean1 a0 a1 a2 a3 a4 a5 _ r rfl]
  rfl

/-- The layer's output: the pre-activation normalised row by row, scaled, shifted and clamped at zero. -/
theorem layer1_read (a0 : T0) (a1 : T1) (a2 : T2) (a3 a4 a5 : T3) (i : NF.Idx) :
    val_main_v85 (F := Ideal) a0 a1 a2 a3 a4 a5 i = L1 a0 a1 a2 a3 a4 a5 i := by
  obtain ⟨p, q, rfl⟩ : ∃ (p : Fin 50000) (q : Fin 128), i = ix2 p q := ⟨i 0, i 1, eq_ix2 i⟩
  rw [val_main_v85_apply, val_main_v84_apply, val_main_v81_apply, val_main_v78_apply, val_main_v73_apply,
    val_main_v72_apply, val_main_v77_apply, val_main_v76_apply, val_main_v75_apply, val_main_v74_apply,
    val_main_cst_14_apply, val_main_v80_apply, val_main_v79_apply, val_main_v58_apply, val_main_v57_apply,
    val_main_v83_apply, val_main_v82_apply, val_main_v60_apply, val_main_v59_apply, val_main_call0_v0_apply,
    val_main_call0_cst_apply]
  have e6 : idx_main_v57 (idx_main_v58 (idx_main_v79 (idx_main_v80 (ix2 p q)))) = ix2 (0 : Fin 3) q := by
    funext a
    match a with
    | ⟨0, _⟩ => rfl
    | ⟨1, _⟩ => exact Fin.ext (Nat.mod_eq_of_lt q.isLt)
  have e7 : idx_main_v59 (idx_main_v60 (idx_main_v82 (idx_main_v83 (ix2 p q)))) = ix2 (0 : Fin 3) q := by
    funext a
    match a with
    | ⟨0, _⟩ => rfl
    | ⟨1, _⟩ => exact Fin.ext (Nat.mod_eq_of_lt q.isLt)
  rw [e6, e7]
  simp only [Ideal.maximumf_def, Ideal.addf_def, Ideal.mulf_def, Ideal.subf_def, Ideal.hostUnary_rsqrt_def,
    Ideal.ofBits_def]
  refine (lnrelu_eq (val_main_v56 (F := Ideal) a0 a1 a2 a3) (rowv a4 0) (rowv a5 0) p q _ _ _ _
    (mean1 a0 a1 a2 a3 a4 a5 _ p rfl) (var1 a0 a1 a2 a3 a4 a5 _ p rfl) rfl rfl).trans ?_
  exact congrArg (fun P => lnrelu P (rowv a4 0) (rowv a5 0) (ix2 p q)) (funext (pre1 a0 a1 a2 a3 a4 a5))

/-! ## Layer 2 -/

/-- The layer's projection is the matrix product of the layer's input with the layer's weight matrix. -/
theorem mm2 (a0 : T0) (a1 : T1) (a2 : T2) (a3 a4 a5 : T3) (i : NF.Idx) :
    val_main_v90 (F := Ideal) a0 a1 a2 a3 a4 a5 i = mm (L1 a0 a1 a2 a3 a4 a5) (W a2 1) i := by
  rw [val_main_v90_apply]
  unfold mm
  refine Finset.sum_congr rfl (fun k _ => ?_)
  rw [val_main_v87_apply, val_main_v86_apply]
  have e1 : lidx_main_v90 i k = ix2 (i 0) k := by
    funext a; match a with | ⟨0, _⟩ => rfl | ⟨1, _⟩ => rfl
  have e2 : idx_main_v86 (idx_main_v87 (ridx_main_v90 i k)) = ix3 (1 : Fin 3) k (i 1) := by
    funext a
    match a with
    | ⟨0, _⟩ => rfl
    | ⟨1, _⟩ =>
      refine Fin.ext ?_
      have h1 := k.isLt
      have h2 := idx2_lt1 i
      show (k.val * 128 + (i 1).val) / 128 % 128 = k.val
      omega
    | ⟨2, _⟩ =>
      refine Fin.ext ?_
      have h1 := k.isLt
      have h2 := idx2_lt1 i
      show (k.val * 128 + (i 1).val) % 128 = (i 1).val
      omega
  rw [e1, e2]
  exact congrArg (fun t => t * a2 (ix3 (1 : Fin 3) k (i 1))) (layer1_read a0 a1 a2 a3 a4 a5 (ix2 (i 0) k))

/-- The layer's pre-activation: the edge sum, the self term and the bias. -/
theorem pre2 (a0 : T0) (a1 : T1) (a2 : T2) (a3 a4 a5 : T3) (i : NF.Idx) :
    val_main_v138 (F := Ideal) a0 a1 a2 a3 a4 a5 i = preR (L1 a0 a1 a2 a3 a4 a5) (W a2 1) a1 (rowv a3 1) i := by
  have h46 : val_main_v128 (F := Ideal) = fun _ => czero := by
    funext j
    rw [val_main_v128_apply, val_main_cst_26_apply]
    rfl
  have h45 : val_main_v127 (F := Ideal) a0 a1 a2 a3 a4 a5 = fun j =>
      (dinvT a1 (ix1 (rowOf (nsrcT a1 (ix2 (j 0) 0)))) * dinvT a1 (ix1 (rowOf (ndstT a1 (ix2 (j 0) 0)))))
        * mm (L1 a0 a1 a2 a3 a4 a5) (W a2 1) (ix2 (rowOf (nsrcT a1 (ix2 (j 0) 0))) (j 1)) := by
    funext j
    rw [val_main_v127_apply, val_main_v126_apply, val_main_v118_apply, val_main_v117_apply]
    unfold val_main_v109 val_main_v116 val_main_v125
    rw [gatherVec_apply _ rfl rfl rfl rfl rfl rfl rfl, gatherVec_apply _ rfl rfl rfl rfl rfl rfl rfl,
      gatherRows_apply _ rfl rfl rfl rfl rfl rfl rfl, mm2 a0 a1 a2 a3 a4 a5]
    rw [show val_main_v102 (F := Ideal) a1 = dinvT a1 from rfl, show val_main_v108 (F := Ideal) a1 = nsrcT a1 from rfl,
      show val_main_v115 (F := Ideal) a1 = ndstT a1 from rfl, show val_main_v124 (F := Ideal) a1 = nsrcT a1 from rfl,
      show idx_main_v118 (idx_main_v126 j) 0 = j 0 from rfl]
    rfl
  rw [val_main_v138_apply, val_main_v135_apply, val_main_v134_apply, val_main_v133_apply, val_main_v132_apply,
    val_main_v131_apply, val_main_v137_apply, val_main_v136_apply, val_main_v89_apply, val_main_v88_apply,
    mm2 a0 a1 a2 a3 a4 a5]
  rw [show val_main_v130 (F := Ideal) a0 a1 a2 a3 a4 a5 = Ideal.hostScatterAdd scatter_S50000x128_S800000x1_S800000x128_1_0_0_1
      (val_main_v128 (F := Ideal)) (val_main_v129 (F := Ideal) a1) (val_main_v127 (F := Ideal) a0 a1 a2 a3 a4 a5) from rfl]
  rw [h46, h45]
  have e3 : idx_main_v132 (idx_main_v133 i) = ix1 (i 0) := by
    funext a; match a with | ⟨0, _⟩ => rfl
  have e4 : idx_main_v88 (idx_main_v89 (idx_main_v136 (idx_main_v137 i))) = ix2 (1 : Fin 3) (i 1) := by
    funext a
    match a with
    | ⟨0, _⟩ => rfl
    | ⟨1, _⟩ => exact Fin.ext (Nat.mod_eq_of_lt (idx2_lt1 i))
  rw [e3, e4, show val_main_v102 (F := Ideal) a1 = dinvT a1 from rfl, show val_main_v129 (F := Ideal) a1 = dstT a1 from rfl]
  unfold preR rowv
  rfl

/-- The mean of row r of the pre-activation. -/
theorem mean2 (a0 : T0) (a1 : T1) (a2 : T2) (a3 a4 a5 : T3) (j : S50000x1.Idx) (r : Fin 50000) (hr : j 0 = r) :
    val_main_v146 (F := Ideal) a0 a1 a2 a3 a4 a5 j = rowMean (fun k => val_main_v138 (F := Ideal) a0 a1 a2 a3 a4 a5 (ix2 r k)) := by
  rw [val_main_v146_apply, val_main_v144_apply, val_main_v143_apply, val_main_v145_apply, val_main_cst_27_apply,
    val_main_cst_28_apply]
  have e : ∀ k : Fin 128, idx_main_v143 (idx_main_v144 j) k = ix2 r k := fun k => by
    funext a; match a with | ⟨0, _⟩ => exact hr | ⟨1, _⟩ => rfl
  simp only [Ideal.hostDivf_def, Ideal.ofBits_def, Ideal.ofBits_zero_f32, zero_add]
  refine congrArg (fun s => Ideal.div s c128) (Finset.sum_congr rfl (fun k _ => ?_))
  rw [e k]

/-- The variance of row r of the pre-activation. -/
theorem var2 (a0 : T0) (a1 : T1) (a2 : T2) (a3 a4 a5 : T3) (j : S50000x1.Idx) (r : Fin 50000) (hr : j 0 = r) :
    val_main_v153 (F := Ideal) a0 a1 a2 a3 a4 a5 j = rowVar (fun k => val_main_v138 (F := Ideal) a0 a1 a2 a3 a4 a5 (ix2 r k)) := by
  rw [val_main_v153_apply, val_main_v151_apply, val_main_v150_apply, val_main_v152_apply, val_main_cst_29_apply,
    val_main_cst_30_apply]
  have e : ∀ k : Fin 128, idx_main_v150 (idx_main_v151 j) k = ix2 r k := fun k => by
    funext a; match a with | ⟨0, _⟩ => exact hr | ⟨1, _⟩ => rfl
  simp only [Ideal.hostDivf_def, Ideal.ofBits_def, Ideal.ofBits_zero_f32, zero_add]
  refine congrArg (fun s => Ideal.div s c128) (Finset.sum_congr rfl (fun k _ => ?_))
  rw [e k, val_main_v149_apply, val_main_v148_apply, val_main_v147_apply,
    mean2 a0 a1 a2 a3 a4 a5 _ r rfl]
  rfl

/-- The layer's output: the pre-activation normalised row by row, scaled, shifted and clamped at zero. -/
theorem layer2_read (a0 : T0) (a1 : T1) (a2 : T2) (a3 a4 a5 : T3) (i : NF.Idx) :
    val_main_v167 (F := Ideal) a0 a1 a2 a3 a4 a5 i = L2 a0 a1 a2 a3 a4 a5 i := by
  obtain ⟨p, q, rfl⟩ : ∃ (p : Fin 50000) (q : Fin 128), i = ix2 p q := ⟨i 0, i 1, eq_ix2 i⟩
  rw [val_main_v167_apply, val_main_v166_apply, val_main_v163_apply, val_main_v160_apply, val_main_v155_apply,
    val_main_v154_apply, val_main_v159_apply, val_main_v158_apply, val_main_v157_apply, val_main_v156_apply,
    val_main_cst_31_apply, val_main_v162_apply, val_main_v161_apply, val_main_v140_apply, val_main_v139_apply,
    val_main_v165_apply, val_main_v164_apply, val_main_v142_apply, val_main_v141_apply, val_main_call1_v0_apply,
    val_main_call1_cst_apply]
  have e6 : idx_main_v139 (idx_main_v140 (idx_main_v161 (idx_main_v162 (ix2 p q)))) = ix2 (1 : Fin 3) q := by
    funext a
    match a with
    | ⟨0, _⟩ => rfl
    | ⟨1, _⟩ => exact Fin.ext (Nat.mod_eq_of_lt q.isLt)
  have e7 : idx_main_v141 (idx_main_v142 (idx_main_v164 (idx_main_v165 (ix2 p q)))) = ix2 (1 : Fin 3) q := by
    funext a
    match a with
    | ⟨0, _⟩ => rfl
    | ⟨1, _⟩ => exact Fin.ext (Nat.mod_eq_of_lt q.isLt)
  rw [e6, e7]
  simp only [Ideal.maximumf_def, Ideal.addf_def, Ideal.mulf_def, Ideal.subf_def, Ideal.hostUnary_rsqrt_def,
    Ideal.ofBits_def]
  refine (lnrelu_eq (val_main_v138 (F := Ideal) a0 a1 a2 a3 a4 a5) (rowv a4 1) (rowv a5 1) p q _ _ _ _
    (mean2 a0 a1 a2 a3 a4 a5 _ p rfl) (var2 a0 a1 a2 a3 a4 a5 _ p rfl) rfl rfl).trans ?_
  exact congrArg (fun P => lnrelu P (rowv a4 1) (rowv a5 1) (ix2 p q)) (funext (pre2 a0 a1 a2 a3 a4 a5))

/-! ## Layer 3 -/

/-- The layer's projection is the matrix product of the layer's input with the layer's weight matrix. -/
theorem mm3 (a0 : T0) (a1 : T1) (a2 : T2) (a3 a4 a5 : T3) (i : NF.Idx) :
    val_main_v172 (F := Ideal) a0 a1 a2 a3 a4 a5 i = mm (L2 a0 a1 a2 a3 a4 a5) (W a2 2) i := by
  rw [val_main_v172_apply]
  unfold mm
  refine Finset.sum_congr rfl (fun k _ => ?_)
  rw [val_main_v169_apply, val_main_v168_apply]
  have e1 : lidx_main_v172 i k = ix2 (i 0) k := by
    funext a; match a with | ⟨0, _⟩ => rfl | ⟨1, _⟩ => rfl
  have e2 : idx_main_v168 (idx_main_v169 (ridx_main_v172 i k)) = ix3 (2 : Fin 3) k (i 1) := by
    funext a
    match a with
    | ⟨0, _⟩ => rfl
    | ⟨1, _⟩ =>
      refine Fin.ext ?_
      have h1 := k.isLt
      have h2 := idx2_lt1 i
      show (k.val * 128 + (i 1).val) / 128 % 128 = k.val
      omega
    | ⟨2, _⟩ =>
      refine Fin.ext ?_
      have h1 := k.isLt
      have h2 := idx2_lt1 i
      show (k.val * 128 + (i 1).val) % 128 = (i 1).val
      omega
  rw [e1, e2]
  exact congrArg (fun t => t * a2 (ix3 (2 : Fin 3) k (i 1))) (layer2_read a0 a1 a2 a3 a4 a5 (ix2 (i 0) k))

/-- The layer's pre-activation: the edge sum, the self term and the bias. -/
theorem pre3 (a0 : T0) (a1 : T1) (a2 : T2) (a3 a4 a5 : T3) (i : NF.Idx) :
    val_main_v220 (F := Ideal) a0 a1 a2 a3 a4 a5 i = preR (L2 a0 a1 a2 a3 a4 a5) (W a2 2) a1 (rowv a3 2) i := by
  have h46 : val_main_v210 (F := Ideal) = fun _ => czero := by
    funext j
    rw [val_main_v210_apply, val_main_cst_43_apply]
    rfl
  have h45 : val_main_v209 (F := Ideal) a0 a1 a2 a3 a4 a5 = fun j =>
      (dinvT a1 (ix1 (rowOf (nsrcT a1 (ix2 (j 0) 0)))) * dinvT a1 (ix1 (rowOf (ndstT a1 (ix2 (j 0) 0)))))
        * mm (L2 a0 a1 a2 a3 a4 a5) (W a2 2) (ix2 (rowOf (nsrcT a1 (ix2 (j 0) 0))) (j 1)) := by
    funext j
    rw [val_main_v209_apply, val_main_v208_apply, val_main_v200_apply, val_main_v199_apply]
    unfold val_main_v191 val_main_v198 val_main_v207
    rw [gatherVec_apply _ rfl rfl rfl rfl rfl rfl rfl, gatherVec_apply _ rfl rfl rfl rfl rfl rfl rfl,
      gatherRows_apply _ rfl rfl rfl rfl rfl rfl rfl, mm3 a0 a1 a2 a3 a4 a5]
    rw [show val_main_v184 (F := Ideal) a1 = dinvT a1 from rfl, show val_main_v190 (F := Ideal) a1 = nsrcT a1 from rfl,
      show val_main_v197 (F := Ideal) a1 = ndstT a1 from rfl, show val_main_v206 (F := Ideal) a1 = nsrcT a1 from rfl,
      show idx_main_v200 (idx_main_v208 j) 0 = j 0 from rfl]
    rfl
  rw [val_main_v220_apply, val_main_v217_apply, val_main_v216_apply, val_main_v215_apply, val_main_v214_apply,
    val_main_v213_apply, val_main_v219_apply, val_main_v218_apply, val_main_v171_apply, val_main_v170_apply,
    mm3 a0 a1 a2 a3 a4 a5]
  rw [show val_main_v212 (F := Ideal) a0 a1 a2 a3 a4 a5 = Ideal.hostScatterAdd scatter_S50000x128_S800000x1_S800000x128_1_0_0_1
      (val_main_v210 (F := Ideal)) (val_main_v211 (F := Ideal) a1) (val_main_v209 (F := Ideal) a0 a1 a2 a3 a4 a5) from rfl]
  rw [h46, h45]
  have e3 : idx_main_v214 (idx_main_v215 i) = ix1 (i 0) := by
    funext a; match a with | ⟨0, _⟩ => rfl
  have e4 : idx_main_v170 (idx_main_v171 (idx_main_v218 (idx_main_v219 i))) = ix2 (2 : Fin 3) (i 1) := by
    funext a
    match a with
    | ⟨0, _⟩ => rfl
    | ⟨1, _⟩ => exact Fin.ext (Nat.mod_eq_of_lt (idx2_lt1 i))
  rw [e3, e4, show val_main_v184 (F := Ideal) a1 = dinvT a1 from rfl, show val_main_v211 (F := Ideal) a1 = dstT a1 from rfl]
  unfold preR rowv
  rfl

/-- The mean of row r of the pre-activation. -/
theorem mean3 (a0 : T0) (a1 : T1) (a2 : T2) (a3 a4 a5 : T3) (j : S50000x1.Idx) (r : Fin 50000) (hr : j 0 = r) :
    val_main_v228 (F := Ideal) a0 a1 a2 a3 a4 a5 j = rowMean (fun k => val_main_v220 (F := Ideal) a0 a1 a2 a3 a4 a5 (ix2 r k)) := by
  rw [val_main_v228_apply, val_main_v226_apply, val_main_v225_apply, val_main_v227_apply, val_main_cst_44_apply,
    val_main_cst_45_apply]
  have e : ∀ k : Fin 128, idx_main_v225 (idx_main_v226 j) k = ix2 r k := fun k => by
    funext a; match a with | ⟨0, _⟩ => exact hr | ⟨1, _⟩ => rfl
  simp only [Ideal.hostDivf_def, Ideal.ofBits_def, Ideal.ofBits_zero_f32, zero_add]
  refine congrArg (fun s => Ideal.div s c128) (Finset.sum_congr rfl (fun k _ => ?_))
  rw [e k]

/-- The variance of row r of the pre-activation. -/
theorem var3 (a0 : T0) (a1 : T1) (a2 : T2) (a3 a4 a5 : T3) (j : S50000x1.Idx) (r : Fin 50000) (hr : j 0 = r) :
    val_main_v235 (F := Ideal) a0 a1 a2 a3 a4 a5 j = rowVar (fun k => val_main_v220 (F := Ideal) a0 a1 a2 a3 a4 a5 (ix2 r k)) := by
  rw [val_main_v235_apply, val_main_v233_apply, val_main_v232_apply, val_main_v234_apply, val_main_cst_46_apply,
    val_main_cst_47_apply]
  have e : ∀ k : Fin 128, idx_main_v232 (idx_main_v233 j) k = ix2 r k := fun k => by
    funext a; match a with | ⟨0, _⟩ => exact hr | ⟨1, _⟩ => rfl
  simp only [Ideal.hostDivf_def, Ideal.ofBits_def, Ideal.ofBits_zero_f32, zero_add]
  refine congrArg (fun s => Ideal.div s c128) (Finset.sum_congr rfl (fun k _ => ?_))
  rw [e k, val_main_v231_apply, val_main_v230_apply, val_main_v229_apply,
    mean3 a0 a1 a2 a3 a4 a5 _ r rfl]
  rfl

/-- The layer's output: the pre-activation normalised row by row, scaled, shifted and clamped at zero. -/
theorem layer3_read (a0 : T0) (a1 : T1) (a2 : T2) (a3 a4 a5 : T3) (i : NF.Idx) :
    val_main_v249 (F := Ideal) a0 a1 a2 a3 a4 a5 i = L3 a0 a1 a2 a3 a4 a5 i := by
  obtain ⟨p, q, rfl⟩ : ∃ (p : Fin 50000) (q : Fin 128), i = ix2 p q := ⟨i 0, i 1, eq_ix2 i⟩
  rw [val_main_v249_apply, val_main_v248_apply, val_main_v245_apply, val_main_v242_apply, val_main_v237_apply,
    val_main_v236_apply, val_main_v241_apply, val_main_v240_apply, val_main_v239_apply, val_main_v238_apply,
    val_main_cst_48_apply, val_main_v244_apply, val_main_v243_apply, val_main_v222_apply, val_main_v221_apply,
    val_main_v247_apply, val_main_v246_apply, val_main_v224_apply, val_main_v223_apply, val_main_call2_v0_apply,
    val_main_call2_cst_apply]
  have e6 : idx_main_v221 (idx_main_v222 (idx_main_v243 (idx_main_v244 (ix2 p q)))) = ix2 (2 : Fin 3) q := by
    funext a
    match a with
    | ⟨0, _⟩ => rfl
    | ⟨1, _⟩ => exact Fin.ext (Nat.mod_eq_of_lt q.isLt)
  have e7 : idx_main_v223 (idx_main_v224 (idx_main_v246 (idx_main_v247 (ix2 p q)))) = ix2 (2 : Fin 3) q := by
    funext a
    match a with
    | ⟨0, _⟩ => rfl
    | ⟨1, _⟩ => exact Fin.ext (Nat.mod_eq_of_lt q.isLt)
  rw [e6, e7]
  simp only [Ideal.maximumf_def, Ideal.addf_def, Ideal.mulf_def, Ideal.subf_def, Ideal.hostUnary_rsqrt_def,
    Ideal.ofBits_def]
  refine (lnrelu_eq (val_main_v220 (F := Ideal) a0 a1 a2 a3 a4 a5) (rowv a4 2) (rowv a5 2) p q _ _ _ _
    (mean3 a0 a1 a2 a3 a4 a5 _ p rfl) (var3 a0 a1 a2 a3 a4 a5 _ p rfl) rfl rfl).trans ?_
  exact congrArg (fun P => lnrelu P (rowv a4 2) (rowv a5 2) (ix2 p q)) (funext (pre3 a0 a1 a2 a3 a4 a5))

/-! ## The head and the whole result -/

/-- The reference's result at (r, c): the third layer's row r times column c of the head's matrix, plus the head's bias. -/
theorem ref_result (a0 : FVec Ideal S50000x128 .f32) (a1 : IVec S2x800000 32) (a2 : FVec Ideal S3x128x128 .f32)
    (a3 a4 a5 : FVec Ideal S3x128 .f32) (a6 : FVec Ideal S128x40 .f32) (a7 : FVec Ideal S40 .f32) (i : S50000x40.Idx) :
    val_main_v253 (F := Ideal) a0 a1 a2 a3 a4 a5 a6 a7 i
      = (∑ k : Fin 128, L3 a0 a1 a2 a3 a4 a5 (ix2 (i 0) k) * a6 (ix2 k (i 1))) + a7 (ix1 (i 1)) := by
  rw [val_main_v253_apply, val_main_v250_apply, val_main_v252_apply, val_main_v251_apply]
  have e1 : ∀ k : Fin 128, lidx_main_v250 i k = ix2 (i 0) k := fun k => by
    funext a; match a with | ⟨0, _⟩ => rfl | ⟨1, _⟩ => rfl
  have e2 : ∀ k : Fin 128, ridx_main_v250 i k = ix2 k (i 1) := fun k => by
    funext a; match a with | ⟨0, _⟩ => rfl | ⟨1, _⟩ => rfl
  have e3 : idx_main_v251 (idx_main_v252 i) = ix1 (i 1) := by
    funext a; match a with | ⟨0, _⟩ => rfl
  rw [e3]
  simp only [e1, e2, Ideal.addf_def]
  refine congrArg (fun s => s + a7 (ix1 (i 1))) (Finset.sum_congr rfl (fun k _ => ?_))
  exact congrArg (fun t => t * a6 (ix2 k (i 1))) (layer3_read a0 a1 a2 a3 a4 a5 (ix2 (i 0) k))

end Cert.ReferenceIdeal.RefValue

end
-- ==== Proof.Bridge.lean ====
/-
  The two idealized programs' results are one function of the argument arrays.

  The tiled program's layer, read in the per-edge form, and the reference's layer are the same expression: the edge
  indices and deg^(-1/2) are prepared by the same operations in both programs, layer l's weight matrix is slab l of
  the weight array and its parameter rows are row l of the parameter arrays on both sides; so the three layers agree
  one after the other, and the head — a product with the last weight matrix plus the bias, the tiled program's over
  columns padded with zeros of which the first 40 are kept — agrees too.
-/
import proofs.«157623_j84000970375232_2_alg».proof.Proof.KernelValue
import proofs.«157623_j84000970375232_2_alg».proof.Proof.KLayer
import proofs.«157623_j84000970375232_2_alg».proof.Proof.HeadValue
import proofs.«157623_j84000970375232_2_alg».proof.Proof.KParams
import proofs.«157623_j84000970375232_2_alg».proof.Proof.RefValue

set_option maxRecDepth 16384

noncomputable section

namespace Cert.Bridge

open Cert.Gcn Idealize.ShloMosaic Idealize.ShloMosaic.ValueIdx Idealize.ShloMosaic.TcCoe Idealize.SL.Sem
open Cert.KernelIdeal Cert.KernelIdeal.KV
open Cert.ReferenceIdeal.RefValue (dinvT nsrcT ndstT dstT preR layerR W rowv L1 L2 L3 ref_result)

/-! ## One layer -/

/-- The per-edge pre-activations of the two programs are the same expression: the index preparation is the same chain of
    operations of the edge array on both sides. -/
theorem pre_eq (x : FVec Ideal S50000x128 .f32) (w : FVec Ideal S128x128 .f32) (a1 : IVec S2x800000 32) (b : FVec Ideal S1x128 .f32) :
    preEK x w a1 b = preR x w a1 (fun q => b (ix2 0 q)) := rfl

/-- So a layer of the tiled program is the reference's layer. -/
theorem layer_eq (x : FVec Ideal S50000x128 .f32) (a1 : IVec S2x800000 32) (w : FVec Ideal S128x128 .f32) (b g be : FVec Ideal S1x128 .f32) :
    layerK x a1 w b g be = layerR x w a1 (fun q => b (ix2 0 q)) (fun q => g (ix2 0 q)) (fun q => be (ix2 0 q)) := by
  rw [layerK_eq, pre_eq]
  rfl

/-! ## The parameters -/

theorem w0_eq (a2 : FVec Ideal S3x128x128 .f32) : w0K a2 = W a2 0 := by
  funext j
  obtain ⟨k, q, rfl⟩ : ∃ (k : Fin 128) (q : Fin 128), j = ix2 k q := ⟨j 0, j 1, eq_ix2 j⟩
  exact w0K_apply a2 k q
theorem w1_eq (a2 : FVec Ideal S3x128x128 .f32) : w1K a2 = W a2 1 := by
  funext j
  obtain ⟨k, q, rfl⟩ : ∃ (k : Fin 128) (q : Fin 128), j = ix2 k q := ⟨j 0, j 1, eq_ix2 j⟩
  exact w1K_apply a2 k q
theorem w2_eq (a2 : FVec Ideal S3x128x128 .f32) : w2K a2 = W a2 2 := by
  funext j
  obtain ⟨k, q, rfl⟩ : ∃ (k : Fin 128) (q : Fin 128), j = ix2 k q := ⟨j 0, j 1, eq_ix2 j⟩
  exact w2K_apply a2 k q
theorem row0_eq (a : FVec Ideal S3x128 .f32) : (fun q => row0K a (ix2 0 q)) = rowv a 0 := funext fun q => row0K_apply a q
theorem row1_eq (a : FVec Ideal S3x128 .f32) : (fun q => row1K a (ix2 0 q)) = rowv a 1 := funext fun q => row1K_apply a q
theorem row2_eq (a : FVec Ideal S3x128 .f32) : (fun q => row2K a (ix2 0 q)) = rowv a 2 := funext fun q => row2K_apply a q

/-! ## The three layers and the head -/

variable (a0 : FVec Ideal S50000x128 .f32) (a1 : IVec S2x800000 32) (a2 : FVec Ideal S3x128x128 .f32) (a3 a4 a5 : FVec Ideal S3x128 .f32)
  (a6 : FVec Ideal S128x40 .f32) (a7 : FVec Ideal S40 .f32)

theorem layer1_eq : layerK a0 a1 (w0K a2) (row0K a3) (row0K a4) (row0K a5) = L1 a0 a1 a2 a3 a4 a5 := by
  rw [layer_eq, w0_eq, row0_eq, row0_eq, row0_eq]
  rfl
theorem layer2_eq : layerK (layerK a0 a1 (w0K a2) (row0K a3) (row0K a4) (row0K a5)) a1 (w1K a2) (row1K a3) (row1K a4) (row1K a5) = L2 a0 a1 a2 a3 a4 a5 := by
  rw [layer1_eq, layer_eq, w1_eq, row1_eq, row1_eq, row1_eq]
  rfl
theorem layer3_eq : layerK (layerK (layerK a0 a1 (w0K a2) (row0K a3) (row0K a4) (row0K a5)) a1 (w1K a2) (row1K a3) (row1K a4) (row1K a5)) a1 (w2K a2) (row2K a3) (row2K a4) (row2K a5) = L3 a0 a1 a2 a3 a4 a5 := by
  rw [layer2_eq, layer_eq, w2_eq, row2_eq, row2_eq, row2_eq]
  rfl

/-- The head of the tiled program's three layers is the reference's result stage of the same arguments. -/
theorem result_fun :
    headK (layerK (layerK (layerK a0 a1 (w0K a2) (row0K a3) (row0K a4) (row0K a5)) a1 (w1K a2) (row1K a3) (row1K a4) (row1K a5)) a1 (w2K a2) (row2K a3) (row2K a4) (row2K a5)) a6 a7
      = Cert.ReferenceIdeal.Read.val_main_v253 (F := Ideal) a0 a1 a2 a3 a4 a5 a6 a7 := by
  funext i
  rw [headK_apply, layer3_eq]
  exact (ref_result a0 a1 a2 a3 a4 a5 a6 a7 i).symm

end Cert.Bridge

end
-- ==== Proof.lean ====
/-
  The certificate of a three-layer graph convolution network with layer normalisation and a linear head.

  The tiled program computes each layer as  dinv ⊙ (Σ_{edges into r} h'[src] + h' r) + b  with h' = dinv ⊙ (x·w) formed by a
  tiled matrix product, then normalises each row and clamps it at zero in a second tiled pass; the reference weights
  every edge's h[src] by dinv[src]·dinv[dst], adds dinv²·h, the bias, and normalises with whole-array operations. Over
  the extended reals the two agree because dinv = deg^(-1/2) is a non-negative real number for every node (deg is one plus
  a count), and such a factor moves across a finite sum of extended reals; everything else — products of sums, the row
  mean and variance, the final padded product — is the same expression on both sides once read index by index.

  The frames of the two tiled programs are the generated ones; the reference's run is read in four windows of its
  operation list; no rewrite was applied in idealizing the kernel, so the idealization claim is trivial.
-/
import proofs.«157623_j84000970375232_2_alg».proof.Defs
import proofs.«157623_j84000970375232_2_alg».proof.Proof.Gen.Kernel
import proofs.«157623_j84000970375232_2_alg».proof.Proof.Gen.Kernel.Frame
import proofs.«157623_j84000970375232_2_alg».proof.Proof.Gen.KernelIdeal
import proofs.«157623_j84000970375232_2_alg».proof.Proof.Gen.KernelIdeal.Frame
import proofs.«157623_j84000970375232_2_alg».proof.Proof.Gen.ReferenceIdeal
import proofs.«157623_j84000970375232_2_alg».proof.Proof.Gen.Pre_finite_inputs
import proofs.«157623_j84000970375232_2_alg».proof.Proof.KernelRun
import proofs.«157623_j84000970375232_2_alg».proof.Proof.KernelValue
import proofs.«157623_j84000970375232_2_alg».proof.Proof.RefRunThm
import proofs.«157623_j84000970375232_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no tiled region: its frame is its run with the result dropped. -/
theorem frame_ri : Cert.frame_ReferenceIdeal := fun m ρ _ =>
  (θ_run Cert.ReferenceIdeal.defs _ _).mono (fun _ h c => (h c).2) (Cert.ReferenceIdeal.Windows.ref_run (F := Ideal) m ρ)

theorem preserves : Cert.preserves_Kernel_KernelIdeal := trivial

/-- Both idealized programs end, from memories agreeing on the arguments, at the same result array: the tiled program's
    at the head of three pre-scaled layers, the reference's at the head of three per-edge layers, one function. -/
theorem algebraic : Cert.algebraic_KernelIdeal_ReferenceIdeal := by
  intro m ρ m' ρ' _ hagree
  refine ⟨fun c => Cert.KernelIdeal.Gen.W19 m ρ c (Proc.devRef .tc Cert.KernelIdeal.main_v90),
    Cert.KernelIdeal.Run.run_result m ρ, ?_⟩
  refine (θ_run Cert.ReferenceIdeal.defs _ _).mono (fun _ h c => ⟨(h c).1.trans ?_, (h c).2⟩)
    (Cert.ReferenceIdeal.Windows.ref_run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.Bridge.result_fun _ _ _ _ _ _ _ _).symm.trans (Cert.KernelIdeal.KV.W19_result m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
